-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1001x32 : Shape := ⟨2, ![1001, 32]⟩
abbrev S64x32 : Shape := ⟨2, ![64, 32]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S1001x32 : S_.BroadcastsInDim S1001x32 (![] : Fin 0 → Fin S1001x32.rank)
  reducesTo_S1001x32_S_d0_1 : S1001x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_arg5 : FVec F S1 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg0 main_v24
  let main_c_9 : IVec S_ 32 := constantI S_ 32 1000#32
  let main_v26 : IVec S16384 32 := broadcastInDim S16384 ![] bcast_S_S16384 main_c_9
  let main_v27 : IVec S16384 1 := cmpi .sle main_arg0 main_v26
  let main_v28 : IVec S16384 1 := andi main_v25 main_v27
  let main_c_10 : IVec S_ 1 := constantI S_ 1 1#1
  let main_v29 : IVec S_ 1 := (fun x v => Host.reduce IntOp.andi x v reducesTo_S16384_S_d0 h_S_) main_v28 main_c_10
  let main_v30 : IVec S_ 1 := andi main_v23 main_v29
  main_v30

def fn {F : FTy → Type} [FloatOps F] (main_arg0 : IVec S16384 32) (main_arg1 : FVec F S1001x32 .f32) (main_arg2 : FVec F S64x32 .f32) (main_arg3 : FVec F S64 .f32) (main_arg4 : FVec F S1x64 .f32) (main_arg5 : FVec F S1 .f32) : IVec S_ 1 :=
  let main_v0 : FVec F S1001x32 .f32 := Host.absf main_arg1
  let main_cst : FVec F S_ .f32 := constant S_ .f32 0x7F800000#32
  let main_v1 : FVec F S1001x32 .f32 := broadcastInDim S1001x32 ![] bcast_S_S1001x32 main_cst
  let main_v2 : IVec S1001x32 1 := cmpf .olt main_v0 main_v1
  let main_c : IVec S_ 1 := constantI S_ 1 1#1
  let main_v3 : IVec S_ 1 := (fun x v => Host.reduce IntOp.andi x v reducesTo_S1001x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1x64 .f32 := Host.absf main_arg4
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg0 main_arg5 main_v13 main_v16
-- ==== Kernel.lean ====
abbrev S16384 : Shape := ⟨1, ![16384]⟩
abbrev S1001x32 : Shape := ⟨2, ![1001, 32]⟩
abbrev S64x32 : Shape := ⟨2, ![64, 32]⟩
abbrev S64 : Shape := ⟨1, ![64]⟩
abbrev S1x64 : Shape := ⟨2, ![1, 64]⟩
abbrev S1 : Shape := ⟨1, ![1]⟩
abbrev S32x1001 : Shape := ⟨2, ![32, 1001]⟩
abbrev S32x64 : Shape := ⟨2, ![32, 64]⟩
abbrev S1x1 : Shape := ⟨2, ![1, 1]⟩
abbrev S8x128 : Shape := ⟨2, ![8, 128]⟩
abbrev S32x1024 : Shape := ⟨2, ![32, 1024]⟩
abbrev S64x1024 : Shape := ⟨2, ![64, 1024]⟩
abbrev S64x1 : Shape := ⟨2, ![64, 1]⟩
abbrev S1x1024 : Shape := ⟨2, ![1, 1024]⟩
abbrev S1x128 : Shape := ⟨2, ![1, 128]⟩
abbrev S1024 : Shape := ⟨1, ![1024]⟩
abbrev S512 : Shape := ⟨1, ![512]⟩
abbrev S_ : Shape := ⟨0, ![]⟩
abbrev S16 : Shape := ⟨1, ![16]⟩

abbrev nBuf : Table → Nat
  | .hbm => 12
  | .local .tc .vmem => 6
  | .local .scVector .vmem => 3
  | _ => 0

abbrev bufTy : (tb : Table) → Fin (nBuf tb) → BufTy
  | .hbm, ⟨0, _⟩ => ⟨S16384, .i32⟩
  | .hbm, ⟨1, _⟩ => ⟨S1001x32, .f32⟩
  | .hbm, ⟨2, _⟩ => ⟨S64x32, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S32x1001, .f32⟩
  | .hbm, ⟨7, _⟩ => ⟨S32x64, .f32⟩
  | .hbm, ⟨8, _⟩ => ⟨S1x1, .f32⟩
  | .hbm, ⟨9, _⟩ => ⟨S8x128, .f32⟩
  | .hbm, ⟨10, _⟩ => ⟨S1024, .f32⟩
  | .hbm, ⟨11, _⟩ => ⟨S16384, .f32⟩
  | .local .tc .vmem, ⟨0, _⟩ => ⟨S32x1024, .f32⟩
  | .local .tc .vmem, ⟨1, _⟩ => ⟨S32x64, .f32⟩
  | .local .tc .vmem, ⟨2, _⟩ => ⟨S64, .f32⟩
  | .local .tc .vmem, ⟨3, _⟩ => ⟨S1x64, .f32⟩
  | .local .tc .vmem, ⟨4, _⟩ => ⟨S1x1, .f32⟩
  | .local .tc .vmem, ⟨5, _⟩ => ⟨S8x128, .f32⟩
  | .local .scVector .vmem, ⟨0, _⟩ => ⟨S512, .i32⟩
  | .local .scVector .vmem, ⟨1, _⟩ => ⟨S1024, .f32⟩
  | .local .scVector .vmem, ⟨2, _⟩ => ⟨S512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0_scv : Ref sig .scVector := ⟨.hbm, 0, rfl⟩
abbrev main_v4_scv : Ref sig .scVector := ⟨.hbm, 10, rfl⟩
abbrev main_v5_scv : Ref sig .scVector := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c32_i32 : BitVec 32 := 32#32
  let v7 : BitVec 32 := Scalar.addi c0_i32_0 c32_i32
  let c1_i32 : BitVec 32 := 1#32
  ⟨c0_i32_0, v7, c1_i32⟩
def k1_off2 (k1_t1 : Fin k1_t1_loop.trips) : Fin 1 → Nat :=
  let c0_i32_0 : BitVec 32 := 0#32
  let c1_i32 : BitVec 32 := 1#32
  let arg10 : BitVec 32 := Scf.iv c0_i32_0 c1_i32 k1_t1
  let c16_i32 : BitVec 32 := 16#32
  let v8 : BitVec 32 := Scalar.muli arg10 c16_i32
  let v9 : Index := Scalar.indexCast v8
  ![v9.toNat]

def k1_chk1 (v10 : IVec S16 32) : Prop :=
  (∀ a x, ((![v10] : Fin 1 → IVec S16 32) a x).toNat < S1024.size a)
instance k1_chk1.dec : ∀ (v10 : IVec S16 32), Decidable (k1_chk1 v10) := fun v10 => decidable_of_iff' _ (Iff.of_eq (k1_chk1.eq_1 v10))
theorem k1_idx1_inb : ∀ (v10 : IVec S16 32) (k1_hw1 : k1_chk1 v10), ∀ a x, ((![v10] : Fin 1 → IVec S16 32) a x).toNat < S1024.size a := fun v10 k1_hw1 => k1_hw1
def k1_off3 (k1_t1 : Fin k1_t1_loop.trips) : Fin 1 → Nat :=
  let c0_i32_0 : BitVec 32 := 0#32
  let c1_i32 : BitVec 32 := 1#32
  let arg10 : BitVec 32 := Scf.iv c0_i32_0 c1_i32 k1_t1
  let c16_i32_2 : BitVec 32 := 16#32
  let v12 : BitVec 32 := Scalar.muli arg10 c16_i32_2
  let v13 : Index := Scalar.indexCast v12
  ![v13.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1001x32_S32x1001_1_0 : S1001x32.Transposes [1, 0] S32x1001
  transposes_S64x32_S32x64_1_0 : S64x32.Transposes [1, 0] S32x64
  bcast_S1_S1x1_1 : S1.BroadcastsInDim S1x1 (![1] : Fin 1 → Fin S1x1.rank)
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S64_S64_0 : ∀ a, (![0] : Fin 1 → Nat) a + S64.size a ≤ S64.size a
  h_S64 : 0 < S64.numel
  shapeCasts_S64_S64x1 : S64.ShapeCasts S64x1
  broadcasts_S64x1_S64x1024 : S64x1.Broadcasts S64x1024
  inb_S1x64_S1x64_0_0 : ∀ a, (![0, 0] : Fin 2 → Nat) a + S1x64.size a ≤ S1x64.size a
  h_S1x64 : 0 < S1x64.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S1x1024_o0_0_S1x128 : S1x1024.Slices ![0, 0] S1x128
  inb_S8x128_S1x128_0_0 : ∀ a, (![0, 0] : Fin 2 → Nat) a + S1x128.size a ≤ S8x128.size a
  h_S1x128 : 0 < S1x128.numel
  slices_S1x1024_o0_128_S1x128 : S1x1024.Slices ![0, 128] S1x128
  inb_S8x128_S1x128_1_0 : ∀ a, (![1, 0] : Fin 2 → Nat) a + S1x128.size a ≤ S8x128.size a
  slices_S1x1024_o0_256_S1x128 : S1x1024.Slices ![0, 256] S1x128
  inb_S8x128_S1x128_2_0 : ∀ a, (![2, 0] : Fin 2 → Nat) a + S1x128.size a ≤ S8x128.size a
  slices_S1x1024_o0_384_S1x128 : S1x1024.Slices ![0, 384] S1x128
  inb_S8x128_S1x128_3_0 : ∀ a, (![3, 0] : Fin 2 → Nat) a + S1x128.size a ≤ S8x128.size a
  slices_S1x1024_o0_512_S1x128 : S1x1024.Slices ![0, 512] S1x128
  inb_S8x128_S1x128_4_0 : ∀ a, (![4, 0] : Fin 2 → Nat) a + S1x128.size a ≤ S8x128.size a
  slices_S1x1024_o0_640_S1x128 : S1x1024.Slices ![0, 640] S1x128
  inb_S8x128_S1x128_5_0 : ∀ a, (![5, 0] : Fin 2 → Nat) a + S1x128.size a ≤ S8x128.size a
  slices_S1x1024_o0_768_S1x128 : S1x1024.Slices ![0, 768] S1x128
  inb_S8x128_S1x128_6_0 : ∀ a, (![6, 0] : Fin 2 → Nat) a + S1x128.size a ≤ S8x128.size a
  slices_S1x1024_o0_896_S1x128 : S1x1024.Slices ![0, 896] S1x128
  inb_S8x128_S1x128_7_0 : ∀ a, (![7, 0] : Fin 2 → Nat) a + S1x128.size a ≤ S8x128.size a
  shapeCasts_S8x128_S1024 : S8x128.ShapeCasts S1024
  h_S16 : 0 < S16.numel
  h_S1024 : 0 < S1024.numel
  dot_S32x64_S32x1024_S64x1024_0_0_1_1_n_n_wf : DotDims.WF S32x64 S32x1024 S64x1024 [0] [0] [1] [1] [] []
  dot_S1x64_S64x1024_S1x1024_1_0_0_1_n_n_wf : DotDims.WF S1x64 S64x1024 S1x1024 [1] [0] [0] [1] [] []
  hcc1_scratch3 : 6 + S_.numel ≤ 9
  hcc1_scratch4 : 7 + S_.numel ≤ 9
  hcc1_scoped0 : 8 + S_.numel ≤ 9
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hstart0_0 : ∀ (i : grid0.Coords) a, cc0_transform_0 i a * S32x1024.size a < S32x1001.size a
  hwx0_0 : ∀ i : grid0.Coords, EltTy.bits .f32 = 32 ∨ (Rect.unit (s := S32x1001) (fun a => cc0_transform_0 i a * S32x1024.size a) (fun a => (Pipeline.Clip.of (cc0_transform_0 i a) (S32x1024.size a) (S32x1001.size a)).extent (S32x1024.size a)) fun a => Pipeline.Clip.inb (Pipeline.Clip.ok_of (hstart0_0 i a))).WholeWords (EltTy.packing .f32)
  hwxs0_0 : ∀ i : grid0.Coords, EltTy.bits .f32 = 32 ∨ (Rect.unit (s := S32x1024) (fun _ => 0) (fun a => (Pipeline.Clip.of (cc0_transform_0 i a) (S32x1024.size a) (S32x1001.size a)).extent (S32x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hcore1 : grid1.bound 0 ≤ τ.nSC
  hsub1 : grid1.bound 1 ≤ τ.nSub
  k1_off1_inb : ∀ i : grid1.Coords, ∀ a, (k1_off1 i) a + S512.size a ≤ S16384.size a
  k1_t1_ok : k1_t1_loop.OK
  k1_off2_inb : ∀ k1_t1 : Fin k1_t1_loop.trips, ∀ a, (k1_off2 k1_t1) a + S16.size a ≤ S512.size a
  k1_off3_inb : ∀ k1_t1 : Fin k1_t1_loop.trips, ∀ a, (k1_off3 k1_t1) a + S16.size a ≤ S512.size a

variable [Facts₀]

abbrev cc1_scratch3 : DmaSems sig S_ := SemArray.consecutive 6 S_ hcc1_scratch3
abbrev cc1_scratch4 : DmaSems sig S_ := SemArray.consecutive 7 S_ hcc1_scratch4
abbrev cc1_scoped0 : DmaSems sig S_ := SemArray.consecutive 8 S_ hcc1_scoped0
def dot_S32x64_S32x1024_S64x1024_0_0_1_1_n_n : DotDims S32x64 S32x1024 S64x1024 where
  lhsContracting := [0]
  rhsContracting := [0]
  lhsNonContracting := [1]
  rhsNonContracting := [1]
  lhsBatch := []
  rhsBatch := []
  wf := dot_S32x64_S32x1024_S64x1024_0_0_1_1_n_n_wf
def dot_S1x64_S64x1024_S1x1024_1_0_0_1_n_n : DotDims S1x64 S64x1024 S1x1024 where
  lhsContracting := [1]
  rhsContracting := [0]
  lhsNonContracting := [0]
  rhsNonContracting := [1]
  lhsBatch := []
  rhsBatch := []
  wf := dot_S1x64_S64x1024_S1x1024_1_0_0_1_n_n_wf

abbrev win0_0 : Pipeline.Window sig grid0 :=
  Pipeline.Window.ofSpecClip (Memref.whole main_v0) S32x1024.size cc0_transform_0 reads0_0 false false 1 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384 : Shape := ⟨1, ![16384]⟩
abbrev S1001x32 : Shape := ⟨2, ![1001, 32]⟩
abbrev S64x32 : Shape := ⟨2, ![64, 32]⟩
abbrev S64 : Shape := ⟨1, ![64]⟩
abbrev S1x64 : Shape := ⟨2, ![1, 64]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x32 : Shape := ⟨2, ![16384, 32]⟩
abbrev S32x64 : Shape := ⟨2, ![32, 64]⟩
abbrev S16384x64 : Shape := ⟨2, ![16384, 64]⟩
abbrev S64x1 : Shape := ⟨2, ![64, 1]⟩

abbrev nBuf : Space → Nat
  | .hbm => 51
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1001x32, .f32⟩
  | .hbm, ⟨2, _⟩ => ⟨S64x32, .f32⟩
  | .hbm, ⟨3, _⟩ => ⟨S64, .f32⟩
  | .hbm, ⟨4, _⟩ => ⟨S1x64, .f32⟩
  | .hbm, ⟨5, _⟩ => ⟨S1, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x32, .f32⟩
  | .hbm, ⟨25, _⟩ => ⟨S16384x32, .i1⟩
  | .hbm, ⟨26, _⟩ => ⟨S_, .f32⟩
  | .hbm, ⟨27, _⟩ => ⟨S16384x32, .f32⟩
  | .hbm, ⟨28, _⟩ => ⟨S16384x32, .f32⟩
  | .hbm, ⟨29, _⟩ => ⟨S32x64, .f32⟩
  | .hbm, ⟨30, _⟩ => ⟨S16384x64, .f32⟩
  | .hbm, ⟨31, _⟩ => ⟨S1x64, .f32⟩
  | .hbm, ⟨32, _⟩ => ⟨S16384x64, .f32⟩
  | .hbm, ⟨33, _⟩ => ⟨S16384x64, .f32⟩
  | .hbm, ⟨34, _⟩ => ⟨S_, .f32⟩
  | .hbm, ⟨35, _⟩ => ⟨S16384x64, .f32⟩
  | .hbm, ⟨36, _⟩ => ⟨S16384x64, .f32⟩
  | .hbm, ⟨37, _⟩ => ⟨S64x1, .f32⟩
  | .hbm, ⟨38, _⟩ => ⟨S16384x1, .f32⟩
  | .hbm, ⟨39, _⟩ => ⟨S1x1, .f32⟩
  | .hbm, ⟨40, _⟩ => ⟨S16384x1, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_call1_cst : Ref sig .tc := ⟨.hbm, 34, rfl⟩
abbrev main_call1_v0 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst : Ref sig .tc := ⟨.hbm, 44, rfl⟩
abbrev main_v14 : Ref sig .tc := ⟨.hbm, 45, rfl⟩
abbrev main_v15 : Ref sig .tc := ⟨.hbm, 46, rfl⟩
abbrev main_cst_0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  transposes_S64x32_S32x64_1_0 : S64x32.Transposes [1, 0] S32x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S1x64_S64x1_1_0 : S1x64.Transposes [1, 0] S64x1
  shapeCasts_S16384x1_S16384 : S16384x1.ShapeCasts S16384
  gather_S1001x32_S16384x1_S16384x32_1_0_n_n_0_1_132_wf : GatherDims.WF S1001x32 S16384x1 S16384x32 [1] [0] [] [0] [] 1 ![1, 32]
  dot_S16384x32_S32x64_S16384x64_1_0_0_1_n_n_wf : DotDims.WF S16384x32 S32x64 S16384x64 [1] [0] [0] [1] [] []
  dot_S16384x64_S64x1_S16384x1_1_0_0_1_n_n_wf : DotDims.WF S16384x64 S64x1 S16384x1 [1] [0] [0] [1] [] []

variable [Facts₀]

def gather_S1001x32_S16384x1_S16384x32_1_0_n_n_0_1_132 : GatherDims S1001x32 S16384x1 S16384x32 where
  offsetDims := [1]
  collapsedSliceDims := [0]
  operandBatchingDims := []
  startIndicesBatchingDims := []
  startIndexMap := [0]
  indexVectorDim := 1
  sliceSizes := ![1, 32]
  wf := gather_S1001x32_S16384x1_S16384x32_1_0_n_n_0_1_132_wf
def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.KI.Base.lean ====
/-
  The program as the SparseCore launch theorem reads it, the ghost state of the proof, and names for the arrays.

  The second kernel runs on the 32 vector subcores of the two SparseCores. Subcore `(c, s)` is worker `2·s + c`; it owns
  the 512 batch positions `[512·(2s+c), 512·(2s+c) + 512)`. The ghost state has three parts: the launch handshakes'
  rounds, the rounds of the first kernel's staging semaphores, and the counters of the subcores' own local copies.
-/
import proofs.«217044_g88356067214146_cont_9to1_m_986_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217044_g88356067214146_cont_9to1_m_986_23_alg».proof.Proof.Gen.KernelIdeal
import proofs.«217044_g88356067214146_cont_9to1_m_986_23_alg».proof.Proof.Gen.KernelIdeal.Skeleton
import proofs.«217044_g88356067214146_cont_9to1_m_986_23_alg».proof.Proof.Gen.KernelIdeal.Launch

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-! ## The arrays -/

abbrev tLoc (d : Dev nD) : Loc nD τ sig := (SparseCore.T d).loc main_arg0
abbrev vLoc (d : Dev nD) : Loc nD τ sig := (SparseCore.T d).loc main_v4
abbrev oLoc (d : Dev nD) : Loc nD τ sig := (SparseCore.T d).loc main_v5

end Cert.KernelIdeal.SC

end
-- ==== Proof.KI.Good.lean ====
/-
  When a table of values is right for every admissible index word.
-/
import proofs.«217044_g88356067214146_cont_9to1_m_986_23_alg».proof.Proof.KI.Base

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-- `R w x` reads "`x` is a right value for the index word `w`". The table `tab` is good when its entry at the
    position a word `w ≤ 1000` names is a right value for `w`. -/
def Good (d : Dev nD) (R : BitVec 32 → F .f32 → Prop) (tab : Buf (Elt F) (vLoc d)) : Prop :=
  ∀ (j : S1024.Idx) (w : BitVec 32), (j 0).val = w.toNat → w.toNat ≤ 1000 → R w (tab j)

end Cert.KernelIdeal.SC

end
-- ==== Proof.KI.Chunks.lean ====
/-
  The result array of the second kernel, cut into the thirty-two chunks its vector subcores own.

  The kernel's grid is `[2, 16]`: subcore `(c, s)` works on the 512 consecutive positions from
  `1024·s + 512·c` of the length-16384 array, so it owns chunk `2·s + c` of the array's cut into 32 equal parts.
  The chunks are pairwise disjoint and cover the array; a separating conjunction over the 32 chunks is one over
  the two cores and, inside, the sixteen subcores; the whole array's points-to splits into the chunks' and the
  chunks' points-to, at whatever contents, join into the whole array's.
-/
import proofs.«217044_g88356067214146_cont_9to1_m_986_23_alg».proof.Proof.Gen.KernelIdeal
import Idealize.ShloMosaic.Lib.SparseCore.Launch
import Idealize.ShloMosaic.Lib.Pipeline.Kit

noncomputable section

namespace Cert.KernelIdeal.Chunks

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

/-! ## The chunks -/

theorem hdiv32 : 32 ∣ S16384.size 0 := ⟨512, rfl⟩

/-- Chunk `w`: positions `512·w` to `512·w + 511`. -/
abbrev part (w : Fin 32) : Rect S16384 := Rect.part (s := S16384) (a₀ := 0) hdiv32 w

abbrev chunkSetW (w : Fin 32) : Finset S16384.Idx := (part w).set

/-- The chunk of subcore `(c, s)`, given as the grid's coordinates: `2·s + c`. -/
def widL (L : grid1.Coords) : Fin 32 :=
  ⟨2 * (L 1).val + (L 0).val, by
    have h0 : (L 0).val < 2 := (L 0).isLt
    have h1 : (L 1).val < 16 := (L 1).isLt
    omega⟩

/-- The same from the core and the subcore. -/
def wCS (c : Fin 2) (s : Fin 16) : Fin 32 := ⟨2 * s.val + c.val, by omega⟩

/-- Unit-stride rectangles at equal offsets and of equal sizes are equal. -/
theorem unit_congr₂ {s : Shape} {off off' size size' : Fin s.rank → Nat} (ho : off = off') (hs : size = size')
    (p : ∀ a, off a + size a ≤ s.size a) (p' : ∀ a, off' a + size' a ≤ s.size a) :
    Rect.unit off size p = Rect.unit off' size' p' := by
  subst ho; subst hs; rfl

/-- The rectangle subcore `L` slices is its chunk: `1024·s + 512·c = (2·s + c)·512`. -/
theorem chunk_eq (L : grid1.Coords) :
    Rect.unit (s := S16384) (k1_off1 L) S512.size (k1_off1_inb L) = part (widL L) := by
  have hoff : k1_off1 L = fun a => S16384.partIx 0 (widL L) a * S16384.partSize 0 32 a := by
    rw [k1_off1_eq]
    funext a
    match a with
    | ⟨0, _⟩ =>
      show 1024 * (L 1).val + 512 * (L 0).val = (2 * (L 1).val + (L 0).val) * (16384 / 32)
      omega
  have hsize : S512.size = S16384.partSize 0 32 := by
    funext a
    match a with
    | ⟨0, _⟩ => rfl
  exact unit_congr₂ (s := S16384) hoff hsize _ _

/-- The elements under the slice subcore `L` takes of the whole array are its chunk's. -/
theorem chunkSet_eq (L : grid1.Coords) :
    (((Memref.whole main_v5_scv : Memref sig .scVector .hbm S16384 .f32).slice
      (Rect.unit (s := S16384) (k1_off1 L) S512.size (k1_off1_inb L)) (fun _ => rfl)).view).set = chunkSetW (widL L) := by
  show ((View.whole (main_v5_scv : Ref sig .scVector)).slice
    (Rect.unit (s := S16384) (k1_off1 L) S512.size (k1_off1_inb L))).set = _
  rw [View.set_slice, chunk_eq]
  exact Finset.map_refl

theorem chunks_disjoint : ∀ i ∈ (Finset.univ : Finset (Fin 32)), ∀ j ∈ (Finset.univ : Finset (Fin 32)), i ≠ j →
    Disjoint (chunkSetW i) (chunkSetW j) :=
  fun _ _ _ _ h => Rect.part_disjoint hdiv32 h

theorem chunks_cover : (Finset.univ : Finset (Fin 32)).biUnion chunkSetW = Finset.univ :=
  Rect.biUnion_part hdiv32

theorem mem_chunk (i : S16384.Idx) : ∃ w : Fin 32, i ∈ chunkSetW w :=
  Rect.exists_mem_part hdiv32 i

/-! ## A conjunction over the chunks is one over the cores and their subcores -/

theorem bigSep_workers {M : Type} [URA M] (Φ : Fin 32 → sProp M) :
    bigSep Finset.univ Φ
      = bigSep (Finset.univ : Finset (Fin 2)) fun c => bigSep (Finset.univ : Finset (Fin 16)) fun s => Φ (wCS c s) := by
  have himg : (Finset.univ : Finset (Fin 32))
      = ((Finset.univ : Finset (Fin 2)) ×ˢ (Finset.univ : Finset (Fin 16))).image fun p => wCS p.1 p.2 := by
    ext w
    simp only [Finset.mem_univ, Finset.mem_image, Finset.mem_product, true_and, true_iff]
    have hw := w.isLt
    refine ⟨(⟨w.val % 2, by omega⟩, ⟨w.val / 2, by omega⟩), ?_⟩
    apply Fin.ext
    show 2 * (w.val / 2) + w.val % 2 = w.val
    omega
  have hinj : Set.InjOn (fun p : Fin 2 × Fin 16 => wCS p.1 p.2)
      ↑((Finset.univ : Finset (Fin 2)) ×ˢ (Finset.univ : Finset (Fin 16))) := by
    intro p _ q _ h
    have hv : 2 * p.2.val + p.1.val = 2 * q.2.val + q.1.val := congrArg Fin.val h
    have h1 := p.1.isLt
    have h2 := q.1.isLt
    exact Prod.ext (Fin.ext (by omega)) (Fin.ext (by omega))
  rw [himg, SparseCore.bigSep_image_of_injOn hinj, SparseCore.bigSep_product]

/-! ## The array's points-to along the chunks -/

variable {F : FTy → Type} {Ix : Type} [DecidableEq Ix] {Name : Type} [DecidableEq Name] {U : Type} [URA U] {Lvl : Type}

local notation "𝕄" => MT nD τ sig Ix (Elt F) Name U Lvl

/-- The whole array held is its thirty-two chunks held. -/
theorem oPts_chunks (d : Dev nD) (f : Buf (Elt F) ((SparseCore.T d).loc main_v5)) :
    (((SparseCore.T d).loc main_v5 ↦{fullShare} f : sProp 𝕄))
      = bigSep Finset.univ fun w : Fin 32 => ((SparseCore.T d).loc main_v5 ↦[chunkSetW w]{fullShare} f) := by
  rw [← pointsTo_biUnion Finset.univ (ℓ := (SparseCore.T d).loc main_v5) chunkSetW chunks_disjoint, chunks_cover]; try rfl

/-- The chunks held, each at some contents, are the whole array held at some contents. -/
theorem oChunks_join [FloatOps F] (d : Dev nD) :
    (bigSep Finset.univ fun w : Fin 32 => iprop(∃ f, ((SparseCore.T d).loc main_v5 ↦[chunkSetW w]{fullShare} f)))
      ⊢ (iprop(∃ f, (SparseCore.T d).loc main_v5 ↦{fullShare} f) : sProp 𝕄) := by
  refine (bigSep_exists_pi Finset.univ
    (fun w (f : Buf (Elt F) ((SparseCore.T d).loc main_v5)) => ((SparseCore.T d).loc main_v5 ↦[chunkSetW w]{fullShare} f : sProp 𝕄))).trans ?_
  iintro ⟨%fs, H⟩
  ihave H' := (pointsTo_biUnion_join Finset.univ chunkSetW fs (fs 0) chunks_disjoint) $$ H
  icases H' with ⟨%g, -, Hg⟩
  rw [chunks_cover]
  iexists g; iexact Hg

end Cert.KernelIdeal.Chunks

end
-- ==== Proof.KI.Pay.lean ====
/-
  What the launch handshakes carry, and the launch element of the ghost state.

  The one SparseCore call hands each of the 32 vector subcores a read share of the index array, a read share of the table
  (at contents good for the relation `R`), and its own 512 positions of the result; each hands back its positions at
  contents right for its index words. A SparseCore's operands are its sixteen subcores' together, so the split among
  the subcores is the identity.
-/
import proofs.«217044_g88356067214146_cont_9to1_m_986_23_alg».proof.Proof.KI.Good
import proofs.«217044_g88356067214146_cont_9to1_m_986_23_alg».proof.Proof.KI.Chunks

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.KernelIdeal.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

/-- The worker number of subcore `i` of SparseCore `c` of the call's grid. -/
abbrev wOf (c : Fin ((K (F := F)).nCore 0)) (i : Fin ((K (F := F)).nSub 0)) : Fin 32 := wCS (Fin.cast nCore_zero c) (Fin.cast nSub_zero i)

/-- What worker `w` is handed: a read share of the index words, a read share of a good table, its positions of the result. -/
def goRes (d : Dev nD) (w : Fin 32) : sProp 𝕄 :=
  iprop((tLoc d ↦{Transfers.shareTok fullShare 32 w} m (tLoc d))
    ∗ (∃ tab, ⌜Good d (R d) tab⌝ ∗ vLoc d ↦{Transfers.shareTok fullShare 32 w} tab)
    ∗ (∃ fo, oLoc d ↦[chunkSetW w]{fullShare} fo))

/-- What worker `w` hands back: its positions of the result, each entry right for its index word. -/
def tdRes (d : Dev nD) (w : Fin 32) : sProp 𝕄 :=
  iprop(∃ f, ⌜∀ i ∈ chunkSetW w, R d (m (tLoc d) i) (f i)⌝ ∗ oLoc d ↦[chunkSetW w]{fullShare} f)

def P : (K (F := F)).Pay (nD := nD) (Val := Elt F) (Name := ℕ) (U := UU) where
  st := fun q d c => match q with | 0 => bigSep Finset.univ fun i : Fin ((K (F := F)).nSub 0) => goRes m R d (wOf c i)
  dn := fun q d c => match q with | 0 => bigSep Finset.univ fun i : Fin ((K (F := F)).nSub 0) => tdRes m R d (wOf c i)
  go := fun q d c i => match q with | 0 => goRes m R d (wOf c i)
  td := fun q d c i => match q with | 0 => tdRes m R d (wOf c i)
  x := fun _ _ => iprop(emp)

instance P_storable : (P (F := F) m R).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

theorem vecSplit : (K (F := F)).VecSplit' (P m R) 0 := by
  intro d c
  show (bigSep Finset.univ fun i : Fin ((K (F := F)).nSub 0) => goRes m R d (wOf c i)) ⊢ |={Set.univ}=> iprop(
      (bigSep Finset.univ fun i : Fin ((K (F := F)).nSub 0) => goRes m R d (wOf c i))
      ∗ ((bigSep Finset.univ fun i : Fin ((K (F := F)).nSub 0) => tdRes m R d (wOf c i))
          -∗ (bigSep Finset.univ fun i : Fin ((K (F := F)).nSub 0) => tdRes m R d (wOf c i))))
  iintro H; imodintro
  isplitl [H]; · iexact H
  iintro H; iexact H

/-! ## The launch element -/

def u₀ : UU := (initOf (K (F := F)).hsCells (K (F := F)).hsToks, (initOf (Pipeline.cells cfgs cellOf_inj) (Pipeline.launchToks cfgs cellOf_inj), 1))

/-- What the launch deals a device's TensorCore for the first kernel: its staging cells' rounds and duty tokens. -/
def G (d : Dev nD) : sProp 𝕄 := iprop(Pipeline.cellsGhost cfgs (EP (F := F)) 0 d ∗ Pipeline.toksInit cfgs (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m R).x q thr) := by
  unfold u₀
  iintro Hu
  ihave H := (ownU_pair _ _) $$ Hu
  icases H with ⟨HH, HP⟩
  ihave HP' := (show (BI.own ((embR : Emb (UP × Counters) 𝕄) (initOf (Pipeline.cells cfgs cellOf_inj) (Pipeline.launchToks cfgs cellOf_inj), 1)) : sProp 𝕄)
      ⊢ BI.own ((EP (F := F)) (initOf (Pipeline.cells cfgs cellOf_inj) (Pipeline.launchToks cfgs cellOf_inj))) from BI.Entails.refl _) $$ HP
  imod (Pipeline.fund_ghost cfgs (EP (F := F)) cellOf_inj) $$ HP' with ⟨Hc, Ht⟩
  imodintro
  isplitl [HH]; · iexact HH
  isplitl [Hc Ht]
  · unfold G
    rw [bigSep_sep']
    ihave Hc' := (Entails.of_eq (bigSep_congr (s := (Finset.univ : Finset (Dev nD))) fun c _ =>
      bigSep_univ_of_subsingleton (Φ := fun p => (Pipeline.cellsGhost cfgs (EP (F := F)) p c : sProp 𝕄)) (0 : Fin 1))) $$ Hc
    ihave Ht' := (Entails.of_eq (bigSep_congr (s := (Finset.univ : Finset (Dev nD))) fun c _ =>
      bigSep_univ_of_subsingleton (Φ := fun p => (Pipeline.toksInit cfgs (EP (F := F)) p c : sProp 𝕄)) (0 : Fin 1))) $$ Ht
    isplitl [Hc']
    · iexact Hc'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.SC

end
-- ==== Proof.KI.Table.lean ====
/-
  The table the first kernel leaves, as one function of what its body loads.

  The body's one non-trivial value is the row `[1, 1024]` of logistic values; the eight stores write its
  consecutive 128-lane pieces to the eight rows of the `[8, 128]` result, so the result at `(s, l)` is the row's entry
  `128·s + l`. The first operand's block is wider than its array (1024 columns against 1001): what the body loads agrees with
  the array on the array's own columns and is not determined beyond them.
-/
import proofs.«217044_g88356067214146_cont_9to1_m_986_23_alg».proof.Proof.Gen.KernelIdeal.Skeleton
import Idealize.ShloMosaic.Lib.ValueIdx

noncomputable section

namespace Cert.KernelIdeal.Tab

open Idealize.ShloMosaic Idealize.ShloMosaic.ValueIdx Cert.KernelIdeal Cert.KernelIdeal.Gen

variable {F : FTy → Type} [FloatOps F]

/-- Position `128·s + l` of the row, for the result's index `(s, l)`. -/
def col (j : S8x128.Idx) : Fin 1024 :=
  ⟨128 * (j 0).val + (j 1).val, by
    have h0 : (j 0).val < 8 := (j 0).isLt
    have h1 : (j 1).val < 128 := (j 1).isLt
    omega⟩

/-- The `[8, 128]` result as a function of the five loaded blocks. -/
def tabOut (w1t : Vec F S32x64 .f32) (x0 : Vec F S32x1024 .f32) (b1 : Vec F S64 .f32) (w2 : Vec F S1x64 .f32) (b2 : Vec F S1x1 .f32) :
    FVec F S8x128 .f32 :=
  fun j => k0_pay3 w1t x0 b1 w2 b2 (ix2 (0 : Fin 1) (col j))

/-- The loaded `[32, 1024]` block agrees with the `[32, 1001]` array on the array's columns. -/
def Agrees (et : FVec F S32x1001 .f32) (x0 : Vec F S32x1024 .f32) : Prop :=
  ∀ (k : Fin 32) (r : Fin 1001), x0 (ix2 k (⟨r.val, by have := r.isLt; omega⟩ : Fin 1024)) = et (ix2 k r)

end Cert.KernelIdeal.Tab

end
-- ==== Proof.KI.RegionPieces.lean ====
/-
  The eight stores of the table kernel's body as pieces of the result's `[8, 128]` block: store `k` writes row `k`,
  its payload the lanes `128·k … 128·k + 127` of the row of 1024 logistic values. The block after the body is the canon
  of the eight pieces; the eight rows tile the block.
-/
import proofs.«217044_g88356067214146_cont_9to1_m_986_23_alg».proof.Proof.KI.Table
import proofs.«217044_g88356067214146_cont_9to1_m_986_23_alg».proof.Proof.Gen.KernelIdeal.Skeleton
import Idealize.ShloMosaic.Lib.Pipeline.FrameBody
import Idealize.ShloMosaic.Lib.Ring

set_option maxRecDepth 16384

noncomputable section

namespace Cert.KernelIdeal.Region

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The eight rows of the result's block -/

abbrev r0 : Rect S8x128 := Rect.unit (s := S8x128) ![0, 0] S1x128.size inb_S8x128_S1x128_0_0
abbrev r1 : Rect S8x128 := Rect.unit (s := S8x128) ![1, 0] S1x128.size inb_S8x128_S1x128_1_0
abbrev r2 : Rect S8x128 := Rect.unit (s := S8x128) ![2, 0] S1x128.size inb_S8x128_S1x128_2_0
abbrev r3 : Rect S8x128 := Rect.unit (s := S8x128) ![3, 0] S1x128.size inb_S8x128_S1x128_3_0
abbrev r4 : Rect S8x128 := Rect.unit (s := S8x128) ![4, 0] S1x128.size inb_S8x128_S1x128_4_0
abbrev r5 : Rect S8x128 := Rect.unit (s := S8x128) ![5, 0] S1x128.size inb_S8x128_S1x128_5_0
abbrev r6 : Rect S8x128 := Rect.unit (s := S8x128) ![6, 0] S1x128.size inb_S8x128_S1x128_6_0
abbrev r7 : Rect S8x128 := Rect.unit (s := S8x128) ![7, 0] S1x128.size inb_S8x128_S1x128_7_0

/-- The eight stores as pieces, last first, over the five loaded blocks. -/
def pieces (w1t : Vec F S32x64 .f32) (x0 : Vec F S32x1024 .f32) (b1 : Vec F S64 .f32) (w2 : Vec F S1x64 .f32) (b2 : Vec F S1x1 .f32) :
    List (View.Piece (Elt F) S8x128 .f32) :=
  [⟨r7, k0_pay2 (k0_pay3 w1t x0 b1 w2 b2)⟩, ⟨r6, k0_pay1 (k0_pay3 w1t x0 b1 w2 b2)⟩, ⟨r5, k0_pay9 w1t x0 b1 w2 b2⟩,
    ⟨r4, k0_pay8 w1t x0 b1 w2 b2⟩, ⟨r3, k0_pay7 w1t x0 b1 w2 b2⟩, ⟨r2, k0_pay6 w1t x0 b1 w2 b2⟩,
    ⟨r1, k0_pay5 w1t x0 b1 w2 b2⟩, ⟨r0, k0_pay4 w1t x0 b1 w2 b2⟩]

/-- The result's block after the body: the canon of the eight stores. -/
def out5 [∀ e, Nonempty (Elt F e)] (w1t : Vec F S32x64 .f32) (x0 : Vec F S32x1024 .f32) (b1 : Vec F S64 .f32) (w2 : Vec F S1x64 .f32) (b2 : Vec F S1x1 .f32) :
    Vec F S8x128 .f32 :=
  View.canon (pieces w1t x0 b1 w2 b2)

/-- The eight rows tile the block, so the stores cover it. -/
theorem cover5 (w1t : Vec F S32x64 .f32) (x0 : Vec F S32x1024 .f32) (b1 : Vec F S64 .f32) (w2 : Vec F S1x64 .f32) (b2 : Vec F S1x1 .f32)
    (y : S8x128.Idx) : ∃ pc ∈ pieces w1t x0 b1 w2 b2, y ∈ pc.1.set :=
  View.cover_of_tiledL (pieces w1t x0 b1 w2 b2) S1x128.size (by rfl) y

end Cert.KernelIdeal.Region

end
-- ==== Proof.KI.RegionBody.lean ====
/-
  The table kernel's body on whole staging memrefs: it loads its five inputs' blocks, computes the row of 1024 logistic
  values and stores the row's eight 128-lane pieces to the eight rows of the result's block, each store after a load of
  the same row whose value nothing reads. The result's block after the body is the canon of the eight stores.
-/
import proofs.«217044_g88356067214146_cont_9to1_m_986_23_alg».proof.Proof.KI.RegionPieces
import proofs.«217044_g88356067214146_cont_9to1_m_986_23_alg».proof.Proof.Gen.KernelIdeal.Launch
import proofs.«217044_g88356067214146_cont_9to1_m_986_23_alg».proof.Proof.Gen.KernelIdeal.Points
import Idealize.ShloMosaic.Lib.Pipeline.Value
import Idealize.ShloMosaic.Lib.Tactic

set_option maxRecDepth 16384

noncomputable section

namespace Cert.KernelIdeal.Region

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's triple -/

set_option maxHeartbeats 4000000 in
/-- The kernel body on whole staging memrefs, the five inputs' at contents `x0`, `w1t`, `b1`, `w2`, `b2` and the
    result's at anything, runs to the continuation holding the inputs' as they were and the result's at `out5` of the
    inputs': every load reads a whole input block, and the eight stores cover the result's block. -/
theorem sound_kernel [∀ e, Nonempty (Elt F e)] (c : Dev nD) (E : Set Name) (i : grid0.Coords)
    (arg1 : Memref sig .tc .vmem S32x1024 .f32) (harg1 : arg1.IsWhole) (arg2 : Memref sig .tc .vmem S32x64 .f32) (harg2 : arg2.IsWhole)
    (arg3 : Memref sig .tc .vmem S64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S8x128 .f32) (harg6 : arg6.IsWhole)
    (x0 : Vec F S32x1024 .f32) (w1t : Vec F S32x64 .f32) (b1 : Vec F S64 .f32) (w2 : Vec F S1x64 .f32) (b2 : Vec F S1x1 .f32)
    (K : PUnit → sProp 𝕄) :
    iprop(owns (c : Thread nD τ) arg1 fullShare x0 ∗ owns (c : Thread nD τ) arg2 fullShare w1t ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x0 ∗ owns (c : Thread nD τ) arg2 fullShare w1t ∗ owns (c : Thread nD τ) arg3 fullShare b1
            ∗ owns (c : Thread nD τ) arg4 fullShare w2 ∗ owns (c : Thread nD τ) arg5 fullShare b2
            ∗ owns (c : Thread nD τ) arg6 fullShare (out5 w1t x0 b1 w2 b2)) -∗ K ⟨⟩))
      ⊢ wp frame (wpE (defs₀ (F := F)) Variants.none (c : Thread nD τ) none) E
          (cc0__table_body i arg1 harg1 arg2 harg2 arg3 harg3 arg4 harg4 arg5 harg5 arg6 harg6) K := by
  simp only [cc0__table_body_eq_skeleton]; unfold cc0__table_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  -- a load through the whole-block rectangle at offsets zero reads the block
  have hz2 : (![0, 0] : Fin 2 → Nat) = fun _ => 0 := funext fun a => by fin_cases a <;> rfl
  have hz1 : (![0] : Fin 1 → Nat) = fun _ => 0 := funext fun a => by fin_cases a; rfl
  have e1 : View.readAt (Elt F) arg1.view (Rect.unit (s := S32x1024) ![0, 0] S32x1024.size inb_S32x1024_S32x1024_0_0).toLoadRect f1
      = View.read (Elt F) arg1.view f1 := View.ld_unit_zero hz2 _ _
  have e2 : View.readAt (Elt F) arg2.view (Rect.unit (s := S32x64) ![0, 0] S32x64.size inb_S32x64_S32x64_0_0).toLoadRect f2
      = View.read (Elt F) arg2.view f2 := View.ld_unit_zero hz2 _ _
  have e3 : View.readAt (Elt F) arg3.view (Rect.unit (s := S64) ![0] S64.size inb_S64_S64_0).toLoadRect f3
      = View.read (Elt F) arg3.view f3 := View.ld_unit_zero hz1 _ _
  have e4 : View.readAt (Elt F) arg4.view (Rect.unit (s := S1x64) ![0, 0] S1x64.size inb_S1x64_S1x64_0_0).toLoadRect f4
      = View.read (Elt F) arg4.view f4 := View.ld_unit_zero hz2 _ _
  have e5 : View.readAt (Elt F) arg5.view (Rect.unit (s := S1x1) ![0, 0] S1x1.size inb_S1x1_S1x1_0_0).toLoadRect f5
      = View.read (Elt F) arg5.view f5 := View.ld_unit_zero hz2 _ _
  rw [e1, e2, e3, e4, e5]
  exact View.read_writes_eq_canon _ _ _ (cover5 (F := F) _ _ _ _ _)

end Cert.KernelIdeal.Region

end
-- ==== Proof.KI.RegionValue.lean ====
/-
  What the eight stores leave is the table: store `k`'s payload at lane `l` is the row of logistic values at
  `128·k + l`, which is the table's entry at the index `(k, l)` under the store's rectangle — for every piece, so the
  canon of the pieces is the table at every index (the pieces cover the block).
-/
import proofs.«217044_g88356067214146_cont_9to1_m_986_23_alg».proof.Proof.KI.RegionPieces
import Idealize.ShloMosaic.Lib.Pipeline.Value

set_option maxRecDepth 16384

noncomputable section

namespace Cert.KernelIdeal.Region

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.ValueIdx

/-- A 128-lane slice of a `[1, 1024]` row at lane offset `o`, read at `x`, is the row at lane `o + x 1`. -/
theorem slice_apply {α : Type} (v : S1x1024.Idx → α) (o : Nat) (h : S1x1024.Slices ![0, o] S1x128) (x : S1x128.Idx)
    (hlt : o + (x 1).val < 1024) :
    extractStridedSlice S1x128 ![0, o] v h x = v (ix2 (0 : Fin 1) (⟨o + (x 1).val, hlt⟩ : Fin 1024)) := by
  refine extractStridedSlice_apply ![0, o] v h x _ fun a => ?_
  have h00 : (x 0).val < 1 := (x 0).isLt
  match a with
  | ⟨0, _⟩ => show 0 = 0 + (x 0).val; omega
  | ⟨1, _⟩ => show o + (x 1).val = o + (x 1).val; rfl

/-- The table at the index `(k, x 1)` under row `k`'s rectangle is the row of logistic values at lane `128·k + x 1`. -/
theorem tabOut_row (w1t : Vec F S32x64 .f32) (x0 : Vec F S32x1024 .f32) (b1 : Vec F S64 .f32) (w2 : Vec F S1x64 .f32) (b2 : Vec F S1x1 .f32)
    (k o : Nat) (ho : 128 * k = o) (inb : ∀ a, (![k, 0] : Fin 2 → Nat) a + S1x128.size a ≤ S8x128.size a) (x : S1x128.Idx)
    (hlt : o + (x 1).val < 1024) :
    Tab.tabOut w1t x0 b1 w2 b2 ((Rect.unit (s := S8x128) ![k, 0] S1x128.size inb).emb x)
      = k0_pay3 w1t x0 b1 w2 b2 (ix2 (0 : Fin 1) (⟨o + (x 1).val, hlt⟩ : Fin 1024)) := by
  unfold Tab.tabOut
  refine congrArg (k0_pay3 w1t x0 b1 w2 b2) (congrArg (ix2 (0 : Fin 1)) (Fin.ext ?_))
  have h00 : (x 0).val < 1 := (x 0).isLt
  show 128 * (k + 1 * (x 0).val) + (0 + 1 * (x 1).val) = o + (x 1).val
  omega

/-- Store `k`'s payload, the row's slice at lane offset `o = 128·k`, is the table under row `k`'s rectangle. -/
theorem piece_ok (w1t : Vec F S32x64 .f32) (x0 : Vec F S32x1024 .f32) (b1 : Vec F S64 .f32) (w2 : Vec F S1x64 .f32) (b2 : Vec F S1x1 .f32)
    (k o : Nat) (ho : 128 * k = o) (hk : o + 128 ≤ 1024) (inb : ∀ a, (![k, 0] : Fin 2 → Nat) a + S1x128.size a ≤ S8x128.size a)
    (h : S1x1024.Slices ![0, o] S1x128) (x : S1x128.Idx) :
    extractStridedSlice S1x128 ![0, o] (k0_pay3 w1t x0 b1 w2 b2) h x
      = Tab.tabOut w1t x0 b1 w2 b2 ((Rect.unit (s := S8x128) ![k, 0] S1x128.size inb).emb x) := by
  have h1 : (x 1).val < 128 := (x 1).isLt
  have hlt : o + (x 1).val < 1024 := by omega
  exact (slice_apply _ o h x hlt).trans (tabOut_row w1t x0 b1 w2 b2 k o ho inb x hlt).symm

/-- The result's block after the body is the table of the five loaded blocks. -/
theorem out5_eq_tabOut [∀ e, Nonempty (Elt F e)] (w1t : Vec F S32x64 .f32) (x0 : Vec F S32x1024 .f32) (b1 : Vec F S64 .f32) (w2 : Vec F S1x64 .f32)
    (b2 : Vec F S1x1 .f32) : out5 w1t x0 b1 w2 b2 = Tab.tabOut w1t x0 b1 w2 b2 := by
  funext y
  refine View.canon_apply_of_pieces (Tab.tabOut w1t x0 b1 w2 b2) (pieces w1t x0 b1 w2 b2) ?_ y (cover5 w1t x0 b1 w2 b2 y)
  intro p hp x
  simp only [pieces, List.mem_cons, List.mem_nil_iff, or_false] at hp
  rcases hp with rfl | rfl | rfl | rfl | rfl | rfl | rfl | rfl
  · exact piece_ok w1t x0 b1 w2 b2 7 896 rfl (by decide) inb_S8x128_S1x128_7_0 slices_S1x1024_o0_896_S1x128 x
  · exact piece_ok w1t x0 b1 w2 b2 6 768 rfl (by decide) inb_S8x128_S1x128_6_0 slices_S1x1024_o0_768_S1x128 x
  · exact piece_ok w1t x0 b1 w2 b2 5 640 rfl (by decide) inb_S8x128_S1x128_5_0 slices_S1x1024_o0_640_S1x128 x
  · exact piece_ok w1t x0 b1 w2 b2 4 512 rfl (by decide) inb_S8x128_S1x128_4_0 slices_S1x1024_o0_512_S1x128 x
  · exact piece_ok w1t x0 b1 w2 b2 3 384 rfl (by decide) inb_S8x128_S1x128_3_0 slices_S1x1024_o0_384_S1x128 x
  · exact piece_ok w1t x0 b1 w2 b2 2 256 rfl (by decide) inb_S8x128_S1x128_2_0 slices_S1x1024_o0_256_S1x128 x
  · exact piece_ok w1t x0 b1 w2 b2 1 128 rfl (by decide) inb_S8x128_S1x128_1_0 slices_S1x1024_o0_128_S1x128 x
  · exact piece_ok w1t x0 b1 w2 b2 0 0 rfl (by decide) inb_S8x128_S1x128_0_0 slices_S1x1024_o0_0_S1x128 x

end Cert.KernelIdeal.Region

end
-- ==== Proof.KI.Region.lean ====
/-
  The TensorCore region of @main (custom_call 0, the table kernel) as one step of the thread's run: from the six
  arrays of the call held whole — the first operand's `[32, 1001]` array, the four other operands, the result — the call runs
  to the same arrays, the operands unchanged and the result holding the table `Tab.tabOut` of the operands' blocks, where
  the first operand's `[32, 1024]` block agrees with its array on the array's 1001 columns and is not determined beyond them
  (the block overhangs the array: its fetch is cut at the array's end).

  The pipeline's proof data is relational: each input's staging buffer is left as found, and the result's is left at the
  table of SOME block agreeing with the first operand's array — what the body computes from the block it finds, whose
  columns past the array's end nothing names. The grid has one point: every input is fetched there and the result written
  back, whole.
-/
import proofs.«217044_g88356067214146_cont_9to1_m_986_23_alg».proof.Proof.KI.RegionBody
import proofs.«217044_g88356067214146_cont_9to1_m_986_23_alg».proof.Proof.KI.RegionValue
import proofs.«217044_g88356067214146_cont_9to1_m_986_23_alg».proof.Proof.Gen.KernelIdeal.Launch
import proofs.«217044_g88356067214146_cont_9to1_m_986_23_alg».proof.Proof.Gen.KernelIdeal.Points
import Idealize.ShloMosaic.Lib.Pipeline.Regions
import Idealize.ShloMosaic.Lib.Pipeline.Kit
import Idealize.ShloMosaic.Lib.Tactic

set_option maxRecDepth 16384

noncomputable section

namespace Cert.KernelIdeal.Region

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.ValueIdx
open Idealize.ShloMosaic.Pipeline (cellOf)

variable {Ix : Type} [DecidableEq Ix] {Name : Type} [DecidableEq Name] {U : Type} [URA U] {Lvl : Type} [Preorder Lvl]

local notation "𝕄" => MT nD τ sig Ix (Elt F) Name U Lvl

/-- The pipeline has no prefetched table: its admissible tables are the trivial ones. -/
abbrev adm : (p : Fin 1) → (pcfgs (F := F) p).Adm := fun p => (cfgs p).toPCfg_adm

/-- The kernel's variants: none. -/
abbrev 𝒱₀ : Variants := Variants.none

/-- Buffer `b` of core `c`'s TensorCore held whole at `f`. -/
abbrev pl (c : Dev nD) (b : Ref sig .tc) (f : b.ty.Contents (Elt F)) : sProp 𝕄 := ((c.tc : Thread nD τ).loc b) ↦{fullShare} f

/-! ## The schedule's arithmetic at the one point -/

/-- The first operand's transfer moves 32 rows and the array's 1001 columns of its `[32, 1024]` block. -/
theorem xsize0 : ∀ (t : Fin grid0.N) (a : Fin 2), win0_0.xsize (grid0.coords t) a = (![32, 1001] : Fin 2 → Nat) a := by decide +kernel
/-- Every window's block starts at the array's origin. -/
theorem off0 : ∀ (t : Fin grid0.N) (a : Fin 2), win0_0.index t a * win0_0.size a = 0 := by decide +kernel
theorem off1 : ∀ (t : Fin grid0.N) (a : Fin 2), win0_1.index t a * win0_1.size a = 0 := by decide +kernel
theorem off2 : ∀ (t : Fin grid0.N) (a : Fin 1), win0_2.index t a * win0_2.size a = 0 := by decide +kernel
theorem off3 : ∀ (t : Fin grid0.N) (a : Fin 2), win0_3.index t a * win0_3.size a = 0 := by decide +kernel
theorem off4 : ∀ (t : Fin grid0.N) (a : Fin 2), win0_4.index t a * win0_4.size a = 0 := by decide +kernel
theorem off5 : ∀ (t : Fin grid0.N) (a : Fin 2), win0_5.index t a * win0_5.size a = 0 := by decide +kernel

/-! ## What the fetches stage -/

/-- The first operand's staging buffer after its cut fetch agrees with the array on the array's columns. -/
theorem agrees_fill (et : FVec F S32x1001 .f32) (t : Fin grid0.N) (d : S32x1024.Idx → Elt F .f32) :
    Tab.Agrees et (win0_0.fill (grid0.coords t) d ((win0_0.blk t).view.read (Elt F) et)) := by
  intro k r
  have hm : win0_0.moved (grid0.coords t) (ix2 k (⟨r.val, by have := r.isLt; omega⟩ : Fin 1024)) = true :=
    (win0_0.moved_iff _ _).mpr fun a => by
      rw [xsize0 t a]
      match a with
      | ⟨0, _⟩ => exact k.isLt
      | ⟨1, _⟩ => exact r.isLt
  unfold Pipeline.Window.fill; rw [dif_pos hm]
  show et ((win0_0.rect t).emb _) = et (ix2 k r)
  refine congrArg et (funext fun a => Fin.ext ?_)
  rw [Rect.emb_apply]
  show win0_0.index t a * win0_0.size a + 1 * _ = _
  rw [off0 t a]
  match a with
  | ⟨0, _⟩ => show 0 + 1 * k.val = k.val; omega
  | ⟨1, _⟩ => show 0 + 1 * r.val = r.val; omega

/-- An uncut whole-array fetch stages the array. -/
theorem fill_1 (A : FVec F S32x64 .f32) (t : Fin grid0.N) (d : S32x64.Idx → Elt F .f32) :
    win0_1.fill (grid0.coords t) d ((win0_1.blk t).view.read (Elt F) A) = A := by
  funext j
  have hm : win0_1.moved (grid0.coords t) j = true := (win0_1.moved_iff _ j).mpr fun a => (j a).isLt
  unfold Pipeline.Window.fill; rw [dif_pos hm]
  show A ((win0_1.rect t).emb _) = A j
  refine congrArg A (funext fun a => Fin.ext ?_)
  rw [Rect.emb_apply]
  show win0_1.index t a * win0_1.size a + 1 * (j a).val = (j a).val
  rw [off1 t a]; omega
theorem fill_2 (A : FVec F S64 .f32) (t : Fin grid0.N) (d : S64.Idx → Elt F .f32) :
    win0_2.fill (grid0.coords t) d ((win0_2.blk t).view.read (Elt F) A) = A := by
  funext j
  have hm : win0_2.moved (grid0.coords t) j = true := (win0_2.moved_iff _ j).mpr fun a => (j a).isLt
  unfold Pipeline.Window.fill; rw [dif_pos hm]
  show A ((win0_2.rect t).emb _) = A j
  refine congrArg A (funext fun a => Fin.ext ?_)
  rw [Rect.emb_apply]
  show win0_2.index t a * win0_2.size a + 1 * (j a).val = (j a).val
  rw [off2 t a]; omega
theorem fill_3 (A : FVec F S1x64 .f32) (t : Fin grid0.N) (d : S1x64.Idx → Elt F .f32) :
    win0_3.fill (grid0.coords t) d ((win0_3.blk t).view.read (Elt F) A) = A := by
  funext j
  have hm : win0_3.moved (grid0.coords t) j = true := (win0_3.moved_iff _ j).mpr fun a => (j a).isLt
  unfold Pipeline.Window.fill; rw [dif_pos hm]
  show A ((win0_3.rect t).emb _) = A j
  refine congrArg A (funext fun a => Fin.ext ?_)
  rw [Rect.emb_apply]
  show win0_3.index t a * win0_3.size a + 1 * (j a).val = (j a).val
  rw [off3 t a]; omega
theorem fill_4 (A : FVec F S1x1 .f32) (t : Fin grid0.N) (d : S1x1.Idx → Elt F .f32) :
    win0_4.fill (grid0.coords t) d ((win0_4.blk t).view.read (Elt F) A) = A := by
  funext j
  have hm : win0_4.moved (grid0.coords t) j = true := (win0_4.moved_iff _ j).mpr fun a => (j a).isLt
  unfold Pipeline.Window.fill; rw [dif_pos hm]
  show A ((win0_4.rect t).emb _) = A j
  refine congrArg A (funext fun a => Fin.ext ?_)
  rw [Rect.emb_apply]
  show win0_4.index t a * win0_4.size a + 1 * (j a).val = (j a).val
  rw [off4 t a]; omega

/-- The result's whole-block write-back overwrites the array with the staging buffer's contents. -/
theorem write_5 (G₀ X : FVec F S8x128 .f32) (t : Fin grid0.N) :
    (win0_5.blk t).view.write (Elt F) G₀ (win0_5.cut (grid0.coords t) X) Finset.univ = X :=
  Memref.write_access_unit_zero_univ (Elt F) main_v3 (funext (off5 t)) _ G₀ X

/-! ## The pipeline's proof data -/

section Data

variable (et : FVec F S32x1001 .f32) (w1t : FVec F S32x64 .f32) (b1 : FVec F S64 .f32) (w2 : FVec F S1x64 .f32) (b2 : FVec F S1x1 .f32)
  (o : FVec F S8x128 .f32)

/-- The proof data of the one pipeline on core `c`: the six arrays at the contents the region is entered with; each
    input's staging buffer left as found, the result's left at the table of some block agreeing with the first operand's
    array; no invariant; the core owing `O` throughout, its recorded pairs within `B`; full shares. -/
def rdat (O : CellTallies nD τ sig Ix) (B : Set (SemLoc sig × Ix)) (c : Dev nD) : Pipeline.RDat τ (Elt F) Ix Name U Lvl cfg0 c where
  A w := match w with
    | ⟨0, _⟩ => et
    | ⟨1, _⟩ => w1t
    | ⟨2, _⟩ => b1
    | ⟨3, _⟩ => w2
    | ⟨4, _⟩ => b2
    | ⟨5, _⟩ => o
  after w _ := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => ∃ x0 : Vec F S32x1024 .f32, Tab.Agrees et x0 ∧ X = Tab.tabOut w1t x0 b1 w2 b2
  Φ _ := iprop(emp)
  q _ := fullShare
  owed _ := O
  recorded _ := B

variable {et w1t b1 w2 b2 o}
variable {O : CellTallies nD τ sig Ix} {B : Set (SemLoc sig × Ix)} {c : Dev nD}

local notation "𝕕" => (rdat (Ix := Ix) (Name := Name) (U := U) (Lvl := Lvl) et w1t b1 w2 b2 o O B c)

/-- What the body finds in the first operand's staging buffer agrees with the array on the array's columns; -/
theorem finds0 {t : Fin cfg0.N} {Y} (h : (𝕕).Finds 0 t Y) : Tab.Agrees et Y := by
  obtain ⟨d, rfl⟩ := ((𝕕).finds_of_fetch (fetch0_0 t) Y).mp h
  unfold Pipeline.RDat.fetched Pipeline.RDat.blockOf
  dsimp only [rdat]
  exact agrees_fill et t d
/-- in the four other operands' buffers it finds their arrays. -/
theorem finds1 {t : Fin cfg0.N} {Y} (h : (𝕕).Finds 1 t Y) : Y = w1t := by
  obtain ⟨d, rfl⟩ := ((𝕕).finds_of_fetch (fetch0_1 t) Y).mp h
  unfold Pipeline.RDat.fetched Pipeline.RDat.blockOf
  dsimp only [rdat]
  exact fill_1 w1t t d
theorem finds2 {t : Fin cfg0.N} {Y} (h : (𝕕).Finds 2 t Y) : Y = b1 := by
  obtain ⟨d, rfl⟩ := ((𝕕).finds_of_fetch (fetch0_2 t) Y).mp h
  unfold Pipeline.RDat.fetched Pipeline.RDat.blockOf
  dsimp only [rdat]
  exact fill_2 b1 t d
theorem finds3 {t : Fin cfg0.N} {Y} (h : (𝕕).Finds 3 t Y) : Y = w2 := by
  obtain ⟨d, rfl⟩ := ((𝕕).finds_of_fetch (fetch0_3 t) Y).mp h
  unfold Pipeline.RDat.fetched Pipeline.RDat.blockOf
  dsimp only [rdat]
  exact fill_3 w2 t d
theorem finds4 {t : Fin cfg0.N} {Y} (h : (𝕕).Finds 4 t Y) : Y = b2 := by
  obtain ⟨d, rfl⟩ := ((𝕕).finds_of_fetch (fetch0_4 t) Y).mp h
  unfold Pipeline.RDat.fetched Pipeline.RDat.blockOf
  dsimp only [rdat]
  exact fill_4 b2 t d

/-- After the one write-back the result's array holds the table of some block agreeing with the first operand's array. -/
theorem arrAt5 {G} (h : (𝕕).ArrAt 5 cfg0.N G) : ∃ x0 : Vec F S32x1024 .f32, Tab.Agrees et x0 ∧ G = Tab.tabOut w1t x0 b1 w2 b2 := by
  rw [show cfg0.N = t0_0.val + 1 from rfl, (𝕕).ArrAt_succ 5 t0_0, if_pos (flush0_5 t0_0)] at h
  obtain ⟨G₀, X, -, ⟨Y, -, hX⟩, rfl⟩ := h
  dsimp only [rdat] at hX
  obtain ⟨x0, hx, rfl⟩ := hX
  exact ⟨x0, hx, write_5 G₀ _ t0_0⟩

end Data

/-! ## The body obligation -/

section Body

variable [∀ e, Nonempty (Elt F e)]
variable (et : FVec F S32x1001 .f32) (w1t : FVec F S32x64 .f32) (b1 : FVec F S64 .f32) (w2 : FVec F S1x64 .f32) (b2 : FVec F S1x1 .f32)
  (o : FVec F S8x128 .f32) (O : CellTallies nD τ sig Ix) (B : Set (SemLoc sig × Ix)) (c : Dev nD) (ι : Ix)

local notation "𝕕" => (rdat (Ix := Ix) (Name := Name) (U := U) (Lvl := Lvl) et w1t b1 w2 b2 o O B c)

/-- The body at the point, handed the six staging buffers at contents they may hold: the five inputs' pass through as
    found, the result's is left at the table of the first operand's block as found, which agrees with its array. -/
theorem sound_body (t : Fin cfg0.N) (Y : (w : Fin cfg0.W) → (cfg0.win w).block.Idx → Elt F (cfg0.win w).elt)
    (hY : ∀ w, (𝕕).Finds w t (Y w)) :
    iprop((𝕕).Φ t.castSucc ∗ (𝕕).owesAt ι t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5))
      ⊢ wp frame (wpE (defs₀ (F := F)) 𝒱₀ (c : Thread nD τ) none) Set.univ (bodyAt0 t) fun _ =>
          iprop((𝕕).Φ t.succ ∗ (𝕕).owesAt ι t.succ
            ∗ (∃ X, ⌜(𝕕).after 0 t (Y 0) X⌝ ∗ owns (c : Thread nD τ) (st0_0 t) fullShare X)
            ∗ (∃ X, ⌜(𝕕).after 1 t (Y 1) X⌝ ∗ owns (c : Thread nD τ) (st0_1 t) fullShare X)
            ∗ (∃ X, ⌜(𝕕).after 2 t (Y 2) X⌝ ∗ owns (c : Thread nD τ) (st0_2 t) fullShare X)
            ∗ (∃ X, ⌜(𝕕).after 3 t (Y 3) X⌝ ∗ owns (c : Thread nD τ) (st0_3 t) fullShare X)
            ∗ (∃ X, ⌜(𝕕).after 4 t (Y 4) X⌝ ∗ owns (c : Thread nD τ) (st0_4 t) fullShare X)
            ∗ (∃ X, ⌜(𝕕).after 5 t (Y 5) X⌝ ∗ owns (c : Thread nD τ) (st0_5 t) fullShare X)) := by
  have h0 : Tab.Agrees et (Y 0) := finds0 (hY 0)
  have h1 : Y 1 = w1t := finds1 (hY 1)
  have h2 : Y 2 = b1 := finds2 (hY 2)
  have h3 : Y 3 = w2 := finds3 (hY 3)
  have h4 : Y 4 = b2 := finds4 (hY 4)
  unfold bodyAt0
  rw [show (𝕕).Φ t.succ = (𝕕).Φ t.castSucc from rfl, show (𝕕).owesAt ι t.succ = (𝕕).owesAt ι t.castSucc from rfl]
  iintro ⟨HΦ, Ho, H0, H1, H2, H3, H4, H5⟩
  iapply (sound_kernel (F := F) c Set.univ (grid0.coords t) _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (Y 0); isplitr; · ipureintro; dsimp only [rdat]
    iexact H0
  isplitl [H1]
  · iexists (Y 1); isplitr; · ipureintro; dsimp only [rdat]
    iexact H1
  isplitl [H2]
  · iexists (Y 2); isplitr; · ipureintro; dsimp only [rdat]
    iexact H2
  isplitl [H3]
  · iexists (Y 3); isplitr; · ipureintro; dsimp only [rdat]
    iexact H3
  isplitl [H4]
  · iexists (Y 4); isplitr; · ipureintro; dsimp only [rdat]
    iexact H4
  · iexists _; isplitr
    swap; · iexact H5
    ipureintro; dsimp only [rdat]
    exact ⟨Y 0, h0, by rw [out5_eq_tabOut, h1, h2, h3, h4]⟩

/-- The library's body obligation, at the one point. -/
theorem body_obligation : (𝕕).BodyObligation (defs₀ (F := F)) 𝒱₀ ι Set.univ := fun t Y hY => by
  rw [bigSep_W0, bigSep_W0]
  exact sound_body et w1t b1 w2 b2 o O B c ι t Y hY

end Body

/-! ## The region -/

section Region

variable [∀ e, Nonempty (Elt F e)]
variable (ι : Ix) (EP : Emb (URounds (GSem nD τ sig) Unit) (MT nD τ sig Ix (Elt F) Name U Lvl))
  (L : GSem nD τ sig → Finset Ix) (lv : GSem nD τ sig → Ix → Lvl)
variable (et : FVec F S32x1001 .f32) (w1t : FVec F S32x64 .f32) (b1 : FVec F S64 .f32) (w2 : FVec F S1x64 .f32) (b2 : FVec F S1x1 .f32)
  (o : FVec F S8x128 .f32) (O : Dev nD → CellTallies nD τ sig Ix) (B : Set (SemLoc sig × Ix))

/-- The proof data, per pipeline (there is one) and core. -/
abbrev rdats : (p : Fin 1) → (c : Dev nD) → Pipeline.RDat τ (Elt F) Ix Name U Lvl (Pipeline.pin (pcfgs (F := F)) adm p) c :=
  fun _ c => rdat et w1t b1 w2 b2 o (O c) B c

/-- The thread state the region is entered from: the call's six arrays held whole at the given contents, and the
    core owing `O c` with its recorded pairs within `B`. -/
def pre (c : Dev nD) : sProp 𝕄 :=
  iprop(pl c main_v0 et ∗ pl c main_v1 w1t ∗ pl c main_arg3 b1 ∗ pl c main_arg4 w2 ∗ pl c main_v2 b2 ∗ pl c main_v3 o
    ∗ Pipeline.owesWithin c (O c) B)

/-- The thread state it leaves: the five operands as they were, the result at the table of a block agreeing with the
    first operand's array, the core owing `O c` still, its recorded pairs within `B` and the staging waits' pairs. -/
def post (c : Dev nD) : sProp 𝕄 :=
  iprop(pl c main_v0 et ∗ pl c main_v1 w1t ∗ pl c main_arg3 b1 ∗ pl c main_arg4 w2 ∗ pl c main_v2 b2
    ∗ (∃ x0 : Vec F S32x1024 .f32, ⌜Tab.Agrees et x0⌝ ∗ pl c main_v3 (Tab.tabOut w1t x0 b1 w2 b2))
    ∗ Pipeline.owesWithin c (O c) (B ∪ cfg0.waitPairs ι))

omit [∀ e, Nonempty (Elt F e)] in
/-- Every array is held at the full share. -/
theorem share_full (O' : CellTallies nD τ sig Ix) (c : Dev nD) (w : Fin cfg0.W) :
    (rdat (Name := Name) (U := U) (Lvl := Lvl) et w1t b1 w2 b2 o O' B c).share w = fullShare := by
  unfold Pipeline.RDat.share; split <;> rfl

omit [∀ e, Nonempty (Elt F e)] in
/-- The pipeline's arrays at contents `Fa` are the call's six arrays held whole. -/
theorem arrays_eq (O' : CellTallies nD τ sig Ix) (c : Dev nD) (Fa) :
    ((rdat (Name := Name) (U := U) (Lvl := Lvl) et w1t b1 w2 b2 o O' B c).arrays Fa : sProp 𝕄)
      = iprop(pl c main_v0 (Fa 0) ∗ pl c main_v1 (Fa 1) ∗ pl c main_arg3 (Fa 2) ∗ pl c main_arg4 (Fa 3) ∗ pl c main_v2 (Fa 4) ∗ pl c main_v3 (Fa 5)) := by
  have h : ((rdat (Name := Name) (U := U) (Lvl := Lvl) et w1t b1 w2 b2 o O' B c).arrays Fa : sProp 𝕄)
      = bigSep Finset.univ fun w : Fin cfg0.W => (((c.tc : Thread nD τ).loc (Pipeline.arrRef spec0 w)) ↦{fullShare} Fa w : sProp 𝕄) := by
    unfold Pipeline.RDat.arrays
    exact bigSep_congr fun w _ => by rw [(arr_whole0 w).set_eq_univ, share_full]
  exact h.trans (bigSep_W0 _)

omit [∀ e, Nonempty (Elt F e)] in
/-- The same after the write-backs below `n`: each array at some contents it may then hold. -/
theorem arraysAt_eq (O' : CellTallies nD τ sig Ix) (c : Dev nD) (n : Nat) :
    ((rdat (Name := Name) (U := U) (Lvl := Lvl) et w1t b1 w2 b2 o O' B c).arraysAt n : sProp 𝕄)
      = iprop((∃ G, ⌜(rdat (Name := Name) (U := U) (Lvl := Lvl) et w1t b1 w2 b2 o O' B c).ArrAt 0 n G⌝ ∗ pl c main_v0 G)
        ∗ (∃ G, ⌜(rdat (Name := Name) (U := U) (Lvl := Lvl) et w1t b1 w2 b2 o O' B c).ArrAt 1 n G⌝ ∗ pl c main_v1 G)
        ∗ (∃ G, ⌜(rdat (Name := Name) (U := U) (Lvl := Lvl) et w1t b1 w2 b2 o O' B c).ArrAt 2 n G⌝ ∗ pl c main_arg3 G)
        ∗ (∃ G, ⌜(rdat (Name := Name) (U := U) (Lvl := Lvl) et w1t b1 w2 b2 o O' B c).ArrAt 3 n G⌝ ∗ pl c main_arg4 G)
        ∗ (∃ G, ⌜(rdat (Name := Name) (U := U) (Lvl := Lvl) et w1t b1 w2 b2 o O' B c).ArrAt 4 n G⌝ ∗ pl c main_v2 G)
        ∗ (∃ G, ⌜(rdat (Name := Name) (U := U) (Lvl := Lvl) et w1t b1 w2 b2 o O' B c).ArrAt 5 n G⌝ ∗ pl c main_v3 G)) := by
  have h : ((rdat (Name := Name) (U := U) (Lvl := Lvl) et w1t b1 w2 b2 o O' B c).arraysAt n : sProp 𝕄)
      = bigSep Finset.univ fun w : Fin cfg0.W =>
          iprop(∃ G, ⌜(rdat (Name := Name) (U := U) (Lvl := Lvl) et w1t b1 w2 b2 o O' B c).ArrAt w n G⌝
            ∗ (((c.tc : Thread nD τ).loc (Pipeline.arrRef spec0 w)) ↦{fullShare} G : sProp 𝕄)) := by
    unfold Pipeline.RDat.arraysAt
    exact bigSep_congr fun w _ => by rw [(arr_whole0 w).set_eq_univ, share_full]
  exact h.trans (bigSep_W0 _)

variable {ι L lv O}

/-- The region as the library's record: no semaphore of the kernel's own, no invariant, nothing bypassing. The staging
    waits' level evidence is the hypothesis `hO`: the six staging cells sit below what the core owes. -/
def reg (hO : ∀ (c : Dev nD) (w : Fin 6) (s : Fin (cfg0.win w).nbuf),
      (levAts L lv : sProp 𝕄) ⊢ MayWait (c.tc : Thread nD τ) (.dma ((cfg0.win w).sem s)) ι (O c)) :
    Pipeline.RDat.RegionSeg (pcfgs (F := F)) adm (rdats (Name := Name) (U := U) (Lvl := Lvl) et w1t b1 w2 b2 o O B) ι (defs₀ (F := F)) 𝒱₀ L lv 0 where
  win := launch0.win.to₀
  block_pos := launch0.block_pos
  stage_whole := launch0.stage_whole
  K := PEmpty
  osem k := k.elim
  ho := Pipeline.OwnSemFacts.none _
  hbody c := body_obligation et w1t b1 w2 b2 o (O c) B c ι
  hwaits c := Pipeline.RDat.cellsWaits_intro (Pipeline.pin (pcfgs (F := F)) adm) (rdats (Name := Name) (U := U) (Lvl := Lvl) et w1t b1 w2 b2 o O B) ι 0 c fun w s t => hO c w s
  pre := pre et w1t b1 w2 b2 o O B
  post := post ι et w1t b1 w2 b2 O B
  X _ := iprop(emp)
  Y _ := iprop(emp)
  Z _ := iprop(emp)
  hentry c := by
    rw [Pipeline.ownSems0_none, arrays_eq]
    unfold pre
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr
    · unfold Pipeline.prefHeld; rw [show (Finset.univ : Finset (Fin 0)) = ∅ from rfl, BI.bigSep_empty]; iempintro
    isplitl [HO]
    · iapply (Pipeline.owesWithin_mono c (O c) (Set.subset_union_left (s := B) (t := cfg0.waitPairs ι)))
      iexact HO
    isplitr <;> iempintro
  hin c := by iintro -; iempintro
  hout c := by
    rw [Pipeline.ownSems0_none, scopedRest0_eq]
    iintro -; isplitr; · iempintro
    isplitr <;> iempintro
  hexit c := by
    rw [arraysAt_eq]
    unfold post
    iintro ⟨⟨⟨%G0, %h0, H0⟩, ⟨%G1, %h1, H1⟩, ⟨%G2, %h2, H2⟩, ⟨%G3, %h3, H3⟩, ⟨%G4, %h4, H4⟩, ⟨%G5, %h5, H5⟩⟩, HO, -, -⟩
    have e0 : G0 = et := by rw [Pipeline.RDat.ArrAt_in _ 0 rfl] at h0; exact h0
    have e1 : G1 = w1t := by rw [Pipeline.RDat.ArrAt_in _ 1 rfl] at h1; exact h1
    have e2 : G2 = b1 := by rw [Pipeline.RDat.ArrAt_in _ 2 rfl] at h2; exact h2
    have e3 : G3 = w2 := by rw [Pipeline.RDat.ArrAt_in _ 3 rfl] at h3; exact h3
    have e4 : G4 = b2 := by rw [Pipeline.RDat.ArrAt_in _ 4 rfl] at h4; exact h4
    obtain ⟨x0, hx, e5⟩ := arrAt5 h5
    subst e0 e1 e2 e3 e4 e5
    imodintro
    isplitl [H0]; · iexact H0
    isplitl [H1]; · iexact H1
    isplitl [H2]; · iexact H2
    isplitl [H3]; · iexact H3
    isplitl [H4]; · iexact H4
    isplitl [H5]
    · iexists x0; isplitr; · ipureintro; exact hx
      iexact H5
    iexact HO

/-- THE REGION'S STEP on core `c`: from the boundary, the six arrays held whole at the given contents with the core owing
    `O c` (recorded pairs within `B`), the level facts and the pipeline's ghost state, the call runs to the boundary and
    `post` for the continuation: the operands unchanged, the result the table of a block agreeing with the first operand's
    array. -/
theorem wp_region [Infinite Name] [EP.LandsIn (upEmb : UEmb _ 𝕄)]
    (hO : ∀ (c : Dev nD) (w : Fin 6) (s : Fin (cfg0.win w).nbuf),
      (levAts L lv : sProp 𝕄) ⊢ MayWait (c.tc : Thread nD τ) (.dma ((cfg0.win w).sem s)) ι (O c))
    (c : Dev nD) (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α)
    (Q : α → sProp 𝕄) :
    iprop((iprop(boundary (c.tc : Thread nD τ) ∗ post ι et w1t b1 w2 b2 O B c)
            -∗ wp frame (wpE (Pipeline.defs (pcfgs (F := F)) defs₀) (Variants.lift 𝒱₀) (c.tc : Thread nD τ) bd) Set.univ (k ⟨⟩) Q)
        ∗ boundary (c.tc : Thread nD τ) ∗ pre et w1t b1 w2 b2 o O B c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c.tc : Thread nD τ) bd) Set.univ
          (.op (.customCall (Pipeline.entry 0) ()) k) Q :=
  Pipeline.RDat.RegionSeg.wp (pcfgs (F := F)) adm (rdats (Name := Name) (U := U) (Lvl := Lvl) et w1t b1 w2 b2 o O B) ι cellOf_inj EP defs₀ 𝒱₀ L lv
    (reg (Name := Name) (U := U) et w1t b1 w2 b2 o B hO) c bd hv k Q

end Region

end Cert.KernelIdeal.Region

end
-- ==== Proof.KI.Fin.lean ====
/-
  What the TensorCore's thread holds when the program ends, and how the final memory reads the claim off it.

  At the end the thread holds the index array (at the share left after the 32 read shares were dealt), the five other
  arguments whole at their launch contents, and, for each of the 32 workers, its 512 positions of the result at
  contents right for their index words. Held against the state interpretation, each points-to pins the memory on its
  elements: the six arguments are unchanged, and, every position lying in some worker's chunk, each result entry is
  right for its index word.
-/
import proofs.«217044_g88356067214146_cont_9to1_m_986_23_alg».proof.Proof.KI.Pay

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.KernelIdeal.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

/-- An array of the TensorCore's, whole, at contents `f`. -/
abbrev plT (d : Dev nD) (b : Ref sig .tc) (f : Buf (Elt F) ((SparseCore.T d : Thread nD τ).loc b)) : sProp 𝕄 :=
  (SparseCore.T d : Thread nD τ).loc b ↦{fullShare} f

/-- What device `d`'s TensorCore holds when the program ends. -/
def FIN (d : Dev nD) : sProp 𝕄 :=
  iprop((tLoc d ↦{Transfers.shareDrop fullShare 32} m (tLoc d))
    ∗ plT d main_arg1 (m ((SparseCore.T d).loc main_arg1))
    ∗ plT d main_arg2 (m ((SparseCore.T d).loc main_arg2))
    ∗ plT d main_arg3 (m ((SparseCore.T d).loc main_arg3))
    ∗ plT d main_arg4 (m ((SparseCore.T d).loc main_arg4))
    ∗ plT d main_arg5 (m ((SparseCore.T d).loc main_arg5))
    ∗ bigSep Finset.univ fun w : Fin 32 => tdRes m R d w)

/-- What the claim says of device `d` in a final state: each result entry right for its index word, the six arguments
    unchanged. -/
def fq (d : Dev nD) (s' : Phys nD τ sig (Elt F)) : Prop :=
  (∀ i, R d (m (tLoc d) i) (s'.mem.mem (oLoc d) i))
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)

/-- One worker's positions handed back, against the memory: the memory's entries there are right for their index words. -/
theorem td_agree (d : Dev nD) (w : Fin 32) (s' : Phys nD τ sig (Elt F)) :
    iprop(SI s' ∗ tdRes m R d w)
      ⊢ (⌜∀ i ∈ chunkSetW w, R d (m (tLoc d) i) (s'.mem.mem (oLoc d) i)⌝ : sProp 𝕄) := by
  unfold tdRes
  iintro ⟨HSI, ⟨%f, %hf, Hpt⟩⟩
  ihave H := (SI_pointsTo_agree (st := s') (ℓ := oLoc d) (I := chunkSetW w) (q := fullShare) (f := f)) $$ [HSI Hpt]
  · isplitl [HSI] <;> iassumption
  icases H with %h
  ipureintro
  intro i hi
  rw [h i hi]
  exact hf i hi

/-- All the workers' positions handed back, against the memory, at one position: it lies in some worker's chunk, whose
    points-to pins the memory there at an entry right for the position's index word. -/
theorem res_agree_at (d : Dev nD) (s' : Phys nD τ sig (Elt F)) (i : S16384.Idx) :
    iprop(SI s' ∗ bigSep Finset.univ fun w : Fin 32 => tdRes m R d w)
      ⊢ (⌜R d (m (tLoc d) i) (s'.mem.mem (oLoc d) i)⌝ : sProp 𝕄) := by
  obtain ⟨w, hw⟩ := mem_chunk i
  iintro ⟨HSI, Hres⟩
  ihave Hw := (show (bigSep Finset.univ fun w : Fin 32 => tdRes m R d w) ⊢ (tdRes m R d w : sProp 𝕄) from
    bigSep_elim (Finset.mem_univ w)) $$ Hres
  ihave H := (td_agree m R d w s') $$ [HSI Hw]
  · isplitl [HSI] <;> iassumption
  icases H with %h
  ipureintro
  exact h i hw

/-- The same at every position. -/
theorem res_agree (d : Dev nD) (s' : Phys nD τ sig (Elt F)) :
    iprop(SI s' ∗ bigSep Finset.univ fun w : Fin 32 => tdRes m R d w)
      ⊢ (⌜∀ i, R d (m (tLoc d) i) (s'.mem.mem (oLoc d) i)⌝ : sProp 𝕄) :=
  (BI.BIClass.forall_intro fun i => res_agree_at m R d s' i).trans pure_forall.2

theorem hfin (d : Dev nD) (s' : Phys nD τ sig (Elt F)) : iprop(FIN m R d ∗ SI s') ⊢ (⌜fq m R d s'⌝ : sProp 𝕄) := by
  unfold FIN
  iintro ⟨⟨Ht, H1, H2, H3, H4, H5, Hres⟩, HSI⟩
  ihave H := (persistent_entails_right (SI_pointsTo_agree (st := s') (ℓ := tLoc d) (I := Finset.univ)
    (q := Transfers.shareDrop fullShare 32) (f := m (tLoc d)))) $$ [HSI Ht]
  · isplitl [HSI] <;> iassumption
  icases H with ⟨%h0, HSI, -⟩
  ihave H := (persistent_entails_right (SI_pointsTo_agree (st := s') (ℓ := (SparseCore.T d).loc main_arg1) (I := Finset.univ)
    (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ)
    (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ)
    (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ)
    (q := fullShare) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_arg5) (I := Finset.univ)
    (q := fullShare) (f := m ((SparseCore.T d).loc main_arg5)))) $$ [HSI H5]
  · isplitl [HSI] <;> iassumption
  icases H with ⟨%h5, HSI, -⟩
  ihave H := (res_agree m R d s') $$ [HSI Hres]
  · isplitl [HSI] <;> iassumption
  icases H with %hres
  ipureintro
  exact ⟨hres, funext fun i => h0 i (Finset.mem_univ i), funext fun i => h1 i (Finset.mem_univ i),
    funext fun i => h2 i (Finset.mem_univ i), funext fun i => h3 i (Finset.mem_univ i),
    funext fun i => h4 i (Finset.mem_univ i), funext fun i => h5 i (Finset.mem_univ i)⟩

/-- The claim's post at a final state is `fq` on every device. -/
theorem hQ (s' : Phys nD τ sig (Elt F)) (h : ∀ d, fq m R d s') :
    ∀ c : Dev nD, (∀ i, R c (m (tLoc c) i) (s'.mem.mem (oLoc c) i))
      ∧ s'.mem.mem ((SparseCore.T c).loc main_arg0) = m ((SparseCore.T c).loc main_arg0)
      ∧ s'.mem.mem ((SparseCore.T c).loc main_arg1) = m ((SparseCore.T c).loc main_arg1)
      ∧ s'.mem.mem ((SparseCore.T c).loc main_arg2) = m ((SparseCore.T c).loc main_arg2)
      ∧ s'.mem.mem ((SparseCore.T c).loc main_arg3) = m ((SparseCore.T c).loc main_arg3)
      ∧ s'.mem.mem ((SparseCore.T c).loc main_arg4) = m ((SparseCore.T c).loc main_arg4)
      ∧ s'.mem.mem ((SparseCore.T c).loc main_arg5) = m ((SparseCore.T c).loc main_arg5) := h

end Cert.KernelIdeal.SC

end
-- ==== Proof.KI.Deal.lean ====
/-
  Dealing the SparseCore call its operands, and gathering what it hands back.

  The call's 32 workers are the sixteen subcores of each of the two SparseCores: a separating conjunction over the
  cores and, inside, their subcores is one over the 32 workers. Before the call the index array and the table are held
  whole: each splits into a remainder and 32 read shares, one per worker; the result array, held whole, splits into its
  32 chunks. A worker's three pieces are what it is handed, the table's under the fact that the table is good. After the
  call the cores' conjunction of what the workers hand back is the workers'.
-/
import proofs.«217044_g88356067214146_cont_9to1_m_986_23_alg».proof.Proof.KI.Pay

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.KernelIdeal.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

/-! ## The cores' subcores are the workers -/

omit [FloatOps F] in
/-- A conjunction over the call's cores is one over `Fin 2`, -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- one over a core's subcores is one over `Fin 16`, -/
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- and the two nested are one over the 32 workers. -/
theorem bigSep_cores_subs (Φ : Fin 32 → sProp 𝕄) :
    (bigSep Finset.univ fun c : Fin ((K (F := F)).nCore 0) => bigSep Finset.univ fun i : Fin ((K (F := F)).nSub 0) => Φ (wOf c i))
      = bigSep Finset.univ Φ := by
  rw [bigSep_workers Φ, ← bigSep_cores (F := F) (fun c => bigSep (Finset.univ : Finset (Fin 16)) fun s => Φ (wCS c s))]
  exact bigSep_congr fun c _ => bigSep_subs (F := F) (fun s => Φ (wCS (Fin.cast nCore_zero c) s))

/-! ## Before the call -/

/-- The index array, a good table and the result array, each held whole, are the index array's remainder and every
    core's start payload: per worker a read share of the index array, a read share of the table with the fact that it is
    good, and the worker's chunk of the result. The table's remainder is dropped. -/
theorem deal (d : Dev nD) (tab : Buf (Elt F) (vLoc d)) (hG : Good d (R d) tab) (fo : Buf (Elt F) (oLoc d)) :
    (iprop((tLoc d ↦{fullShare} m (tLoc d)) ∗ (vLoc d ↦{fullShare} tab) ∗ (oLoc d ↦{fullShare} fo)) : sProp 𝕄)
      ⊢ iprop((tLoc d ↦{Transfers.shareDrop fullShare 32} m (tLoc d))
          ∗ bigSep Finset.univ fun c : Fin ((K (F := F)).nCore 0) => (P m R).st 0 d c) := by
  have hst : (bigSep Finset.univ fun c : Fin ((K (F := F)).nCore 0) => (P m R).st 0 d c)
      = (bigSep Finset.univ fun w : Fin 32 => goRes m R d w : sProp 𝕄) := bigSep_cores_subs (F := F) (goRes m R d)
  have hv : (bigSep Finset.univ fun w : Fin 32 => (vLoc d ↦{Transfers.shareTok fullShare 32 w} tab : sProp 𝕄))
      ⊢ bigSep Finset.univ fun w : Fin 32 => iprop(∃ tab, ⌜Good d (R d) tab⌝ ∗ vLoc d ↦{Transfers.shareTok fullShare 32 w} tab) :=
    bigSep_mono fun w _ => by
      show (vLoc d ↦{Transfers.shareTok fullShare 32 w} tab : sProp 𝕄)
        ⊢ iprop(∃ tab, ⌜Good d (R d) tab⌝ ∗ vLoc d ↦{Transfers.shareTok fullShare 32 w} tab)
      iintro H; iexists tab; isplitr; · ipureintro; exact hG
      iexact H
  have ho : (bigSep Finset.univ fun w : Fin 32 => (oLoc d ↦[chunkSetW w]{fullShare} fo : sProp 𝕄))
      ⊢ bigSep Finset.univ fun w : Fin 32 => iprop(∃ fo, oLoc d ↦[chunkSetW w]{fullShare} fo) :=
    bigSep_mono fun w _ => by
      show (oLoc d ↦[chunkSetW w]{fullShare} fo : sProp 𝕄) ⊢ iprop(∃ fo, oLoc d ↦[chunkSetW w]{fullShare} fo)
      iintro H; iexists fo; iexact H
  rw [hst, oPts_chunks d fo]
  unfold goRes
  rw [bigSep_sep', bigSep_sep']
  iintro ⟨Ht, Hv, Ho⟩
  ihave Ht' := (Transfers.pointsTo_toks_split fullShare 32) $$ Ht
  icases Ht' with ⟨Htd, Hts⟩
  ihave Hv' := (Transfers.pointsTo_toks_split fullShare 32) $$ Hv
  icases Hv' with ⟨-, Hvs⟩
  isplitl [Htd]; · iexact Htd
  isplitl [Hts]; · iexact Hts
  isplitl [Hvs]
  · iapply hv; iexact Hvs
  · iapply ho; iexact Ho

/-! ## After the call -/

/-- What the cores hand back, core by core, is what the 32 workers hand back. -/
theorem gather (d : Dev nD) :
    (bigSep Finset.univ fun c : Fin ((K (F := F)).nCore 0) => (P m R).dn 0 d c)
      ⊢ (bigSep Finset.univ fun w : Fin 32 => tdRes m R d w : sProp 𝕄) :=
  Entails.of_eq (bigSep_cores_subs (F := F) (tdRes m R d))

end Cert.KernelIdeal.SC

end
-- ==== Proof.KI.RunDefs.lean ====
/-
  What the run of the whole program establishes, and two names for terms of @main.
-/
import proofs.«217044_g88356067214146_cont_9to1_m_986_23_alg».proof.Proof.KI.Base
import proofs.«217044_g88356067214146_cont_9to1_m_986_23_alg».proof.Proof.KI.Table

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ)
variable [FloatOps F]

/-- What the run establishes of the final memory: each result entry is a right value for its index word, and the six
    arguments are unchanged. -/
def QC (R : Dev nD → BitVec 32 → F .f32 → Prop) : PUnit × MemSt nD τ sig (Elt F) → Prop := fun r => ∀ c : Dev nD,
  (∀ i, R c (m (tLoc c) i) (r.2.mem (oLoc c) i))
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)

/-- The table the first kernel leaves, flattened, from the launch memory and the block its first operand staged. -/
abbrev flatTab (d : Dev nD) (x0 : Vec F S32x1024 .f32) : FVec F S1024 .f32 :=
  shapeCast S1024 (Tab.tabOut (transpose S32x64 [1, 0] (m ((SparseCore.T d).loc main_arg2)) transposes_S64x32_S32x64_1_0) x0
    (m ((SparseCore.T d).loc main_arg3)) (m ((SparseCore.T d).loc main_arg4))
    (broadcastInDim S1x1 ![1] bcast_S1_S1x1_1 (m ((SparseCore.T d).loc main_arg5)))) shapeCasts_S8x128_S1024

/-- The first operand as @main makes it: the embedding table transposed. -/
abbrev etOf (d : Dev nD) : FVec F S32x1001 .f32 :=
  transpose S32x1001 [1, 0] (m ((SparseCore.T d).loc main_arg1)) transposes_S1001x32_S32x1001_1_0

end Cert.KernelIdeal.SC

end
-- ==== Proof.KI.Main.lean ====
/-
  @main on the TensorCore.
-/
import proofs.«217044_g88356067214146_cont_9to1_m_986_23_alg».proof.Proof.KI.Pay
import proofs.«217044_g88356067214146_cont_9to1_m_986_23_alg».proof.Proof.KI.Table
import proofs.«217044_g88356067214146_cont_9to1_m_986_23_alg».proof.Proof.KI.Region
import proofs.«217044_g88356067214146_cont_9to1_m_986_23_alg».proof.Proof.KI.Fin
import proofs.«217044_g88356067214146_cont_9to1_m_986_23_alg».proof.Proof.KI.Deal
import proofs.«217044_g88356067214146_cont_9to1_m_986_23_alg».proof.Proof.KI.RunDefs
import Idealize.ShloMosaic.Lib.Pipeline.Frame

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.KernelIdeal.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

abbrev rT (b : Ref sig .tc) : DevRef τ sig := Proc.devRef .tc b

theorem two_sub (x y : Ref sig .tc) : ({rT x, rT y} : Finset (DevRef τ sig)) ⊆ StableHlo.tcRefs τ sig := by
  intro b hb
  rcases Finset.mem_insert.mp hb with rfl | hb
  · exact StableHlo.devRef_mem_tcRefs _
  · rw [Finset.mem_singleton] at hb; subst hb; exact StableHlo.devRef_mem_tcRefs _

theorem ucRefs_eq : Pipeline.ucRefs τ sig = {rT main_arg0, rT main_arg1, rT main_arg2, rT main_arg3, rT main_arg4, rT main_arg5,
    rT main_v0, rT main_v1, rT main_v2, rT main_v3, rT main_v4, rT main_v5} := by decide

omit [FloatOps F] in
/-- The TensorCore's twelve arrays, one by one. -/
theorem held12 (d : Dev nD) (W : Valuation τ sig (Elt F)) :
    (held (SparseCore.T d) (Pipeline.ucRefs τ sig) W : sProp 𝕄)
      = iprop(plT d main_arg0 (W (rT main_arg0)) ∗ plT d main_arg1 (W (rT main_arg1)) ∗ plT d main_arg2 (W (rT main_arg2))
          ∗ plT d main_arg3 (W (rT main_arg3)) ∗ plT d main_arg4 (W (rT main_arg4)) ∗ plT d main_arg5 (W (rT main_arg5))
          ∗ plT d main_v0 (W (rT main_v0)) ∗ plT d main_v1 (W (rT main_v1)) ∗ plT d main_v2 (W (rT main_v2))
          ∗ plT d main_v3 (W (rT main_v3)) ∗ plT d main_v4 (W (rT main_v4)) ∗ plT d main_v5 (W (rT main_v5))) := by
  unfold held
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The three host operations before the first kernel. -/
abbrev op0 : HloOp τ sig (Elt F) := StableHlo.unary main_arg1 main_v0 ((transpose S32x1001 [1, 0] · transposes_S1001x32_S32x1001_1_0) : (⟨S1001x32, .f32⟩ : BufTy).Contents (Elt F) → (⟨S32x1001, .f32⟩ : BufTy).Contents (Elt F))
abbrev op1 : HloOp τ sig (Elt F) := StableHlo.unary main_arg2 main_v1 ((transpose S32x64 [1, 0] · transposes_S64x32_S32x64_1_0) : (⟨S64x32, .f32⟩ : BufTy).Contents (Elt F) → (⟨S32x64, .f32⟩ : BufTy).Contents (Elt F))
abbrev op2 : HloOp τ sig (Elt F) := StableHlo.unary main_arg5 main_v2 (broadcastInDim S1x1 ![1] bcast_S1_S1x1_1 : (⟨S1, .f32⟩ : BufTy).Contents (Elt F) → (⟨S1x1, .f32⟩ : BufTy).Contents (Elt F))
/-- The memory as the first kernel finds it. -/
abbrev V3 (d : Dev nD) : Valuation τ sig (Elt F) := StableHlo.after [op0 (F := F), op1, op2] (StableHlo.launchContents m d)

theorem V3_arg0 (d : Dev nD) : V3 m d (rT main_arg0) = m ((SparseCore.T d).loc main_arg0) := by unfold V3; after_results; try rfl
theorem V3_arg1 (d : Dev nD) : V3 m d (rT main_arg1) = m ((SparseCore.T d).loc main_arg1) := by unfold V3; after_results; try rfl
theorem V3_arg2 (d : Dev nD) : V3 m d (rT main_arg2) = m ((SparseCore.T d).loc main_arg2) := by unfold V3; after_results; try rfl
theorem V3_arg3 (d : Dev nD) : V3 m d (rT main_arg3) = m ((SparseCore.T d).loc main_arg3) := by unfold V3; after_results; try rfl
theorem V3_arg4 (d : Dev nD) : V3 m d (rT main_arg4) = m ((SparseCore.T d).loc main_arg4) := by unfold V3; after_results; try rfl
theorem V3_arg5 (d : Dev nD) : V3 m d (rT main_arg5) = m ((SparseCore.T d).loc main_arg5) := by unfold V3; after_results; try rfl
theorem V3_v0 (d : Dev nD) : V3 m d (rT main_v0) = transpose S32x1001 [1, 0] (m ((SparseCore.T d).loc main_arg1)) transposes_S1001x32_S32x1001_1_0 := by
  unfold V3; after_results; try rfl
theorem V3_v1 (d : Dev nD) : V3 m d (rT main_v1) = transpose S32x64 [1, 0] (m ((SparseCore.T d).loc main_arg2)) transposes_S64x32_S32x64_1_0 := by
  unfold V3; after_results; try rfl
theorem V3_v2 (d : Dev nD) : V3 m d (rT main_v2) = broadcastInDim S1x1 ![1] bcast_S1_S1x1_1 (m ((SparseCore.T d).loc main_arg5)) := by
  unfold V3; after_results; try rfl
theorem V3_v3 (d : Dev nD) : V3 m d (rT main_v3) = m ((SparseCore.T d).loc main_v3) := by unfold V3; after_results; try rfl
theorem V3_v4 (d : Dev nD) : V3 m d (rT main_v4) = m ((SparseCore.T d).loc main_v4) := by unfold V3; after_results; try rfl
theorem V3_v5 (d : Dev nD) : V3 m d (rT main_v5) = m ((SparseCore.T d).loc main_v5) := by unfold V3; after_results; try rfl

/-- The TensorCore's launch state at call `n` is what it owes, with the bound on its recorded waits, and the rest. -/
def restSt (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ restSt (F := F) d n) := rfl

omit [FloatOps F] in
/-- At the kernels' own index the TensorCore owes nothing. -/
theorem Otc_none (c : Dev nD) (g : GSem nD τ sig) : (K (F := F)).Otc c 0 g none = 0 := by
  by_contra h
  have := (K (F := F)).lev_of_Otc_pos (Nat.pos_of_ne_zero h)
  simp at this

/-- The reshape after the first kernel. -/
abbrev opR : HloOp τ sig (Elt F) := StableHlo.reshape main_v3 main_v4 rfl shapeCasts_S8x128_S1024
abbrev S34 : Finset (DevRef τ sig) := {rT main_v3, rT main_v4}
/-- The launch memory with the first kernel's result in place. -/
def VR (d : Dev nD) (t8 : FVec F S8x128 .f32) : Valuation τ sig (Elt F) := Function.update (StableHlo.launchContents m d) (rT main_v3) t8

omit [FloatOps F] in
theorem held34 (d : Dev nD) (W : Valuation τ sig (Elt F)) :
    (held (SparseCore.T d) S34 W : sProp 𝕄) = iprop(plT d main_v3 (W (rT main_v3)) ∗ plT d main_v4 (W (rT main_v4))) := by
  unfold held S34
  rw [SparseCore.bigSep_insert' (by decide), bigSep_singleton]

theorem VR_v3 (d : Dev nD) (t8 : FVec F S8x128 .f32) : VR m d t8 (rT main_v3) = t8 := Function.update_self ..
theorem VR_v4 (d : Dev nD) (t8 : FVec F S8x128 .f32) : VR m d t8 (rT main_v4) = m ((SparseCore.T d).loc main_v4) :=
  Function.update_of_ne (show rT main_v4 ≠ rT main_v3 by decide) ..
theorem R_v3 (d : Dev nD) (t8 : FVec F S8x128 .f32) : (opR (F := F)).result (VR m d t8) (rT main_v3) = t8 := by
  rw [(opR (F := F)).result_of_not_mem (VR m d t8) (b := rT main_v3) (show rT main_v3 ∉ ({rT main_v4} : Finset (DevRef τ sig)) by decide), VR_v3]
theorem R_v4 (d : Dev nD) (t8 : FVec F S8x128 .f32) :
    (opR (F := F)).result (VR m d t8) (rT main_v4) = shapeCast S1024 t8 shapeCasts_S8x128_S1024 := by
  have h : StableHlo.after [opR (F := F)] (VR m d t8) (rT main_v4) = shapeCast S1024 (VR m d t8 (rT main_v3)) shapeCasts_S8x128_S1024 := by
    after_results; try rfl
  rw [VR_v3] at h; exact h

/-- The first kernel's call, in the certificate's own signature. -/
abbrev entryCall : Prog (TpuEff nD τ sig (Elt F) (ΛP (F := F)) .tc) PUnit := .op (.customCall (Pipeline.entry 0) ()) fun _ => .ret ⟨⟩

omit [FloatOps F] in
theorem lift_entry :
    (SparseCore.liftProg (Q := 1) (entryCall (F := F)) : Prog (TpuEff nD τ sig (Elt F) (SparseCore.Sig (ΛP (F := F)) 1) .tc) PUnit)
      = Prog.lift (.customCall (SparseCore.inner (Pipeline.entry 0)) ()) := rfl

theorem hmain [∀ e, Nonempty (Elt F e)]
    (hR : ∀ (d : Dev nD) (x0 : Vec F S32x1024 .f32), Tab.Agrees (etOf m d) x0 →
      ∀ (j : S1024.Idx) (w : BitVec 32), (j 0).val = w.toNat → w.toNat ≤ 1000 → R d w (flatTab m d x0 j))
    (κ : GSem nD τ sig → ℕ) (d : Dev nD) :
    iprop((K (F := F)).ctx EH (P m R) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R d) := by
  unfold SparseCore.Cfg.tcRes G
  rw [show (unscopedBufs d (fun b => m ((SparseCore.T d).loc b)) : sProp 𝕄) = held (SparseCore.T d) (Pipeline.ucRefs τ sig) (StableHlo.launchContents m d)
    from Pipeline.unscopedBufs_held d (StableHlo.launchContents m d)]
  simp only [main, wp_bind, wp_pure]
  iintro ⟨#Hctx, Hst, ⟨Hb, Hheld, -, -⟩, ⟨Hcg, Htk⟩⟩
  iapply (wp_hlo_within 𝒱 (SparseCore.T d) none Set.univ (S := Pipeline.ucRefs τ sig) (op := op0 (F := F)) (Pipeline.sub_ucRefs _ (two_sub _ _)) (V := StableHlo.launchContents m d)) $$ [Hb Hheld]
  · isplitl [Hb]; · iexact Hb
    iexact Hheld
  iintro ⟨Hb, Hheld⟩
  rw [wp_ret]; imodintro
  iapply (wp_hlo_within 𝒱 (SparseCore.T d) none Set.univ (S := Pipeline.ucRefs τ sig) (op := op1 (F := F)) (Pipeline.sub_ucRefs _ (two_sub _ _))) $$ [Hb Hheld]
  · isplitl [Hb]; · iexact Hb
    iexact Hheld
  iintro ⟨Hb, Hheld⟩
  rw [wp_ret]; imodintro
  iapply (wp_hlo_within 𝒱 (SparseCore.T d) none Set.univ (S := Pipeline.ucRefs τ sig) (op := op2 (F := F)) (Pipeline.sub_ucRefs _ (two_sub _ _))) $$ [Hb Hheld]
  · isplitl [Hb]; · iexact Hb
    iexact Hheld
  iintro ⟨Hb, Hheld⟩
  rw [wp_ret]; imodintro
  ihave Hh := (Entails.of_eq ((show (held (SparseCore.T d) (Pipeline.ucRefs τ sig) ((op2 (F := F)).result ((op1 (F := F)).result ((op0 (F := F)).result (StableHlo.launchContents m d)))) : sProp 𝕄)
      = held (SparseCore.T d) (Pipeline.ucRefs τ sig) (V3 m d) from rfl).trans (held12 (F := F) d (V3 m d)))) $$ Hheld
  rw [V3_arg0, V3_arg1, V3_arg2, V3_arg3, V3_arg4, V3_arg5, V3_v0, V3_v1, V3_v2, V3_v3, V3_v4, V3_v5]
  icases Hh with ⟨Ha0, Ha1, Ha2, Ha3, Ha4, Ha5, Hv0, Hv1, Hv2, Hv3, Hv4, Hv5⟩
  ihave Hst' := (Entails.of_eq (tcSt_eq (F := F) d 0)) $$ Hst
  icases Hst' with ⟨⟨%W0, %hW0, HO⟩, Hrest⟩
  ihave Hlev := ((K (F := F)).ctx_levAts (EH := EH) (P := P m R) κ) $$ Hctx
  -- the first kernel, in the certificate's own signature
  rw [← lift_entry (F := F)]
  iapply ((K (F := F)).wp_liftProg (D (F := F)) 𝒱 (SparseCore.T d) Set.univ none (entryCall (F := F)) _)
  iapply (Region.wp_region (F := F) (ι := (none : HIx 1)) (EP (F := F)) (L := (K (F := F)).L) (lv := (K (F := F)).lev)
      _ _ _ _ _ _ (O := fun c => (K (F := F)).Otc c 0) (↑W0 : Set (SemLoc sig × HIx 1))
      (fun c w s => (K (F := F)).mayWait_none _ (Otc_none (F := F) c)) d none (fun u hu => by cases hu) (fun _ => .ret ⟨⟩) _)
  isplitr [Hb Hv0 Hv1 Ha3 Ha4 Hv2 Hv3 HO Hcg Htk]
  rotate_left
  · isplitl [Hb]; · iexact Hb
    isplitl [Hv0 Hv1 Ha3 Ha4 Hv2 Hv3 HO]
    · unfold Region.pre
      isplitl [Hv0]; · iexact Hv0
      isplitl [Hv1]; · iexact Hv1
      isplitl [Ha3]; · iexact Ha3
      isplitl [Ha4]; · iexact Ha4
      isplitl [Hv2]; · iexact Hv2
      isplitl [Hv3]; · iexact Hv3
      iexists W0; isplitr
      · ipureintro; exact subset_rfl
      · iexact HO
    isplitr; · iexact Hlev
    isplitl [Hcg]; · iexact Hcg
    iexact Htk
  iintro ⟨Hb, Hpost⟩
  rw [wp_ret]; imodintro
  unfold Region.post
  icases Hpost with ⟨Hv0, Hv1, Ha3, Ha4, Hv2, ⟨%x0, %hx0, Hv3⟩, ⟨%W1, %hW1, HO⟩⟩
  -- the reshape of the table
  iapply (wp_hlo_within 𝒱 (SparseCore.T d) none Set.univ (S := S34) (op := opR (F := F)) (by rw [StableHlo.reshape_bufs])
      (V := VR m d (Tab.tabOut _ x0 _ _ _))) $$ [Hb Hv3 Hv4]
  · isplitl [Hb]; · iexact Hb
    rw [held34, VR_v3, VR_v4]
    isplitl [Hv3]; · iexact Hv3
    iexact Hv4
  iintro ⟨Hb, Hheld⟩
  rw [wp_ret]; imodintro
  ihave Hh := (Entails.of_eq (held34 (F := F) d _)) $$ Hheld
  rw [R_v3, R_v4]
  icases Hh with ⟨Hv3, Hv4⟩
  -- the SparseCore call
  ihave Hd := (deal m R d (flatTab m d x0) (hR d x0 hx0) _) $$ [Ha0 Hv4 Hv5]
  · isplitl [Ha0]; · iexact Ha0
    isplitl [Hv4]; · iexact Hv4
    iexact Hv5
  icases Hd with ⟨Ht, Hstc⟩
  ihave Hst := (Entails.of_eq (tcSt_eq (F := F) d 0).symm) $$ [HO Hrest]
  · isplitl [HO]
    · iexists W1; isplitr
      · ipureintro
        intro p hp
        rcases hW1 (Finset.mem_coe.mpr hp) with h | ⟨w, s, rfl⟩
        · exact hW0 p (Finset.mem_coe.mp h)
        · exact le_of_eq rfl
      · iexact HO
    · iexact Hrest
  iapply ((K (F := F)).wp_run (D (F := F)) 𝒱 (EH := EH) (P := P m R) κ d 0) $$ [Hst Hstc Ht Ha1 Ha2 Ha3 Ha4 Ha5]
  isplitr; · iexact Hctx
  isplitl [Hst]; · iexact Hst
  isplitl [Hstc]; · iexact Hstc
  iintro ⟨Hst, Hdn⟩
  ihave Htd := (gather m R d) $$ Hdn
  imodintro
  isplitl [Hst]; · iexact Hst
  unfold FIN
  isplitl [Ht]; · iexact Ht
  isplitl [Ha1]; · iexact Ha1
  isplitl [Ha2]; · iexact Ha2
  isplitl [Ha3]; · iexact Ha3
  isplitl [Ha4]; · iexact Ha4
  isplitl [Ha5]; · iexact Ha5
  iexact Htd

end Cert.KernelIdeal.SC

end
-- ==== Proof.KI.TileVal.lean ====
/-
  One vector subcore's task: the arrays it works on, what its scratch buffers hold, and the value facts of its
  loop — pure statements, apart from the run that uses them.
-/
import proofs.«217044_g88356067214146_cont_9to1_m_986_23_alg».proof.Proof.KI.Good

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)

variable {F : FTy → Type}

variable (m : (ℓ : Loc nD τ sig) → Buf (Elt F) ℓ)
variable [FloatOps F]

local notation "tW" => (Memref.whole Cert.KernelIdeal.main_arg0_scv : Memref Cert.KernelIdeal.sig Kind.scVector Space.hbm Cert.KernelIdeal.S16384 EltTy.i32)
local notation "vW" => (Memref.whole Cert.KernelIdeal.main_v4_scv : Memref Cert.KernelIdeal.sig Kind.scVector Space.hbm Cert.KernelIdeal.S1024 EltTy.f32)
local notation "oW" => (Memref.whole Cert.KernelIdeal.main_v5_scv : Memref Cert.KernelIdeal.sig Kind.scVector Space.hbm Cert.KernelIdeal.S16384 EltTy.f32)
local notation "sI" => (Memref.whole Cert.KernelIdeal.cc1_scratch0 : Memref Cert.KernelIdeal.sig Kind.scVector Space.vmem Cert.KernelIdeal.S512 EltTy.i32)
local notation "sT" => (Memref.whole Cert.KernelIdeal.cc1_scratch1 : Memref Cert.KernelIdeal.sig Kind.scVector Space.vmem Cert.KernelIdeal.S1024 EltTy.f32)
local notation "sO" => (Memref.whole Cert.KernelIdeal.cc1_scratch2 : Memref Cert.KernelIdeal.sig Kind.scVector Space.vmem Cert.KernelIdeal.S512 EltTy.f32)

section Tile

variable (d : Dev nD) (L : grid1.Coords)

abbrev cV (L : grid1.Coords) : Fin τ.nSC := (L 0).castLE hcore1
abbrev jV (L : grid1.Coords) : Fin τ.nSub := (L 1).castLE hsub1

/-- The subcore's 512 positions, as the program slices them out of a length-16384 array. -/
abbrev chunk (L : grid1.Coords) : Rect S16384 := Rect.unit (s := S16384) (k1_off1 L) S512.size (k1_off1_inb L)
abbrev tSl (L : grid1.Coords) : Memref sig .scVector .hbm S512 .i32 := (tW).slice (chunk L) (fun _ => rfl)
abbrev oSl (L : grid1.Coords) : Memref sig .scVector .hbm S512 .f32 := (oW).slice (chunk L) (fun _ => rfl)

/-- The subcore's positions as a set of indices of a length-16384 array. -/
abbrev chunkSetL (L : grid1.Coords) : Finset S16384.Idx := ((oSl L).view).set

/-- What the index scratch holds after its fetch: the subcore's 512 index words. -/
abbrev ciOf : Buf (Elt F) ((V d (cV L) (jV L)).loc cc1_scratch0) :=
  (sI).view.writes (Elt F) (sI).view.junk [⟨Rect.whole cc1_scratch0.ty.shape, ReadAs.same.apply ((tSl L).view.read (Elt F) (m (tLoc d)))⟩]
/-- What the table scratch holds after its fetch: the table. -/
abbrev ctOf (tab : Buf (Elt F) (vLoc d)) : Buf (Elt F) ((V d (cV L) (jV L)).loc cc1_scratch1) :=
  (sT).view.writes (Elt F) (sT).view.junk [⟨Rect.whole cc1_scratch1.ty.shape, ReadAs.same.apply ((vW).view.read (Elt F) tab)⟩]

/-- The sixteen index words trip `k` loads. -/
abbrev v10Of (k : Fin k1_t1_loop.trips) : IVec S16 32 :=
  (sI).view.readAt (Elt F) (Rect.unit (s := S512) (k1_off2 k) S16.size (k1_off2_inb k)).toLoadRect (ciOf m d L)

/-- The index word of the subcore's position `y`. -/
abbrev wordAt (y : S512.Idx) : BitVec 32 := (tSl L).view.read (Elt F) (m (tLoc d)) y

/-- The index scratch, once fetched, reads the subcore's index words. -/
theorem ciOf_read (y : S512.Idx) : (sI).view.read (Elt F) (ciOf m d L) y = wordAt m d L y := by
  have h := View.read_writes_cons_emb (sI).view (Val := Elt F) (sI).view.junk (Rect.whole cc1_scratch0.ty.shape)
    (ReadAs.same.apply ((tSl L).view.read (Elt F) (m (tLoc d)))) [] y
  rw [Rect.emb_whole_apply] at h
  exact h

/-- A position's index word is one of the index array's words. -/
theorem wordAt_eq (y : S512.Idx) : wordAt m d L y = m (tLoc d) ((tSl L).view.emb y) :=
  (View.read_apply _ _).trans (cast_eq _ _)

/-- Every word a trip loads is below the table's 1024 entries. -/
theorem chk_of (ht : ∀ i, (m (tLoc d) i).toNat ≤ 1000) (k : Fin k1_t1_loop.trips) : k1_chk1 (v10Of m d L k) := by
  intro a x
  obtain rfl : a = 0 := Subsingleton.elim _ _
  show ((sI).view.read (Elt F) (ciOf m d L) _).toNat < 1024
  rw [ciOf_read, wordAt_eq]
  have := ht ((tSl L).view.emb ((Rect.unit (s := S512) (k1_off2 k) S16.size (k1_off2_inb k)).toLoadRect.idx x))
  omega

/-! ## The value carried through the loop -/

variable (R : BitVec 32 → F .f32 → Prop)

/-- The loop's value property after `k` trips: the first `16·k` positions of the out scratch hold right values for
    their index words. -/
def Pk (k : Nat) (fs : Buf (Elt F) ((V d (cV L) (jV L)).loc cc1_scratch2)) : Prop :=
  ∀ y : S512.Idx, (y 0).val < 16 * k → R (wordAt m d L y) ((sO).view.read (Elt F) fs y)

theorem Pk_zero (fs : Buf (Elt F) ((V d (cV L) (jV L)).loc cc1_scratch2)) : Pk m d L R 0 fs :=
  fun y h => absurd h (by omega)

set_option maxHeartbeats 1600000 in
/-- The table scratch, once fetched, reads the table. -/
theorem ctOf_read (tab : Buf (Elt F) (vLoc d)) (j : S1024.Idx) :
    View.read (Elt F) ((sT).access (Rect.whole cc1_scratch1.ty.shape)) (ctOf d L tab) j = tab j := by
  rw [Memref.read_access_whole]
  have h := View.read_writes_cons_emb (sT).view (Val := Elt F) (sT).view.junk (Rect.whole cc1_scratch1.ty.shape)
    (ReadAs.same.apply ((vW).view.read (Elt F) tab)) [] j
  rw [Rect.emb_whole_apply] at h
  exact h

/-- Trip `k` loads its sixteen words from the positions it stores its sixteen values to. -/
theorem off2_off3 (k : Fin k1_t1_loop.trips) (x : S16.Idx) :
    (Rect.unit (s := S512) (k1_off2 k) S16.size (k1_off2_inb k)).toLoadRect.idx x
      = (Rect.unit (s := S512) (k1_off3 k) S16.size (k1_off3_inb k)).emb x := by
  funext a
  refine Fin.ext ?_
  show k1_off2 k a + 1 * (x a).val = k1_off3 k a + 1 * (x a).val
  rw [k1_off2_eq, k1_off3_eq]

/-- The out scratch after trip `k` has stored, over contents `fs'`, the sixteen table entries its index words name. -/
abbrev stepFs (tab : Buf (Elt F) (vLoc d)) (fs' : Buf (Elt F) ((V d (cV L) (jV L)).loc cc1_scratch2)) (k : Fin k1_t1_loop.trips)
    (h : ∀ a x, ((![v10Of m d L k] : Fin 1 → IVec S16 32) a x).toNat < S1024.size a) :
    Buf (Elt F) ((V d (cV L) (jV L)).loc cc1_scratch2) :=
  (sO).view.writes (Elt F) fs'
    [⟨Rect.unit (s := S512) (k1_off3 k) S16.size (k1_off3_inb k),
      loadIdx (View.read (Elt F) ((sT).access (Rect.whole cc1_scratch1.ty.shape)) (ctOf d L tab)) ![v10Of m d L k] h⟩]

set_option maxHeartbeats 1600000 in
/-- ONE TRIP: the sixteen values gathered for the trip's sixteen index words are right values for them (the table is
    good and the words are at most 1000), and the earlier positions keep theirs. -/
theorem Pk_step (tab : Buf (Elt F) (vLoc d)) (hG : Good d R tab) (ht : ∀ i, (m (tLoc d) i).toNat ≤ 1000)
    (k : Fin k1_t1_loop.trips) (fs' : Buf (Elt F) ((V d (cV L) (jV L)).loc cc1_scratch2))
    (h : ∀ a x, ((![v10Of m d L k] : Fin 1 → IVec S16 32) a x).toNat < S1024.size a)
    (hP : Pk m d L R k.val fs') :
    Pk m d L R (k.val + 1) (stepFs m d L tab fs' k h) := by
  intro y hy
  by_cases hm : y ∈ (Rect.unit (s := S512) (k1_off3 k) S16.size (k1_off3_inb k)).set
  · obtain ⟨x, rfl⟩ := (Rect.unit (s := S512) (k1_off3 k) S16.size (k1_off3_inb k)).toLoadRect.exists_idx_of_mem hm
    have e1 := View.read_writes_cons_emb (sO).view (Val := Elt F) fs' (Rect.unit (s := S512) (k1_off3 k) S16.size (k1_off3_inb k))
      (loadIdx (View.read (Elt F) ((sT).access (Rect.whole cc1_scratch1.ty.shape)) (ctOf d L tab)) ![v10Of m d L k] h) [] x
    refine e1 ▸ ?_
    show R _ (View.read (Elt F) ((sT).access (Rect.whole cc1_scratch1.ty.shape)) (ctOf d L tab) (idxAt ![v10Of m d L k] h x))
    rw [ctOf_read]
    have hw : v10Of m d L k x = wordAt m d L ((Rect.unit (s := S512) (k1_off3 k) S16.size (k1_off3_inb k)).emb x) := by
      show (sI).view.read (Elt F) (ciOf m d L) _ = _
      rw [ciOf_read, off2_off3]
    refine hG _ _ ?_ ?_
    · show (v10Of m d L k x).toNat = _
      rw [hw]; rfl
    · show (wordAt m d L _).toNat ≤ 1000
      rw [wordAt_eq]; exact ht _
  · have hlt : (y 0).val < 16 * k.val := by
      by_contra hge
      refine hm (Rect.mem_set_unit.mpr fun a => ?_)
      obtain rfl : a = 0 := Subsingleton.elim _ _
      rw [k1_off3_eq]
      show 16 * k.val ≤ (y 0).val ∧ (y 0).val < 16 * k.val + 16
      omega
    rw [View.read_writes_apply_of_forall_not_mem _ _ y _ (fun p hp => by
      rw [List.mem_singleton.mp hp]; exact hm)]
    exact hP y hlt

/-- AFTER THE LAST TRIP the out scratch holds a right value at every position; copied to the subcore's positions of
    the result array, every one of those holds a right value for the index array's word there. -/
theorem out_right (fsN : Buf (Elt F) ((V d (cV L) (jV L)).loc cc1_scratch2)) (hP : Pk m d L R 32 fsN)
    (fo : Buf (Elt F) (oLoc d)) :
    ∀ i ∈ chunkSetL L, R (m (tLoc d) i)
      (((oSl L).view.writes (Elt F) fo [⟨Rect.whole S512, ReadAs.same.apply ((sO).view.read (Elt F) fsN)⟩]) i) := by
  intro i hi
  obtain ⟨y, -, rfl⟩ := Finset.mem_map.mp hi
  have h1 := View.read_writes_cons_emb (oSl L).view (Val := Elt F) fo (Rect.whole S512)
    (ReadAs.same.apply ((sO).view.read (Elt F) fsN)) [] y
  rw [Rect.emb_whole_apply, View.read_apply] at h1
  have h2 := (cast_eq _ _).symm.trans h1
  have hy : (y 0).val < 16 * 32 := (y 0).isLt
  have h3 := hP y hy
  rw [wordAt_eq] at h3
  exact h2 ▸ h3

end Tile

end Cert.KernelIdeal.SC

end
-- ==== Proof.KI.Tile.lean ====
/-
  One vector subcore's task, run: the subcore's scoped storage named, the loop's invariant, and the task's run with
  the value carried through it.
-/
import proofs.«217044_g88356067214146_cont_9to1_m_986_23_alg».proof.Proof.KI.TileVal

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "tW" => (Memref.whole Cert.KernelIdeal.main_arg0_scv : Memref Cert.KernelIdeal.sig Kind.scVector Space.hbm Cert.KernelIdeal.S16384 EltTy.i32)
local notation "vW" => (Memref.whole Cert.KernelIdeal.main_v4_scv : Memref Cert.KernelIdeal.sig Kind.scVector Space.hbm Cert.KernelIdeal.S1024 EltTy.f32)
local notation "oW" => (Memref.whole Cert.KernelIdeal.main_v5_scv : Memref Cert.KernelIdeal.sig Kind.scVector Space.hbm Cert.KernelIdeal.S16384 EltTy.f32)
local notation "sI" => (Memref.whole Cert.KernelIdeal.cc1_scratch0 : Memref Cert.KernelIdeal.sig Kind.scVector Space.vmem Cert.KernelIdeal.S512 EltTy.i32)
local notation "sT" => (Memref.whole Cert.KernelIdeal.cc1_scratch1 : Memref Cert.KernelIdeal.sig Kind.scVector Space.vmem Cert.KernelIdeal.S1024 EltTy.f32)
local notation "sO" => (Memref.whole Cert.KernelIdeal.cc1_scratch2 : Memref Cert.KernelIdeal.sig Kind.scVector Space.vmem Cert.KernelIdeal.S512 EltTy.f32)

section Tile

variable (d : Dev nD) (L : grid1.Coords)

abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scratch4.sem)
abbrev cCcell (d : Dev nD) (c : Fin τ.nSC) (i : Fin τ.nSub) : GSem nD τ sig := (V d c i, .dma cc1_scoped0.sem)

omit [FloatOps F] in
/-- The subcore's three DMA semaphores are among its own cells: they, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped0.sem : SemLoc sig).isScoped .scVector = true; decide⟩⟩⟩)]

omit [FloatOps F] in
/-- The three scratch buffers are among the subcore's own: they, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

variable (qT qV : PosShare TreeShare)

omit [FloatOps F] in
theorem pts_t (q : PosShare TreeShare) (f : Buf (Elt F) (tLoc d)) :
    ((tW).view.loc (V d (cV L) (jV L)) ↦{q} f : sProp 𝕄) = tLoc d ↦{q} f := by
  simp only [Memref.view_whole, View.set_whole]
omit [FloatOps F] in
theorem pts_v (q : PosShare TreeShare) (f : Buf (Elt F) (vLoc d)) :
    ((vW).view.loc (V d (cV L) (jV L)) ↦{q} f : sProp 𝕄) = vLoc d ↦{q} f := by
  simp only [Memref.view_whole, View.set_whole]
omit [FloatOps F] in
theorem pts_o (f : Buf (Elt F) (oLoc d)) :
    ((oSl L).view.loc (V d (cV L) (jV L)) ↦[(oSl L).view.set]{fullShare} f : sProp 𝕄) = oLoc d ↦[chunkSetL L]{fullShare} f := rfl
omit [FloatOps F] in
theorem pts_sI (f : Buf (Elt F) ((V d (cV L) (jV L)).loc cc1_scratch0)) :
    ((sI).view.loc (V d (cV L) (jV L)) ↦[(sI).view.set]{fullShare} f : sProp 𝕄) = (V d (cV L) (jV L)).loc cc1_scratch0 ↦{fullShare} f := by
  simp only [Memref.view_whole, View.set_whole]
omit [FloatOps F] in
theorem pts_sT (f : Buf (Elt F) ((V d (cV L) (jV L)).loc cc1_scratch1)) :
    ((sT).view.loc (V d (cV L) (jV L)) ↦[(sT).view.set]{fullShare} f : sProp 𝕄) = (V d (cV L) (jV L)).loc cc1_scratch1 ↦{fullShare} f := by
  simp only [Memref.view_whole, View.set_whole]
omit [FloatOps F] in
theorem pts_sT_access (f : Buf (Elt F) ((V d (cV L) (jV L)).loc cc1_scratch1)) :
    ((((sT).access (.whole S1024)).loc (V d (cV L) (jV L))) ↦{fullShare} f : sProp 𝕄) = (V d (cV L) (jV L)).loc cc1_scratch1 ↦{fullShare} f := rfl
omit [FloatOps F] in
theorem pts_sO (f : Buf (Elt F) ((V d (cV L) (jV L)).loc cc1_scratch2)) :
    ((sO).view.loc (V d (cV L) (jV L)) ↦[(sO).view.set]{fullShare} f : sProp 𝕄) = (V d (cV L) (jV L)).loc cc1_scratch2 ↦{fullShare} f := by
  simp only [Memref.view_whole, View.set_whole]

/-- The loop's invariant: the index scratch and the table scratch at fixed contents, the out scratch at contents the
    first `k` trips have determined (`Pk k`). -/
def inv (ci : Buf (Elt F) ((V d (cV L) (jV L)).loc cc1_scratch0)) (ct : Buf (Elt F) ((V d (cV L) (jV L)).loc cc1_scratch1))
    (Pk : Nat → Buf (Elt F) ((V d (cV L) (jV L)).loc cc1_scratch2) → Prop) (k : Nat) (_ : PUnit) : sProp 𝕄 :=
  iprop(((sI).view.loc (V d (cV L) (jV L)) ↦[(sI).view.set]{fullShare} ci)
    ∗ ((sT).view.loc (V d (cV L) (jV L)) ↦[(sT).view.set]{fullShare} ct)
    ∗ ∃ fs, ⌜Pk k fs⌝ ∗ ((sO).view.loc (V d (cV L) (jV L)) ↦[(sO).view.set]{fullShare} fs))

variable (R : BitVec 32 → F .f32 → Prop)

/-- ONE SUBCORE'S TASK. The subcore fetches the table and its 512 index words, gathers trip by trip the table's
    entries at the words into its out scratch, and copies the scratch to its 512 positions of the result. Given a
    good table and index words at most 1000, every one of those positions ends holding a right value for the index
    array's word there; the scoped storage is handed back, and the waits recorded are the given ones and three at the
    index `none`. -/
theorem tile_body (ht : ∀ i, (m (tLoc d) i).toNat ≤ 1000) (hF : (K (F := F)).Facts) (O : CellTallies nD τ sig (HIx 1)) (W : Waits sig (HIx 1)) (hO : ∀ g, O g none = 0) :
    (iprop(levAts (K (F := F)).L (K (F := F)).lev ∗ emp
        ∗ ((tLoc d ↦{qT} m (tLoc d)) ∗ (∃ tab, ⌜Good d R tab⌝ ∗ vLoc d ↦{qV} tab) ∗ (∃ fo, oLoc d ↦[chunkSetL L]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L tW (Memref.isWhole_whole _) vW (Memref.isWhole_whole _) oW (Memref.isWhole_whole _)
            sI (Memref.isWhole_whole _) sT (Memref.isWhole_whole _) sO (Memref.isWhole_whole _) cc1_scratch3 cc1_scratch4 cc1_scoped0)
          fun _ => iprop((∃ f, ⌜∀ i ∈ chunkSetL L, R (m (tLoc d) i) (f i)⌝ ∗ oLoc d ↦[chunkSetL L]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h32 : Scf.trips k1_t1_loop.lb k1_t1_loop.ub k1_t1_loop.st = 32 := by decide
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  iintro ⟨#Hlv, -, ⟨Ht, ⟨%tab, %hG, Hv⟩, ⟨%fo, Ho⟩⟩, ⟨⟨%fi, Hi⟩, ⟨%ft, Hst⟩, ⟨%fs, Hso⟩, Hbufs⟩, ⟨HsemA, HsemB, HsemC, Hsems⟩, HO⟩
  ihave Hmw := ((K (F := F)).mayWaits_none (thr := V d (cV L) (jV L)) hO) $$ Hlv
  ihave Ht' := (Entails.of_eq (pts_t (F := F) d L _ _).symm) $$ Ht
  ihave Hv' := (Entails.of_eq (pts_v (F := F) d L _ _).symm) $$ Hv
  ihave Ho' := (Entails.of_eq (pts_o (F := F) d L _).symm) $$ Ho
  ihave Hi' := (Entails.of_eq (pts_sI (F := F) d L _).symm) $$ Hi
  ihave Hst' := (Entails.of_eq (pts_sT (F := F) d L _).symm) $$ Hst
  ihave Hso' := (Entails.of_eq (pts_sO (F := F) d L _).symm) $$ Hso
  sl_exec
  sl_unfold_run_names
  sl_for (inv (F := F) d L (ciOf m d L) (ctOf d L tab) (Pk m d L R)) $$ [Hi' Hst' Hso']
  case region =>
    intro k _
    unfold inv
    iintro ⟨Hi, Hst, ⟨%fs', %hP, Hso⟩⟩
    sl_exec
    sl_unfold_run_names
    rw [wp_assume_of _ _ _ _ (chk_of m d L ht k)]
    ihave Hst2 := (Entails.of_eq ((pts_sT (F := F) d L _).trans (pts_sT_access (F := F) d L _).symm)) $$ Hst
    iapply (SparseCore.wp_vectorLoadIdx 𝒱₀ (V d (cV L) (jV L)) none Set.univ (base := sT) (S := Finset.univ) (q := fullShare) (Finset.subset_univ _)) $$ Hst2; iintro Hst2
    ihave Hst := (Entails.of_eq ((pts_sT_access (F := F) d L _).trans (pts_sT (F := F) d L _).symm)) $$ Hst2
    sl_exec
    sl_step
    isplitl [Hi]; · iexact Hi
    isplitl [Hst]; · iexact Hst
    iexists (stepFs m d L tab fs' k (k1_idx1_inb _ (chk_of m d L ht k))); isplitr
    · ipureintro; exact Pk_step m d L R tab hG ht k fs' _ hP
    · iexact Hso
  · unfold inv
    isplitl [Hi']; · iexact Hi'
    isplitl [Hst']; · iexact Hst'
    iexists fs; isplitr
    · ipureintro; exact Pk_zero m d L R fs
    · iexact Hso'
  iintro %_ HI
  unfold inv
  icases HI with ⟨Hi, Hst, ⟨%fsN, %hPN, Hso⟩⟩
  rw [h32] at hPN
  sl_exec
  sl_unfold_run_names
  sl_step
  isplitl [Ho']
  · iexists ((oSl L).view.writes (Elt F) fo [⟨Rect.whole S512, ReadAs.same.apply ((sO).view.read (Elt F) fsN)⟩]); isplitr
    · ipureintro; exact out_right m d L R fsN hPN fo
    · iapply (Entails.of_eq (pts_o (F := F) d L _)); iexact Ho'
  isplitl [Hi Hst Hso Hbufs]
  · isplitl [Hi]; · iexists (ciOf m d L); iapply (Entails.of_eq (pts_sI (F := F) d L _)); iexact Hi
    isplitl [Hst]; · iexists (ctOf d L tab); iapply (Entails.of_eq (pts_sT (F := F) d L _)); iexact Hst
    isplitl [Hso]; · iexists fsN; iapply (Entails.of_eq (pts_sO (F := F) d L _)); iexact Hso
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc1_scoped0.sem, (default : HIx 1)) (insert (SemLoc.dma cc1_scratch4.sem, (default : HIx 1))
    (insert (SemLoc.dma cc1_scratch3.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.KernelIdeal.SC

end
-- ==== Proof.KI.Obl.lean ====
/-
  The launch theorem's obligation for the vector-subcore kernel: one subcore's task, from what the worker is handed to
  what it hands back.

  The label table's row for the kernel on subcore `s` of SparseCore `c` is the kernel's function at the grid coordinates
  `(c, s)`; that subcore is worker `2·s + c`, whose chunk of the result is the rectangle the kernel slices at those
  coordinates. The task's run on that chunk is the obligation.
-/
import proofs.«217044_g88356067214146_cont_9to1_m_986_23_alg».proof.Proof.KI.Pay
import proofs.«217044_g88356067214146_cont_9to1_m_986_23_alg».proof.Proof.KI.Tile

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.KernelIdeal.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

local notation "tW" => (Memref.whole Cert.KernelIdeal.main_arg0_scv : Memref Cert.KernelIdeal.sig Kind.scVector Space.hbm Cert.KernelIdeal.S16384 EltTy.i32)
local notation "vW" => (Memref.whole Cert.KernelIdeal.main_v4_scv : Memref Cert.KernelIdeal.sig Kind.scVector Space.hbm Cert.KernelIdeal.S1024 EltTy.f32)
local notation "oW" => (Memref.whole Cert.KernelIdeal.main_v5_scv : Memref Cert.KernelIdeal.sig Kind.scVector Space.hbm Cert.KernelIdeal.S16384 EltTy.f32)
local notation "sI" => (Memref.whole Cert.KernelIdeal.cc1_scratch0 : Memref Cert.KernelIdeal.sig Kind.scVector Space.vmem Cert.KernelIdeal.S512 EltTy.i32)
local notation "sT" => (Memref.whole Cert.KernelIdeal.cc1_scratch1 : Memref Cert.KernelIdeal.sig Kind.scVector Space.vmem Cert.KernelIdeal.S1024 EltTy.f32)
local notation "sO" => (Memref.whole Cert.KernelIdeal.cc1_scratch2 : Memref Cert.KernelIdeal.sig Kind.scVector Space.vmem Cert.KernelIdeal.S512 EltTy.f32)

/-- The grid coordinates of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The label table's row for the kernel on a vector subcore: the kernel's function at the subcore's coordinates. -/
theorem defs₀_vector (c : Fin τ.nSC) (s : Fin τ.nSub) :
    defs₀ (F := F) (.scVector c s) 1 ()
      = SparseCore.onTile hcore1 hsub1 (fun c s => cc1_gather_kernel (coordsV c s)
          tW (Memref.isWhole_whole _) vW (Memref.isWhole_whole _) oW (Memref.isWhole_whole _)
          sI (Memref.isWhole_whole _) sT (Memref.isWhole_whole _) sO (Memref.isWhole_whole _) cc1_scratch3 cc1_scratch4 cc1_scoped0) ⟨⟩ c s := rfl

omit [FloatOps F] in
/-- Waits recorded at the index `none` are among those the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The vector-subcore kernel's obligation: subcore `i` of SparseCore `c`, handed worker `wOf c i`'s shares and chunk,
    hands the chunk back right for its index words, the index words being at most 1000. -/
theorem tileObl (ht : ∀ (d : Dev nD) i, (m (tLoc d) i).toNat ≤ 1000) : (K (F := F)).TileObl (D (F := F)) 𝒱 (P m R) v₀ 0 := by
  intro d c i O W hO _ _
  -- the kernel owes nothing for a protocol of its own
  simp only [show (P m R).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  -- the subcore's chunk is its worker's
  have hset : chunkSetL (coordsV ⟨_, hc.1⟩ ⟨_, hc.2⟩) = chunkSetW (wOf c i) :=
    (chunkSet_eq _).trans (congrArg chunkSetW (Fin.ext rfl))
  have hb := tile_body m d (coordsV ⟨_, hc.1⟩ ⟨_, hc.2⟩) (Transfers.shareTok fullShare 32 (wOf c i)) (Transfers.shareTok fullShare 32 (wOf c i))
    (R d) (ht d) facts O W hO
  rw [hset] at hb
  exact hb.trans (wp_mono frame _ _ fun _ => obl_post)

end Cert.KernelIdeal.SC

end
-- ==== Proof.KI.Launch.lean ====
/-
  The run of the whole program.

  Every weakly fair execution of the TensorCore's @main and the thirty-two vector subcores' tasks ends; the result holds,
  at each batch position, a right value for that position's index word, and the six arguments are unchanged. The launch
  theorem for SparseCore programs takes the subcores' task, the split of a SparseCore's operands among its subcores
  (the identity), @main's proof, the launch element of the ghost state, and how the final memory reads the claim.
-/
import proofs.«217044_g88356067214146_cont_9to1_m_986_23_alg».proof.Proof.KI.Main
import proofs.«217044_g88356067214146_cont_9to1_m_986_23_alg».proof.Proof.KI.Obl

noncomputable section

namespace Cert.KernelIdeal.SC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

theorem run_main [∀ e, Nonempty (Elt F e)] (R : Dev nD → BitVec 32 → F .f32 → Prop)
    (hR : ∀ (d : Dev nD) (x0 : Vec F S32x1024 .f32), Tab.Agrees (etOf m d) x0 →
      ∀ (j : S1024.Idx) (w : BitVec 32), (j 0).val = w.toNat → w.toNat ≤ 1000 → R d w (flatTab m d x0 j))
    (ht : ∀ (d : Dev nD) i, (m (tLoc d) i).toNat ≤ 1000) :
    θ_run (Cert.KernelIdeal.defs (F := F)) (Cert.KernelIdeal.threads (F := F)) ⟨m, fun _ => 0, ρ⟩ (QC m R) :=
  SparseCore.Cfg.θ_run_sc (K := K (F := F)) (D := D (F := F)) (𝒱 := 𝒱) (EH := EH) (P := P m R) facts v₀
    (fun q hq => match q with | 0 => nomatch hq)
    (fun q _ => match q with | 0 => tileObl m R ht)
    (fun q _ => match q with | 0 => SparseCore.Cfg.VecSplit.of_plain (vecSplit m R))
    m ρ main (G (F := F)) (FIN m R) (u₀ (F := F)) (sep_elim_left.trans (hu₀ m R)) (hmain m ρ R hR) (fq m R) (hfin m R) (QC m R)
    (fun s' h => hQ m R s' h)

end Cert.KernelIdeal.SC

end
-- ==== Proof.KI.TabValueLayout.lean ====
/-
  Layout operations read at an index given by coordinates, for the column ("keepdims") forms and the
  one-element forms the table's row meets: a vector turned into a column, a column repeated along the
  rows' length, the one element of a `[1, 1]` array taken out, a one-element vector viewed as `[1, 1]`.
  Each is the general lemma of that operation with the coordinates' arithmetic discharged.
-/
import proofs.«217044_g88356067214146_cont_9to1_m_986_23_alg».proof.Proof.KI.Table
import Idealize.ShloMosaic.Lib.ValueLayout

namespace Cert.KernelIdeal.TabValue

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The element of a `[1, 1]` array at position `(0, 0)` is its entry at `(0, 0)`. -/
theorem extractAt_11_apply (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) := by
  unfold extractAt
  exact congrArg v (funext fun a => Fin.ext (by
    match a with
    | ⟨0, _⟩ => rfl
    | ⟨1, _⟩ => rfl))

/-- A one-element vector placed on axis 1 of a `[1, 1]` array reads, at `(u, w)`, its one entry. -/
theorem broadcastInDim_1_11_apply (x : (⟨1, ![1]⟩ : Shape).Idx → α)
    (h : (⟨1, ![1]⟩ : Shape).BroadcastsInDim ⟨2, ![1, 1]⟩ (![1] : Fin 1 → Fin 2)) (u w : Fin 1) :
    broadcastInDim ⟨2, ![1, 1]⟩ (![1] : Fin 1 → Fin 2) h x (ix2 u w) = x (ix1 (0 : Fin 1)) := by
  refine broadcastInDim_apply _ h x (ix2 u w) (ix1 (0 : Fin 1)) fun a => ?_
  match a with
  | ⟨0, _⟩ => rfl

end Cert.KernelIdeal.TabValue
-- ==== Proof.KI.TabValueMatmul.lean ====
/-
  The two matrix products of the table's row, read at an index, at the extended reals: each entry is the sum, over
  the one contracted coordinate, of the products of the operands' entries. The first product contracts the leading
  axis of both operands (`out[j, r] = ∑ₖ A[k, j] · B[k, r]`); the second the left operand's trailing axis with the
  right operand's leading one (`out[u, r] = ∑ⱼ A[u, j] · B[j, r]`). Both accumulate into a zero splat.
-/
import proofs.«217044_g88356067214146_cont_9to1_m_986_23_alg».proof.Proof.KI.Table
import Idealize.ShloMosaic.Lib.ValueIdx
import Idealize.ShloMosaic.PureOps.Ideal.Laws

namespace Cert.KernelIdeal.TabValue

open Cert.KernelIdeal Cert.KernelIdeal.Gen Idealize.ShloMosaic Idealize.ShloMosaic.ValueIdx

/-! ## The first product: axis 0 of both operands contracted -/

/-- On the contracted axis the left operand's index is the contraction position. -/
theorem lhs1_0 (i : S64x1024.Idx) (q : dot_S32x64_S32x1024_S64x1024_0_0_1_1_n_n.contr.Idx) :
    (dot_S32x64_S32x1024_S64x1024_0_0_1_1_n_n.lhsIdx i q 0).val = (q ⟨0, by decide⟩).val :=
  dot_S32x64_S32x1024_S64x1024_0_0_1_1_n_n.lhsIdx_val_of_single rfl i q

/-- On its free axis the left operand's index is the result's row. -/
theorem lhs1_1 (i : S64x1024.Idx) (q : dot_S32x64_S32x1024_S64x1024_0_0_1_1_n_n.contr.Idx) :
    (dot_S32x64_S32x1024_S64x1024_0_0_1_1_n_n.lhsIdx i q 1).val = (i 0).val := by
  unfold DotDims.lhsIdx
  rw [dif_neg (show ¬(1 : Fin S32x64.rank) ∈ dot_S32x64_S32x1024_S64x1024_0_0_1_1_n_n.lhsBatch by decide),
    dif_pos (show (1 : Fin S32x64.rank) ∈ dot_S32x64_S32x1024_S64x1024_0_0_1_1_n_n.lhsNonContracting by decide)]
  rfl

/-- On the contracted axis the right operand's index is the contraction position. -/
theorem rhs1_0 (i : S64x1024.Idx) (q : dot_S32x64_S32x1024_S64x1024_0_0_1_1_n_n.contr.Idx) :
    (dot_S32x64_S32x1024_S64x1024_0_0_1_1_n_n.rhsIdx i q 0).val = (q ⟨0, by decide⟩).val :=
  dot_S32x64_S32x1024_S64x1024_0_0_1_1_n_n.rhsIdx_val_of_single rfl i q

/-- On its free axis the right operand's index is the result's column. -/
theorem rhs1_1 (i : S64x1024.Idx) (q : dot_S32x64_S32x1024_S64x1024_0_0_1_1_n_n.contr.Idx) :
    (dot_S32x64_S32x1024_S64x1024_0_0_1_1_n_n.rhsIdx i q 1).val = (i 1).val := by
  unfold DotDims.rhsIdx
  rw [dif_neg (show ¬(1 : Fin S32x1024.rank) ∈ dot_S32x64_S32x1024_S64x1024_0_0_1_1_n_n.rhsBatch by decide),
    dif_pos (show (1 : Fin S32x1024.rank) ∈ dot_S32x64_S32x1024_S64x1024_0_0_1_1_n_n.rhsNonContracting by decide)]
  rfl

/-- The first product at `(j, r)`: `∑ₖ A[k, j] · B[k, r]`. -/
theorem matmul1_apply (A : FVec Ideal S32x64 .f32) (B : FVec Ideal S32x1024 .f32) (j : Fin 64) (r : Fin 1024) :
    matmul dot_S32x64_S32x1024_S64x1024_0_0_1_1_n_n none A B (constant (F := Ideal) S64x1024 .f32 0x00000000#32) (ix2 j r)
      = ∑ k : Fin 32, A (ix2 k j) * B (ix2 k r) := by
  simp only [matmul]
  rw [Ideal.matmul_constant_zero_apply, ← Equiv.sum_comp (contrEquiv1 dot_S32x64_S32x1024_S64x1024_0_0_1_1_n_n 32 rfl rfl).symm]
  refine Finset.sum_congr rfl fun k _ => ?_
  have hk := contrEquiv1_symm_val dot_S32x64_S32x1024_S64x1024_0_0_1_1_n_n 32 rfl rfl k
  have el : dot_S32x64_S32x1024_S64x1024_0_0_1_1_n_n.lhsIdx (ix2 j r) ((contrEquiv1 dot_S32x64_S32x1024_S64x1024_0_0_1_1_n_n 32 rfl rfl).symm k) = ix2 k j :=
    funext fun a => Fin.ext (by
      match a with
      | ⟨0, _⟩ => exact (lhs1_0 _ _).trans hk
      | ⟨1, _⟩ => exact lhs1_1 _ _)
  have er : dot_S32x64_S32x1024_S64x1024_0_0_1_1_n_n.rhsIdx (ix2 j r) ((contrEquiv1 dot_S32x64_S32x1024_S64x1024_0_0_1_1_n_n 32 rfl rfl).symm k) = ix2 k r :=
    funext fun a => Fin.ext (by
      match a with
      | ⟨0, _⟩ => exact (rhs1_0 _ _).trans hk
      | ⟨1, _⟩ => exact rhs1_1 _ _)
  rw [el, er]

/-! ## The second product: the left operand's axis 1 against the right operand's axis 0 -/

/-- On its free axis the left operand's index is the result's row. -/
theorem lhs2_0 (i : S1x1024.Idx) (q : dot_S1x64_S64x1024_S1x1024_1_0_0_1_n_n.contr.Idx) :
    (dot_S1x64_S64x1024_S1x1024_1_0_0_1_n_n.lhsIdx i q 0).val = (i 0).val := by
  unfold DotDims.lhsIdx
  rw [dif_neg (show ¬(0 : Fin S1x64.rank) ∈ dot_S1x64_S64x1024_S1x1024_1_0_0_1_n_n.lhsBatch by decide),
    dif_pos (show (0 : Fin S1x64.rank) ∈ dot_S1x64_S64x1024_S1x1024_1_0_0_1_n_n.lhsNonContracting by decide)]
  rfl

/-- On the contracted axis the left operand's index is the contraction position. -/
theorem lhs2_1 (i : S1x1024.Idx) (q : dot_S1x64_S64x1024_S1x1024_1_0_0_1_n_n.contr.Idx) :
    (dot_S1x64_S64x1024_S1x1024_1_0_0_1_n_n.lhsIdx i q 1).val = (q ⟨0, by decide⟩).val :=
  dot_S1x64_S64x1024_S1x1024_1_0_0_1_n_n.lhsIdx_val_of_single rfl i q

/-- On the contracted axis the right operand's index is the contraction position. -/
theorem rhs2_0 (i : S1x1024.Idx) (q : dot_S1x64_S64x1024_S1x1024_1_0_0_1_n_n.contr.Idx) :
    (dot_S1x64_S64x1024_S1x1024_1_0_0_1_n_n.rhsIdx i q 0).val = (q ⟨0, by decide⟩).val :=
  dot_S1x64_S64x1024_S1x1024_1_0_0_1_n_n.rhsIdx_val_of_single rfl i q

/-- On its free axis the right operand's index is the result's column. -/
theorem rhs2_1 (i : S1x1024.Idx) (q : dot_S1x64_S64x1024_S1x1024_1_0_0_1_n_n.contr.Idx) :
    (dot_S1x64_S64x1024_S1x1024_1_0_0_1_n_n.rhsIdx i q 1).val = (i 1).val := by
  unfold DotDims.rhsIdx
  rw [dif_neg (show ¬(1 : Fin S64x1024.rank) ∈ dot_S1x64_S64x1024_S1x1024_1_0_0_1_n_n.rhsBatch by decide),
    dif_pos (show (1 : Fin S64x1024.rank) ∈ dot_S1x64_S64x1024_S1x1024_1_0_0_1_n_n.rhsNonContracting by decide)]
  rfl

/-- The second product at `(u, r)`: `∑ⱼ A[u, j] · B[j, r]`. -/
theorem matmul2_apply (A : FVec Ideal S1x64 .f32) (B : FVec Ideal S64x1024 .f32) (u : Fin 1) (r : Fin 1024) :
    matmul dot_S1x64_S64x1024_S1x1024_1_0_0_1_n_n none A B (constant (F := Ideal) S1x1024 .f32 0x00000000#32) (ix2 u r)
      = ∑ j : Fin 64, A (ix2 u j) * B (ix2 j r) := by
  simp only [matmul]
  rw [Ideal.matmul_constant_zero_apply, ← Equiv.sum_comp (contrEquiv1 dot_S1x64_S64x1024_S1x1024_1_0_0_1_n_n 64 rfl rfl).symm]
  refine Finset.sum_congr rfl fun k _ => ?_
  have hk := contrEquiv1_symm_val dot_S1x64_S64x1024_S1x1024_1_0_0_1_n_n 64 rfl rfl k
  have el : dot_S1x64_S64x1024_S1x1024_1_0_0_1_n_n.lhsIdx (ix2 u r) ((contrEquiv1 dot_S1x64_S64x1024_S1x1024_1_0_0_1_n_n 64 rfl rfl).symm k) = ix2 u k :=
    funext fun a => Fin.ext (by
      match a with
      | ⟨0, _⟩ => exact lhs2_0 _ _
      | ⟨1, _⟩ => exact (lhs2_1 _ _).trans hk)
  have er : dot_S1x64_S64x1024_S1x1024_1_0_0_1_n_n.rhsIdx (ix2 u r) ((contrEquiv1 dot_S1x64_S64x1024_S1x1024_1_0_0_1_n_n 64 rfl rfl).symm k) = ix2 k r :=
    funext fun a => Fin.ext (by
      match a with
      | ⟨0, _⟩ => exact (rhs2_0 _ _).trans hk
      | ⟨1, _⟩ => exact rhs2_1 _ _)
  rw [el, er]

end Cert.KernelIdeal.TabValue
-- ==== Proof.Spec.lean ====
/-
  The function both programs compute, on the extended reals.

  A table row `v` (one of the 1001 embedding rows) goes through a two-layer perceptron: the hidden
  unit `j` is `max (∑ₖ E[v,k]·W1[j,k] + b1[j]) 0`, the logit is `∑ⱼ hid[j]·W2[0,j] + b2[0]`, and the
  table entry is the logistic function of the logit. The result at batch position `i` is the table
  entry of the row that the index word `t[i]` names.
-/
import Idealize.ShloMosaic.PureOps.Ideal
import Idealize.ShloMosaic.Lib.ValueIdx

noncomputable section

namespace Cert.Spec

open Idealize.ShloMosaic Idealize.ShloMosaic.ValueIdx

abbrev ST : Shape := ⟨1, ![16384]⟩
abbrev SE : Shape := ⟨2, ![1001, 32]⟩
abbrev SW1 : Shape := ⟨2, ![64, 32]⟩
abbrev SB1 : Shape := ⟨1, ![64]⟩
abbrev SW2 : Shape := ⟨2, ![1, 64]⟩
abbrev SB2 : Shape := ⟨1, ![1]⟩

variable (E : FVec Ideal SE .f32) (W1 : FVec Ideal SW1 .f32) (b1 : FVec Ideal SB1 .f32)
  (W2 : FVec Ideal SW2 .f32) (b2 : FVec Ideal SB2 .f32)

/-- Hidden unit `j` of table row `v`: the rectified affine form of the row. -/
def hid (v : Fin 1001) (j : Fin 64) : EReal :=
  max ((∑ k : Fin 32, E (ix2 v k) * W1 (ix2 j k)) + b1 (ix1 j)) 0

/-- The logit of table row `v`. -/
def logit (v : Fin 1001) : EReal :=
  (∑ j : Fin 64, hid E W1 b1 v j * W2 (ix2 (0 : Fin 1) j)) + b2 (ix1 (0 : Fin 1))

/-- The table entry of row `v`. -/
def tbl (v : Fin 1001) : EReal := Ideal.logistic (logit E W1 b1 W2 b2 v)

/-- The row an index word names (row 0 for a word that names none; the precondition excludes those). -/
def rowOf (w : BitVec 32) : Fin 1001 := if h : w.toNat < 1001 then ⟨w.toNat, h⟩ else 0

/-- The result: at each batch position the table entry of the row its index word names. -/
def out (t : IVec ST 32) : FVec Ideal ST .f32 := fun i => tbl E W1 b1 W2 b2 (rowOf (t i))

end Cert.Spec

end
-- ==== Proof.KI.TabValue.lean ====
/-
  The table the first kernel leaves is the specification's table, entry by entry, at the extended reals.

  The row's entry `r` is the logistic function of `∑ⱼ w2[0, j] · max (∑ₖ w1t[k, j] · x0[k, r] + b1[j]) 0 + b2[0, 0]`;
  with `w1t` the transposed first-layer weights, `x0` agreeing with the transposed embedding table on the table's
  own columns, and the second bias viewed as `[1, 1]`, this is the specification's entry of row `r` once the two
  factors of each product are exchanged (the kernel multiplies weight by data, the specification data by weight).
  The `[8, 128]` result holds the row's entry `128·s + l` at `(s, l)`, so its row-major relabelling to `[1024]`
  holds the entry of row `v` at position `v`.
-/
import proofs.«217044_g88356067214146_cont_9to1_m_986_23_alg».proof.Proof.KI.TabValueLayout
import proofs.«217044_g88356067214146_cont_9to1_m_986_23_alg».proof.Proof.KI.TabValueMatmul
import proofs.«217044_g88356067214146_cont_9to1_m_986_23_alg».proof.Proof.Spec

namespace Cert.KernelIdeal.TabValue

open Cert.KernelIdeal Cert.KernelIdeal.Gen Idealize.ShloMosaic Idealize.ShloMosaic.ValueIdx

/-- The row of logistic values read at `(u, r)`, as a function of the five loaded blocks' entries. -/
theorem pay3_apply (v0 : FVec Ideal S32x64 .f32) (v2 : FVec Ideal S32x1024 .f32) (v5 : FVec Ideal S64 .f32)
    (v11 : FVec Ideal S1x64 .f32) (v13 : FVec Ideal S1x1 .f32) (u : Fin 1) (r : Fin 1024) :
    k0_pay3 (F := Ideal) v0 v2 v5 v11 v13 (ix2 u r)
      = Ideal.logistic ((∑ j : Fin 64, v11 (ix2 u j) * max ((∑ k : Fin 32, v0 (ix2 k j) * v2 (ix2 k r)) + v5 (ix1 j)) 0)
          + v13 (ix2 (0 : Fin 1) (0 : Fin 1))) := by
  unfold k0_pay3
  simp only [shapeCast_self]
  refine congrArg Ideal.logistic ?_
  rw [addf_apply, broadcast_apply, extractAt_11_apply]
  refine congrArg (· + v13 (ix2 (0 : Fin 1) (0 : Fin 1))) ?_
  refine (matmul2_apply _ _ u r).trans ?_
  refine Finset.sum_congr rfl fun j _ => ?_
  refine congrArg (v11 (ix2 u j) * ·) ?_
  rw [maximumf_apply, broadcast_apply, addf_apply]
  refine congrArg₂ max (congrArg₂ (· + ·) (matmul1_apply _ _ j r) ?_) Ideal.ofBits_zero_f32
  exact (broadcastTo_a1_ab_apply _ _ j r).trans (shapeCast_a_a1_apply v5 _ j 0)

/-- The `[8, 128]` result at `(s, l)` is the specification's table entry of row `128·s + l`, for the rows
    the table has. -/
theorem tabOut_eq (E : FVec Ideal S1001x32 .f32) (W1 : FVec Ideal S64x32 .f32) (b1 : FVec Ideal S64 .f32)
    (W2 : FVec Ideal S1x64 .f32) (b2 : FVec Ideal S1 .f32) (x0 : Vec Ideal S32x1024 .f32)
    (hx : Tab.Agrees (transpose S32x1001 [1, 0] E transposes_S1001x32_S32x1001_1_0) x0) (j : S8x128.Idx)
    (h : (Tab.col j).val < 1001) :
    Tab.tabOut (transpose S32x64 [1, 0] W1 transposes_S64x32_S32x64_1_0) x0 b1 W2
        (broadcastInDim S1x1 ![1] bcast_S1_S1x1_1 b2) j
      = Cert.Spec.tbl E W1 b1 W2 b2 ⟨(Tab.col j).val, h⟩ := by
  unfold Tab.tabOut
  refine (pay3_apply _ x0 b1 W2 _ 0 (Tab.col j)).trans ?_
  unfold Cert.Spec.tbl Cert.Spec.logit Cert.Spec.hid
  refine congrArg Ideal.logistic ?_
  refine congrArg₂ (· + ·) ?_ (broadcastInDim_1_11_apply b2 _ 0 0)
  refine Finset.sum_congr rfl fun jj _ => ?_
  rw [mul_comm]
  refine congrArg (· * W2 (ix2 (0 : Fin 1) jj)) ?_
  refine congrArg (max · 0) ?_
  refine congrArg (· + b1 (ix1 jj)) ?_
  refine Finset.sum_congr rfl fun k _ => ?_
  rw [mul_comm]
  exact congrArg₂ (· * ·) ((hx k ⟨_, h⟩).trans (transpose_ix2_apply E _ k ⟨_, h⟩)) (transpose_ix2_apply W1 _ k jj)

/-- The result relabelled in row-major order to `[1024]` holds, at the position an index word names, the
    specification's table entry of the row that word names. -/
theorem table_eq (E : FVec Ideal S1001x32 .f32) (W1 : FVec Ideal S64x32 .f32) (b1 : FVec Ideal S64 .f32)
    (W2 : FVec Ideal S1x64 .f32) (b2 : FVec Ideal S1 .f32) (x0 : Vec Ideal S32x1024 .f32)
    (hx : Tab.Agrees (transpose S32x1001 [1, 0] E transposes_S1001x32_S32x1001_1_0) x0)
    (w : BitVec 32) (hw : w.toNat ≤ 1000) :
    (shapeCast S1024 (Tab.tabOut (transpose S32x64 [1, 0] W1 transposes_S64x32_S32x64_1_0) x0 b1 W2
        (broadcastInDim S1x1 ![1] bcast_S1_S1x1_1 b2)) shapeCasts_S8x128_S1024 : FVec Ideal S1024 .f32)
      (ix1 (⟨w.toNat, by omega⟩ : Fin 1024)) = Cert.Spec.tbl E W1 b1 W2 b2 (Cert.Spec.rowOf w) := by
  have hlt : w.toNat < 1001 := by omega
  have hs : w.toNat / 128 < 8 := by omega
  have hl : w.toNat % 128 < 128 := Nat.mod_lt _ (by decide)
  have hc : (Tab.col (ix2 (⟨w.toNat / 128, hs⟩ : Fin 8) (⟨w.toNat % 128, hl⟩ : Fin 128))).val = w.toNat := by
    show 128 * (w.toNat / 128) + w.toNat % 128 = w.toNat
    omega
  refine (shapeCast_apply _ shapeCasts_S8x128_S1024 _
    (ix2 (⟨w.toNat / 128, hs⟩ : Fin 8) (⟨w.toNat % 128, hl⟩ : Fin 128)) ?_).trans ?_
  · rw [Shape.rowMajor_val_two, Shape.rowMajor_val_one]
    show w.toNat / 128 * 128 + w.toNat % 128 = w.toNat
    omega
  · refine (tabOut_eq E W1 b1 W2 b2 x0 hx _ (by rw [hc]; exact hlt)).trans ?_
    refine congrArg (Cert.Spec.tbl E W1 b1 W2 b2) ?_
    unfold Cert.Spec.rowOf
    rw [dif_pos hlt]
    exact Fin.ext hc

end Cert.KernelIdeal.TabValue
-- ==== Proof.PreIdx.lean ====
import proofs.«217044_g88356067214146_cont_9to1_m_986_23_alg».proof.Pre_input_domain
import proofs.«217044_g88356067214146_cont_9to1_m_986_23_alg».proof.Proof.Gen.Pre_input_domain
import Idealize.ShloMosaic.Lib.ReduceAll

/-!
  The index range the input-domain precondition states, read back: the last conjunct of the
  precondition is `all (0 ≤ t ∧ t ≤ 1000)` with both comparisons signed, so every index word,
  read unsigned, is at most 1000. Generic in the float instance: the conjunct is about integers only.
-/

namespace Cert.PreIdx

open Idealize.ShloMosaic

/-- A 32-bit word that reads, signed, between 0 and 1000 reads the same unsigned. -/
theorem toNat_le_of_signed (w : BitVec 32) (h0 : (0#32 : BitVec 32).toInt ≤ w.toInt)
    (h1 : w.toInt ≤ (1000#32 : BitVec 32).toInt) : w.toNat ≤ 1000 := by
  have e0 : (0#32 : BitVec 32).toInt = 0 := by decide
  have e1 : (1000#32 : BitVec 32).toInt = 1000 := by decide
  rw [e0] at h0; rw [e1] at h1
  have hlt := w.isLt
  rw [BitVec.toInt_eq_toNat_cond] at h0 h1
  split_ifs at h0 h1 <;> omega

/-- The rank-0 shape has one index. -/
instance subsingleton_S_ : Subsingleton Cert.Pre_input_domain.S_.Idx := ⟨fun a b => funext fun d => d.elim0⟩

/-- Under the input-domain precondition every index word is at most 1000. -/
theorem idx_le {F : FTy → Type} [FloatOps F] (t : IVec Cert.Pre_input_domain.S16384 32)
    (E : FVec F Cert.Pre_input_domain.S1001x32 .f32) (W1 : FVec F Cert.Pre_input_domain.S64x32 .f32)
    (b1 : FVec F Cert.Pre_input_domain.S64 .f32) (W2 : FVec F Cert.Pre_input_domain.S1x64 .f32)
    (b2 : FVec F Cert.Pre_input_domain.S1 .f32)
    (h : Cert.Pre_input_domain.fn (F := F) t E W1 b1 W2 b2 = fun _ => 1#1) :
    ∀ i : Cert.Pre_input_domain.S16384.Idx, (t i).toNat ≤ 1000 := by
  intro i
  have h0 := congrFun h (fun d => d.elim0)
  dsimp only [Cert.Pre_input_domain.fn, Cert.Pre_input_domain.fn_part1] at h0
  change IntOp.andi _ _ = 1#1 at h0
  have h1 := (IntOp.andi_eq_one.1 h0).2
  have h2 := Host.reduce_andi_all _ _ _ _ _ h1 i
  change IntOp.andi (IntOp.cmpi .sge (t i) _) (IntOp.cmpi .sle (t i) _) = 1#1 at h2
  obtain ⟨ha, hb⟩ := IntOp.andi_eq_one.1 h2
  exact toNat_le_of_signed (t i) (IntOp.cmpi_sge.1 ha) (IntOp.cmpi_sle.1 hb)

end Cert.PreIdx
-- ==== Proof.RefOps.lean ====
import proofs.«217044_g88356067214146_cont_9to1_m_986_23_alg».proof.Proof.Gen.ReferenceIdeal
import Idealize.ShloMosaic.Lib.StableHlo.Run

/-!
  The reference program as a straight line: its @main is forty-five host operations once the three
  outlined functions (the fill-mode `take`, the `where` inside it, and the rectifier) are put at
  their call sites over the calls' own buffers. Every weakly fair execution terminates with each
  buffer at the fold of the operations over the launch contents.
-/

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the take's twenty-three (the `where`'s select the seventh),
    the first layer's five, the rectifier's three, the second layer and the logistic's fourteen. -/
abbrev ops : List (HloOp τ sig (Elt F)) :=
  [ StableHlo.TRef.nullary main_call0.c (constantI S_ 32 0#32),
    StableHlo.TRef.unary main_call0.c main_call0.v0 (broadcastInDim S16384 ![] bcast_S_S16384),
    StableHlo.TRef.binary (.of main_arg0 : TRef sig ⟨S16384, .i32⟩) main_call0.v0 main_call0.v1 (cmpi .slt),
    StableHlo.TRef.nullary main_call0.c_0 (constantI S_ 32 1001#32),
    StableHlo.TRef.unary main_call0.c_0 main_call0.v2 (broadcastInDim S16384 ![] bcast_S_S16384),
    StableHlo.TRef.binary (.of main_arg0 : TRef sig ⟨S16384, .i32⟩) main_call0.v2 main_call0.v3 addi,
    StableHlo.TRef.ternary main_call0.v1 main_call0.v3 (.of main_arg0 : TRef sig ⟨S16384, .i32⟩) main_call0.call0.v0 select,
    StableHlo.TRef.unary main_call0.call0.v0 main_call0.v5 (broadcastInDim S16384x1 ![0] bcast_S16384_S16384x1_0),
    StableHlo.TRef.nullary main_call0.c_1 (constantI S1 32 1000#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (.of main_arg1 : TRef sig ⟨S1001x32, .f32⟩) main_call0.v5 main_call0.v13 (fun x i => Host.gather gather_S1001x32_S16384x1_S16384x32_1_0_n_n_0_1_132 x i),
    StableHlo.TRef.unary main_call0.v12 main_call0.v14 (broadcastInDim S16384x32 ![0] bcast_S16384_S16384x32_0),
    StableHlo.TRef.nullary main_call0.cst (constant S_ .f32 0x7FC00000#32),
    StableHlo.TRef.unary main_call0.cst main_call0.v15 (broadcastInDim S16384x32 ![] bcast_S_S16384x32),
    StableHlo.TRef.ternary main_call0.v14 main_call0.v13 main_call0.v15 main_call0.v16 select,
    StableHlo.unary main_arg2 main_v1 ((transpose S32x64 [1, 0] · transposes_S64x32_S32x64_1_0) : (⟨S64x32, .f32⟩ : BufTy).Contents (Elt F) → (⟨S32x64, .f32⟩ : BufTy).Contents (Elt F)),
    StableHlo.binary main_v0 main_v1 main_v2 ((fun l r => Host.dotGeneral dot_S16384x32_S32x64_S16384x64_1_0_0_1_n_n none l r) : (⟨S16384x32, .f32⟩ : BufTy).Contents (Elt F) → (⟨S32x64, .f32⟩ : BufTy).Contents (Elt F) → (⟨S16384x64, .f32⟩ : BufTy).Contents (Elt F)),
    StableHlo.unary main_arg3 main_v3 (broadcastInDim S1x64 ![1] bcast_S64_S1x64_1 : (⟨S64, .f32⟩ : BufTy).Contents (Elt F) → (⟨S1x64, .f32⟩ : BufTy).Contents (Elt F)),
    StableHlo.unary main_v3 main_v4 (broadcastInDim S16384x64 ![0, 1] bcast_S1x64_S16384x64_0_1 : (⟨S1x64, .f32⟩ : BufTy).Contents (Elt F) → (⟨S16384x64, .f32⟩ : BufTy).Contents (Elt F)),
    StableHlo.binary main_v2 main_v4 main_v5 (addf : (⟨S16384x64, .f32⟩ : BufTy).Contents (Elt F) → (⟨S16384x64, .f32⟩ : BufTy).Contents (Elt F) → (⟨S16384x64, .f32⟩ : BufTy).Contents (Elt F)),
    StableHlo.TRef.nullary main_call1.cst (constant S_ .f32 0x00000000#32),
    StableHlo.TRef.unary main_call1.cst main_call1.v0 (broadcastInDim S16384x64 ![] bcast_S_S16384x64),
    StableHlo.TRef.binary (.of main_v5 : TRef sig ⟨S16384x64, .f32⟩) main_call1.v0 main_call1.v1 maximumf,
    StableHlo.unary main_arg4 main_v7 ((transpose S64x1 [1, 0] · transposes_S1x64_S64x1_1_0) : (⟨S1x64, .f32⟩ : BufTy).Contents (Elt F) → (⟨S64x1, .f32⟩ : BufTy).Contents (Elt F)),
    StableHlo.binary main_v6 main_v7 main_v8 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    StableHlo.unary main_arg5 main_v9 (broadcastInDim S1x1 ![1] bcast_S1_S1x1_1 : (⟨S1, .f32⟩ : BufTy).Contents (Elt F) → (⟨S1x1, .f32⟩ : BufTy).Contents (Elt F)),
    StableHlo.unary main_v9 main_v10 (broadcastInDim S16384x1 ![0, 1] bcast_S1x1_S16384x1_0_1 : (⟨S1x1, .f32⟩ : BufTy).Contents (Elt F) → (⟨S16384x1, .f32⟩ : BufTy).Contents (Elt F)),
    StableHlo.binary main_v8 main_v10 main_v11 (addf : (⟨S16384x1, .f32⟩ : BufTy).Contents (Elt F) → (⟨S16384x1, .f32⟩ : BufTy).Contents (Elt F) → (⟨S16384x1, .f32⟩ : BufTy).Contents (Elt F)),
    StableHlo.unary main_v11 main_v12 (Host.negf : (⟨S16384x1, .f32⟩ : BufTy).Contents (Elt F) → (⟨S16384x1, .f32⟩ : BufTy).Contents (Elt F)),
    StableHlo.unary main_v12 main_v13 (Host.exp : (⟨S16384x1, .f32⟩ : BufTy).Contents (Elt F) → (⟨S16384x1, .f32⟩ : BufTy).Contents (Elt F)),
    StableHlo.nullary main_cst (constant S_ .f32 0x3F800000#32),
    StableHlo.unary main_cst main_v14 (broadcastInDim S16384x1 ![] bcast_S_S16384x1 : (⟨S_, .f32⟩ : BufTy).Contents (Elt F) → (⟨S16384x1, .f32⟩ : BufTy).Contents (Elt F)),
    StableHlo.binary main_v14 main_v13 main_v15 (addf : (⟨S16384x1, .f32⟩ : BufTy).Contents (Elt F) → (⟨S16384x1, .f32⟩ : BufTy).Contents (Elt F) → (⟨S16384x1, .f32⟩ : BufTy).Contents (Elt F)),
    StableHlo.nullary main_cst_0 (constant S_ .f32 0x3F800000#32),
    StableHlo.unary main_cst_0 main_v16 (broadcastInDim S16384x1 ![] bcast_S_S16384x1 : (⟨S_, .f32⟩ : BufTy).Contents (Elt F) → (⟨S16384x1, .f32⟩ : BufTy).Contents (Elt F)),
    StableHlo.binary main_v16 main_v15 main_v17 (Host.divf : (⟨S16384x1, .f32⟩ : BufTy).Contents (Elt F) → (⟨S16384x1, .f32⟩ : BufTy).Contents (Elt F) → (⟨S16384x1, .f32⟩ : BufTy).Contents (Elt F)),
    StableHlo.reshape main_v17 main_v18 rfl shapeCasts_S16384x1_S16384 ]

set_option maxRecDepth 1024 in
/-- @main is that straight line: the functions' definitions unfolded at their calls and the records at their
    fields, both sides are one chain of steps once sequencing is reassociated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩

/-- From any memory with zero counters every weakly fair execution of @main terminates, and every final state has
    each buffer at the operations' fold over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefGather.lean ====
import Idealize.ShloMosaic.Lib.ValueIdx

/-!
  A row gather read at an index: `stablehlo.gather` of a matrix `[N, K]` at a column `[R, 1]` of
  start indices (offset axis 1, collapsed axis 0, start index map `[0]`, index vector axis 1, slices
  `[1, K]`) — what `table[idx]` of a matrix at a vector of row numbers lowers to. Result element
  `(r, k)` is the operand at row `idx[r, 0]` (read signed, clamped into `[0, N − 1]`), column `k`.
-/

noncomputable section

namespace Cert.RefSide

open Idealize.ShloMosaic Idealize.ShloMosaic.ValueIdx

variable {α : Type}

/-- The dimension numbers of a row gather. -/
abbrev rowDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(r, k)`: the operand at row `idx[r, 0]`, read signed and clamped, column `k`. -/
theorem gather_row_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowDims N K R wf) x idx (ix2 r k)
      = x (ix2 ⟨min (idx (ix2 r (0 : Fin 1))).toInt.toNat (N - 1), by omega⟩ k) := by
  unfold Host.gather
  congr 1
  funext a
  refine Fin.ext ?_
  match a with
  | ⟨0, _⟩ =>
    show (rowDims N K R wf).start (ix2 r k) idx 0 + (rowDims N K R wf).batchCoord (ix2 r k) 0
      + (rowDims N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N K R wf).startIndexMap from List.mem_singleton.mpr rfl)]
    have hsi : (rowDims N K R wf).siIdx (ix2 r k) ⟨List.idxOf (0 : Fin 2) (rowDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N K R wf).start (ix2 r k) idx 1 + (rowDims N K R wf).batchCoord (ix2 r k) 1
      + (rowDims N K R wf).offCoord (ix2 r k) 1 = k.val
    rw [GatherDims.batchCoord_eq_zero _ _ _ List.not_mem_nil]
    unfold GatherDims.start
    rw [dif_neg (show (1 : Fin 2) ∉ (rowDims N K R wf).startIndexMap from (by decide : (1 : Fin 2) ∉ ([0] : List (Fin 2))))]
    simp only [Nat.add_zero, Nat.zero_add]
    unfold GatherDims.offCoord
    rw [dif_pos (show (1 : Fin 2) ∈ (rowDims N K R wf).sKept from (GatherDims.mem_sKept _ _).mpr ⟨(by decide : (1 : Fin 2) ∉ ([0] : List (Fin 2))), List.not_mem_nil⟩)]
    rfl

end Cert.RefSide

end
-- ==== Proof.RefWords.lean ====
import Idealize.ShloMosaic.Lib.ReduceAll
import Idealize.ShloMosaic.Lib.ValueIdx

/-!
  Index words in range: what the comparisons and the clamp of a `take` with fill mode do to a 32-bit
  word `w` that reads, unsigned, at most 1000 — the word is not negative (so the wrap-around
  `w + 1001` is not taken), it passes the range test `0 ≤ w ≤ 1000`, and the gather's signed read
  and clamp leave it as it is. And a reduction by `and` of words that are all 1, from 1, is 1.
-/

namespace Cert.RefSide

open Idealize.ShloMosaic Idealize.ShloMosaic.ValueIdx

/-- A word at most 1000 reads the same signed. -/
theorem toInt_of_le (w : BitVec 32) (h : w.toNat ≤ 1000) : w.toInt = (w.toNat : Int) := by
  rw [BitVec.toInt_eq_toNat_cond, if_pos (by omega)]

/-- It is not negative: the signed test `w < 0` fails. -/
theorem slt_zero_of_le (w : BitVec 32) (h : w.toNat ≤ 1000) : IntOp.cmpi .slt w 0#32 = 0#1 := by
  refine eq_zero_of_ne_one fun e => ?_
  have := IntOp.cmpi_slt.1 e
  rw [toInt_of_le w h, show (0#32 : BitVec 32).toInt = 0 from by decide] at this
  omega

/-- The signed test `0 ≤ w` holds. -/
theorem sge_zero_of_le (w : BitVec 32) (h : w.toNat ≤ 1000) : IntOp.cmpi .sge w 0#32 = 1#1 := by
  rw [IntOp.cmpi_sge, toInt_of_le w h, show (0#32 : BitVec 32).toInt = 0 from by decide]
  omega

/-- The signed test `w ≤ 1000` holds. -/
theorem sle_1000_of_le (w : BitVec 32) (h : w.toNat ≤ 1000) : IntOp.cmpi .sle w 1000#32 = 1#1 := by
  rw [IntOp.cmpi_sle, toInt_of_le w h, show (1000#32 : BitVec 32).toInt = 1000 from by decide]
  omega

/-- The gather's signed read and clamp into `[0, 1000]` leave the word's value. -/
theorem clamp_of_le (w : BitVec 32) (h : w.toNat ≤ 1000) : min w.toInt.toNat (1001 - 1) = w.toNat := by
  rw [toInt_of_le w h, Int.toNat_natCast]
  omega

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A `stablehlo.reduce` by `and`, from 1, of an array whose elements are all 1 is 1 everywhere. -/
theorem reduce_andi_of_all {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl, hi]
  exact foldl_andi_one x _ fun n _ => hx n

end Cert.RefSide
-- ==== Proof.RefValue.lean ====
import proofs.«217044_g88356067214146_cont_9to1_m_986_23_alg».proof.Proof.Gen.ReferenceIdeal
import proofs.«217044_g88356067214146_cont_9to1_m_986_23_alg».proof.Proof.Spec
import proofs.«217044_g88356067214146_cont_9to1_m_986_23_alg».proof.Proof.RefGather
import proofs.«217044_g88356067214146_cont_9to1_m_986_23_alg».proof.Proof.RefWords
import Idealize.ShloMosaic.Lib.StackMember
import Idealize.ShloMosaic.Lib.ValueLayout
import Idealize.ShloMosaic.Lib.IdealHost

/-!
  The reference's value, stage by stage, and each stage read at an index.

  The stages are the reference's own arrays: the index words normalised (a negative word wraps by 1001), the
  same as a column, the range test `0 ≤ idx ≤ 1000` per position, the gathered rows (a NaN row where the test
  fails), the hidden layer, the logits, and the logistic of the logits as a vector. Under the hypothesis that
  every index word is at most 1000 the normalisation and the range test do nothing, the gather reads the row
  the word names, and the remaining stages are the specification's sums.
-/

noncomputable section

namespace Cert.RefSide

open Cert.ReferenceIdeal Cert.ReferenceIdeal.Gen Idealize.ShloMosaic Idealize.ShloMosaic.ValueIdx
open Idealize.ShloMosaic.StackMember

section Stages
variable {F : FTy → Type} [FloatOps F]

/-- The index words normalised: a negative word wraps around by the table's 1001 rows. -/
def normIdx (t : IVec S16384 32) : IVec S16384 32 :=
  select (cmpi .slt t (broadcastInDim S16384 ![] bcast_S_S16384 (constantI S_ 32 0#32)))
    (addi t (broadcastInDim S16384 ![] bcast_S_S16384 (constantI S_ 32 1001#32))) t

/-- The normalised words as a column of start indices. -/
def idxCol (t : IVec S16384 32) : IVec S16384x1 32 :=
  broadcastInDim S16384x1 ![0] bcast_S16384_S16384x1_0 (normIdx t)

/-- The range test of the fill mode: `0 ≤ idx ≤ 1000`, per position. -/
def inRange (t : IVec S16384 32) : IVec S16384 1 :=
  Host.reduce IntOp.andi
    (andi (cmpi .sge (idxCol t) (broadcastInDim S16384x1 ![] bcast_S_S16384x1 (constantI S_ 32 0#32)))
      (cmpi .sle (idxCol t) (broadcastInDim S16384x1 ![0, 1] bcast_S1x1_S16384x1_0_1
        (broadcastInDim S1x1 ![1] bcast_S1_S1x1_1 (constantI S1 32 1000#32)))))
    (constantI S_ 1 1#1) reducesTo_S16384x1_S16384_d1 h_S_

/-- The gathered table rows, a NaN row where the range test fails. -/
def rows (E : FVec F S1001x32 .f32) (t : IVec S16384 32) : FVec F S16384x32 .f32 :=
  select (broadcastInDim S16384x32 ![0] bcast_S16384_S16384x32_0 (inRange t))
    (Host.gather gather_S1001x32_S16384x1_S16384x32_1_0_n_n_0_1_132 E (idxCol t))
    (broadcastInDim S16384x32 ![] bcast_S_S16384x32 (constant S_ .f32 0x7FC00000#32))

/-- The hidden layer: the rows times the transposed first weight, plus the bias, rectified. -/
def hidden (E : FVec F S1001x32 .f32) (W1 : FVec F S64x32 .f32) (b1 : FVec F S64 .f32) (t : IVec S16384 32) :
    FVec F S16384x64 .f32 :=
  maximumf
    (addf (Host.dotGeneral dot_S16384x32_S32x64_S16384x64_1_0_0_1_n_n none (rows E t)
        (transpose S32x64 [1, 0] W1 transposes_S64x32_S32x64_1_0))
      (broadcastInDim S16384x64 ![0, 1] bcast_S1x64_S16384x64_0_1 (broadcastInDim S1x64 ![1] bcast_S64_S1x64_1 b1)))
    (broadcastInDim S16384x64 ![] bcast_S_S16384x64 (constant S_ .f32 0x00000000#32))

/-- The logits: the hidden layer times the transposed second weight, plus the bias. -/
def logits (E : FVec F S1001x32 .f32) (W1 : FVec F S64x32 .f32) (b1 : FVec F S64 .f32) (W2 : FVec F S1x64 .f32)
    (b2 : FVec F S1 .f32) (t : IVec S16384 32) : FVec F S16384x1 .f32 :=
  addf (Host.dotGeneral dot_S16384x64_S64x1_S16384x1_1_0_0_1_n_n none (hidden E W1 b1 t)
      (transpose S64x1 [1, 0] W2 transposes_S1x64_S64x1_1_0))
    (broadcastInDim S16384x1 ![0, 1] bcast_S1x1_S16384x1_0_1 (broadcastInDim S1x1 ![1] bcast_S1_S1x1_1 b2))

/-- The result: `1 / (1 + exp (−logit))` as a vector. -/
def refOut (E : FVec F S1001x32 .f32) (W1 : FVec F S64x32 .f32) (b1 : FVec F S64 .f32) (W2 : FVec F S1x64 .f32)
    (b2 : FVec F S1 .f32) (t : IVec S16384 32) : FVec F S16384 .f32 :=
  shapeCast S16384
    (Host.divf (broadcastInDim S16384x1 ![] bcast_S_S16384x1 (constant S_ .f32 0x3F800000#32))
      (addf (broadcastInDim S16384x1 ![] bcast_S_S16384x1 (constant S_ .f32 0x3F800000#32))
        (Host.exp (Host.negf (logits E W1 b1 W2 b2 t)))))
    shapeCasts_S16384x1_S16384

end Stages

/-! ## The integer stages, for index words at most 1000 -/

section Words
variable (t : IVec S16384 32) (ht : ∀ i, (t i).toNat ≤ 1000)
include ht

/-- No word is negative: the normalisation leaves every word. -/
theorem normIdx_apply (i : S16384.Idx) : normIdx t i = t i := by
  show Scalar.select (IntOp.cmpi .slt (t i) 0#32) _ (t i) = t i
  rw [slt_zero_of_le _ (ht i), select_zero]

/-- The column of start indices reads the word of its row. -/
theorem idxCol_apply (v : Fin 16384) (u : Fin 1) : idxCol t (ix2 v u) = t (ix1 v) := by
  unfold idxCol
  rw [broadcastInDim_apply ![0] bcast_S16384_S16384x1_0 (normIdx t) (ix2 v u) (ix1 v)
    (fun a => match a with | ⟨0, _⟩ => rfl), normIdx_apply t ht]

/-- Every word passes the range test. -/
theorem inRange_apply (i : S16384.Idx) : inRange t i = 1#1 := by
  refine reduce_andi_of_all _ _ _ _ (fun _ => rfl) (fun j => ?_) i
  obtain ⟨p, q, rfl⟩ : ∃ (p : Fin 16384) (q : Fin 1), j = ix2 p q := ⟨j 0, j 1, eq_ix2 j⟩
  show IntOp.andi (IntOp.cmpi .sge (idxCol t (ix2 p q)) 0#32) (IntOp.cmpi .sle (idxCol t (ix2 p q)) 1000#32) = 1#1
  rw [idxCol_apply t ht, sge_zero_of_le _ (ht _), sle_1000_of_le _ (ht _)]
  decide

end Words

/-- The row a word at most 1000 names is the word's value. -/
theorem rowOf_val (w : BitVec 32) (h : w.toNat ≤ 1000) : (Cert.Spec.rowOf w).val = w.toNat := by
  unfold Cert.Spec.rowOf
  rw [dif_pos (by omega)]

/-! ## The float stages at the ideal values -/

/-- The host's exponential at an index is the extended reals' exponential of the element. -/
theorem hostExp_apply {s : Shape} {φ : FTy} (a : FVec Ideal s φ) (i : s.Idx) : Host.exp a i = Ideal.exp (a i) := rfl
/-- The host's negation at an index is the negation of the element. -/
theorem hostNegf_apply {s : Shape} {φ : FTy} (a : FVec Ideal s φ) (i : s.Idx) : Host.negf a i = -(a i) := rfl

section Floats
variable (E : FVec Ideal S1001x32 .f32) (W1 : FVec Ideal S64x32 .f32) (b1 : FVec Ideal S64 .f32)
  (W2 : FVec Ideal S1x64 .f32) (b2 : FVec Ideal S1 .f32) (t : IVec S16384 32) (ht : ∀ i, (t i).toNat ≤ 1000)
include ht

/-- The gathered rows are the table's rows the words name. -/
theorem rows_apply (v : Fin 16384) (k : Fin 32) :
    rows E t (ix2 v k) = E (ix2 (Cert.Spec.rowOf (t (ix1 v))) k) := by
  unfold rows
  rw [select_apply, broadcastInDim_apply ![0] bcast_S16384_S16384x32_0 (inRange t) (ix2 v k) (ix1 v)
    (fun a => match a with | ⟨0, _⟩ => rfl), inRange_apply t ht, select_one]
  show Host.gather (rowDims 1001 32 16384 gather_S1001x32_S16384x1_S16384x32_1_0_n_n_0_1_132_wf) E (idxCol t) (ix2 v k) = _
  refine (gather_row_apply (by decide) _ E (idxCol t) v k).trans (congrArg (fun a => E (ix2 a k)) (Fin.ext ?_))
  show min (idxCol t (ix2 v (0 : Fin 1))).toInt.toNat (1001 - 1) = (Cert.Spec.rowOf (t (ix1 v))).val
  rw [idxCol_apply t ht, clamp_of_le _ (ht _), rowOf_val _ (ht _)]

/-- The hidden layer is the specification's, at the row the word names. -/
theorem hidden_apply (v : Fin 16384) (j : Fin 64) :
    hidden E W1 b1 t (ix2 v j) = Cert.Spec.hid E W1 b1 (Cert.Spec.rowOf (t (ix1 v))) j := by
  have e1 : dot_S16384x32_S32x64_S16384x64_1_0_0_1_n_n = DotDims.plain 16384 32 64 := rfl
  unfold hidden Cert.Spec.hid
  rw [maximumf_apply, addf_apply, e1, dotGeneral_plain_apply,
    broadcastInDim_apply ![0, 1] bcast_S1x64_S16384x64_0_1 _ (ix2 v j) (ix2 (0 : Fin 1) j)
      (fun a => match a with | ⟨0, _⟩ => rfl | ⟨1, _⟩ => rfl),
    broadcastInDim_apply ![1] bcast_S64_S1x64_1 b1 (ix2 (0 : Fin 1) j) (ix1 j)
      (fun a => match a with | ⟨0, _⟩ => rfl),
    broadcastInDim_scalar_apply, constant_apply, Ideal.ofBits_zero_f32]
  refine congrArg (fun x : EReal => max (x + b1 (ix1 j)) 0) (Finset.sum_congr rfl fun c _ => ?_)
  rw [rows_apply E t ht, transpose_ix2_apply]

/-- The logits are the specification's, at the row the word names. -/
theorem logits_apply (v : Fin 16384) :
    logits E W1 b1 W2 b2 t (ix2 v (0 : Fin 1)) = Cert.Spec.logit E W1 b1 W2 b2 (Cert.Spec.rowOf (t (ix1 v))) := by
  have e2 : dot_S16384x64_S64x1_S16384x1_1_0_0_1_n_n = DotDims.plain 16384 64 1 := rfl
  unfold logits Cert.Spec.logit
  rw [addf_apply, e2, dotGeneral_plain_apply,
    broadcastInDim_apply ![0, 1] bcast_S1x1_S16384x1_0_1 _ (ix2 v (0 : Fin 1)) (ix2 (0 : Fin 1) (0 : Fin 1))
      (fun a => match a with | ⟨0, _⟩ => rfl | ⟨1, _⟩ => rfl),
    broadcastInDim_apply ![1] bcast_S1_S1x1_1 b2 (ix2 (0 : Fin 1) (0 : Fin 1)) (ix1 (0 : Fin 1))
      (fun a => match a with | ⟨0, _⟩ => rfl)]
  refine congrArg (fun x : EReal => x + b2 (ix1 (0 : Fin 1))) (Finset.sum_congr rfl fun c _ => ?_)
  rw [hidden_apply E W1 b1 t ht, transpose_ix2_apply]

/-- THE REFERENCE'S VALUE IS THE SPECIFICATION: at each position the logistic of the logit of the row its word names. -/
theorem refOut_eq : refOut E W1 b1 W2 b2 t = Cert.Spec.out E W1 b1 W2 b2 t := by
  funext i
  obtain ⟨v, rfl⟩ : ∃ v : Fin 16384, i = ix1 v := ⟨i 0, eq_ix1 i⟩
  unfold refOut
  rw [shapeCast_apply _ shapeCasts_S16384x1_S16384 (ix1 v) (ix2 v (0 : Fin 1)) (by
    rw [Shape.rowMajor_val_two, Shape.rowMajor_val_one]
    show v.val * 1 + 0 = v.val
    omega)]
  show _ = Cert.Spec.tbl E W1 b1 W2 b2 (Cert.Spec.rowOf (t (ix1 v)))
  rw [hostDivf_apply, addf_apply, hostExp_apply, hostNegf_apply, broadcastInDim_scalar_apply, constant_apply,
    Ideal.ofBits_one_f32, logits_apply E W1 b1 W2 b2 t ht]
  rfl

end Floats

end Cert.RefSide

end
-- ==== Proof.RefRun.lean ====
import proofs.«217044_g88356067214146_cont_9to1_m_986_23_alg».proof.Defs
import proofs.«217044_g88356067214146_cont_9to1_m_986_23_alg».proof.Proof.PreIdx
import proofs.«217044_g88356067214146_cont_9to1_m_986_23_alg».proof.Proof.RefOps
import proofs.«217044_g88356067214146_cont_9to1_m_986_23_alg».proof.Proof.RefValue

/-!
  The reference's run, read back as the specification: under the input-domain precondition every weakly fair
  execution of the reference terminates with the result buffer at the specification's value of the argument
  arrays, and the arguments unchanged. The fold of the forty-five operations at the result buffer is the
  staged value by computation; the staged value is the specification once every index word is at most 1000,
  which the precondition's last conjunct says.
-/

noncomputable section

namespace Cert.RefSide

open Cert.ReferenceIdeal Cert.ReferenceIdeal.Gen Idealize.ShloMosaic Idealize.ShloMosaic.TcCoe Idealize.SL.Sem Idealize.ShloMosaic.StableHlo

section Fold
variable {F : FTy → Type} [FloatOps F]

-- forty-five results rewritten in one pass, the last through every stage: deeper than the default bound
set_option maxRecDepth 8192 in
/-- The fold of the operations at the result buffer is the staged value of the arguments' contents. -/
theorem out_eq (V : Valuation τ sig (Elt F)) :
    after ops V (main_v18 : DevRef τ sig)
      = refOut (V (main_arg1 : DevRef τ sig)) (V (main_arg2 : DevRef τ sig)) (V (main_arg3 : DevRef τ sig))
          (V (main_arg4 : DevRef τ sig)) (V (main_arg5 : DevRef τ sig)) (V (main_arg0 : DevRef τ sig)) := by
  after_results_simp
  simp only [TRef.toBuf, TRef.ofBuf, cast_eq]
  unfold refOut logits hidden rows inRange idxCol normIdx
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

end Fold

/-- Under the precondition, on every device, every weakly fair execution of the reference terminates with the
    result at the specification's value of the arguments and the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v18)
        = Cert.Spec.out (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run Cert.ReferenceIdeal.defs _ _).mono (fun _ h c =>
    ⟨(h c main_v18).trans ((out_eq _).trans (refOut_eq _ _ _ _ _ _
        (Cert.PreIdx.idx_le (F := Ideal) _ _ _ _ _ _ (hpre c)))),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_ops (F := Ideal) m g)

end Cert.RefSide

end
-- ==== Proof.Claims.lean ====
/-
  The claims about the idealized kernel and the reference, from the runs of the two programs.

  The idealized kernel's run leaves, at each batch position, a value related to the position's index word by a
  relation the table's entries satisfy; taken as the trivial relation it gives the frame, taken as "is the
  specification's table entry of the row the word names" it gives the result as the specification's function of the
  arguments. The reference's run ends at the same function of its arguments, so from memories that agree on the
  arguments the two results are equal.
-/
import proofs.«217044_g88356067214146_cont_9to1_m_986_23_alg».proof.Defs
import proofs.«217044_g88356067214146_cont_9to1_m_986_23_alg».proof.Proof.KI.Launch
import proofs.«217044_g88356067214146_cont_9to1_m_986_23_alg».proof.Proof.KI.TabValue
import proofs.«217044_g88356067214146_cont_9to1_m_986_23_alg».proof.Proof.PreIdx
import proofs.«217044_g88356067214146_cont_9to1_m_986_23_alg».proof.Proof.RefRun

noncomputable section

namespace Cert.Proof.Claims

open Idealize.ShloMosaic Idealize.SL.Sem

/-- The idealized kernel runs and leaves its arguments unchanged: its run at the trivial relation. -/
theorem frame_ki : Cert.frame_KernelIdeal := fun m g hpre =>
  (θ_run Cert.KernelIdeal.defs _ _).mono (fun _ h c => (h c).2)
    (Cert.KernelIdeal.SC.run_main (F := Ideal) m g (fun _ _ _ => True) (fun _ _ _ _ _ _ _ => trivial)
      (fun d => Cert.PreIdx.idx_le (F := Ideal) _ _ _ _ _ _ (hpre d)))

/-- The reference runs and leaves its arguments unchanged. -/
theorem frame_ri : Cert.frame_ReferenceIdeal := fun m g hpre =>
  (θ_run Cert.ReferenceIdeal.defs _ _).mono (fun _ h c => (h c).2) (Cert.RefSide.run m g hpre)

/-- The ideal pass rewrote no operation. -/
theorem preserves : Cert.preserves_Kernel_KernelIdeal := trivial

/-- An index of the flat table is the one its position names. -/
theorem idx_eq (j : Cert.KernelIdeal.S1024.Idx) (n : Nat) (hn : n < 1024) (hj : (j 0).val = n) :
    j = ValueIdx.ix1 (⟨n, hn⟩ : Fin 1024) :=
  (ValueIdx.eq_ix1 j).trans (congrArg ValueIdx.ix1 (Fin.ext hj))

/-- Both programs end with the specification's function of the arguments in their result arrays. -/
theorem algebraic : Cert.algebraic_KernelIdeal_ReferenceIdeal := by
  intro m g m' g' hpre hagree
  have hpre' : Cert.Pre_ReferenceIdeal m' := fun c => by
    obtain ⟨h0, h1, h2, h3, h4, h5⟩ := hagree c
    rw [h0, h1, h2, h3, h4, h5]
    exact hpre c
  have hR : ∀ (d : Dev Cert.KernelIdeal.nD) (x0 : Vec Ideal Cert.KernelIdeal.S32x1024 .f32),
      Cert.KernelIdeal.Tab.Agrees (Cert.KernelIdeal.SC.etOf m d) x0 →
      ∀ (j : Cert.KernelIdeal.S1024.Idx) (w : BitVec 32), (j 0).val = w.toNat → w.toNat ≤ 1000 →
        Cert.KernelIdeal.SC.flatTab m d x0 j
          = Cert.Spec.tbl (m ((SparseCore.T d).loc Cert.KernelIdeal.main_arg1)) (m ((SparseCore.T d).loc Cert.KernelIdeal.main_arg2)) (m ((SparseCore.T d).loc Cert.KernelIdeal.main_arg3))
              (m ((SparseCore.T d).loc Cert.KernelIdeal.main_arg4)) (m ((SparseCore.T d).loc Cert.KernelIdeal.main_arg5)) (Cert.Spec.rowOf w) := by
    intro d x0 hx j w hj hw
    rw [idx_eq j w.toNat (by omega) hj]
    exact Cert.KernelIdeal.TabValue.table_eq _ _ _ _ _ x0 hx w hw
  refine ⟨fun c => Cert.Spec.out (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg0)), ?_, ?_⟩
  · refine (θ_run Cert.KernelIdeal.defs _ _).mono (fun r h c => ⟨funext fun i => (h c).1 i, (h c).2⟩)
      (Cert.KernelIdeal.SC.run_main (F := Ideal) m g
        (fun d w x => x = Cert.Spec.tbl (m ((SparseCore.T d).loc Cert.KernelIdeal.main_arg1)) (m ((SparseCore.T d).loc Cert.KernelIdeal.main_arg2)) (m ((SparseCore.T d).loc Cert.KernelIdeal.main_arg3))
          (m ((SparseCore.T d).loc Cert.KernelIdeal.main_arg4)) (m ((SparseCore.T d).loc Cert.KernelIdeal.main_arg5)) (Cert.Spec.rowOf w))
        hR (fun d => Cert.PreIdx.idx_le (F := Ideal) _ _ _ _ _ _ (hpre d)))
  · refine (θ_run Cert.ReferenceIdeal.defs _ _).mono (fun r h c => ⟨(h c).1.trans ?_, (h c).2⟩)
      (Cert.RefSide.run m' g' hpre')
    obtain ⟨h0, h1, h2, h3, h4, h5⟩ := hagree c
    rw [h0, h1, h2, h3, h4, h5]

end Cert.Proof.Claims

end
-- ==== Proof.KB.Base.lean ====
/-
  The program as the SparseCore launch theorem reads it, the ghost state of the proof, and names for the arrays.

  The second kernel runs on the 32 vector subcores of the two SparseCores. Subcore `(c, s)` is worker `2·s + c`; it owns
  the 512 batch positions `[512·(2s+c), 512·(2s+c) + 512)`. The ghost state has three parts: the launch handshakes'
  rounds, the rounds of the first kernel's staging semaphores, and the counters of the subcores' own local copies.
-/
import proofs.«217044_g88356067214146_cont_9to1_m_986_23_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«217044_g88356067214146_cont_9to1_m_986_23_alg».proof.Proof.Gen.Kernel
import proofs.«217044_g88356067214146_cont_9to1_m_986_23_alg».proof.Proof.Gen.Kernel.Skeleton
import proofs.«217044_g88356067214146_cont_9to1_m_986_23_alg».proof.Proof.Gen.Kernel.Launch

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP 𝕄).LandsIn (upEmb : UEmb _ 𝕄) := by unfold EP; infer_instance

/-! ## The arrays -/

abbrev tLoc (d : Dev nD) : Loc nD τ sig := (SparseCore.T d).loc main_arg0
abbrev vLoc (d : Dev nD) : Loc nD τ sig := (SparseCore.T d).loc main_v4
abbrev oLoc (d : Dev nD) : Loc nD τ sig := (SparseCore.T d).loc main_v5

end Cert.Kernel.SC

end
-- ==== Proof.KB.Good.lean ====
/-
  When a table of values is right for every admissible index word.
-/
import proofs.«217044_g88356067214146_cont_9to1_m_986_23_alg».proof.Proof.KB.Base

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-- `R w x` reads "`x` is a right value for the index word `w`". The table `tab` is good when its entry at the
    position a word `w ≤ 1000` names is a right value for `w`. -/
def Good (d : Dev nD) (R : BitVec 32 → F .f32 → Prop) (tab : Buf (Elt F) (vLoc d)) : Prop :=
  ∀ (j : S1024.Idx) (w : BitVec 32), (j 0).val = w.toNat → w.toNat ≤ 1000 → R w (tab j)

end Cert.Kernel.SC

end
-- ==== Proof.KB.Chunks.lean ====
/-
  The result array of the second kernel, cut into the thirty-two chunks its vector subcores own.

  The kernel's grid is `[2, 16]`: subcore `(c, s)` works on the 512 consecutive positions from
  `1024·s + 512·c` of the length-16384 array, so it owns chunk `2·s + c` of the array's cut into 32 equal parts.
  The chunks are pairwise disjoint and cover the array; a separating conjunction over the 32 chunks is one over
  the two cores and, inside, the sixteen subcores; the whole array's points-to splits into the chunks' and the
  chunks' points-to, at whatever contents, join into the whole array's.
-/
import proofs.«217044_g88356067214146_cont_9to1_m_986_23_alg».proof.Proof.Gen.Kernel
import Idealize.ShloMosaic.Lib.SparseCore.Launch
import Idealize.ShloMosaic.Lib.Pipeline.Kit

noncomputable section

namespace Cert.Kernel.Chunks

open Cert.Kernel Cert.Kernel.Gen
open Idealize.ShloMosaic
open Idealize.SL Idealize.SL.RA Idealize.SL.BI
open scoped Idealize.SL.BI
open Idealize.SL.BI.BIBase Idealize.SL.BI.Laws Idealize.SL.ProofMode Idealize.SL.Sem

/-! ## The chunks -/

theorem hdiv32 : 32 ∣ S16384.size 0 := ⟨512, rfl⟩

/-- Chunk `w`: positions `512·w` to `512·w + 511`. -/
abbrev part (w : Fin 32) : Rect S16384 := Rect.part (s := S16384) (a₀ := 0) hdiv32 w

abbrev chunkSetW (w : Fin 32) : Finset S16384.Idx := (part w).set

/-- The chunk of subcore `(c, s)`, given as the grid's coordinates: `2·s + c`. -/
def widL (L : grid1.Coords) : Fin 32 :=
  ⟨2 * (L 1).val + (L 0).val, by
    have h0 : (L 0).val < 2 := (L 0).isLt
    have h1 : (L 1).val < 16 := (L 1).isLt
    omega⟩

/-- The same from the core and the subcore. -/
def wCS (c : Fin 2) (s : Fin 16) : Fin 32 := ⟨2 * s.val + c.val, by omega⟩

/-- Unit-stride rectangles at equal offsets and of equal sizes are equal. -/
theorem unit_congr₂ {s : Shape} {off off' size size' : Fin s.rank → Nat} (ho : off = off') (hs : size = size')
    (p : ∀ a, off a + size a ≤ s.size a) (p' : ∀ a, off' a + size' a ≤ s.size a) :
    Rect.unit off size p = Rect.unit off' size' p' := by
  subst ho; subst hs; rfl

/-- The rectangle subcore `L` slices is its chunk: `1024·s + 512·c = (2·s + c)·512`. -/
theorem chunk_eq (L : grid1.Coords) :
    Rect.unit (s := S16384) (k1_off1 L) S512.size (k1_off1_inb L) = part (widL L) := by
  have hoff : k1_off1 L = fun a => S16384.partIx 0 (widL L) a * S16384.partSize 0 32 a := by
    rw [k1_off1_eq]
    funext a
    match a with
    | ⟨0, _⟩ =>
      show 1024 * (L 1).val + 512 * (L 0).val = (2 * (L 1).val + (L 0).val) * (16384 / 32)
      omega
  have hsize : S512.size = S16384.partSize 0 32 := by
    funext a
    match a with
    | ⟨0, _⟩ => rfl
  exact unit_congr₂ (s := S16384) hoff hsize _ _

/-- The elements under the slice subcore `L` takes of the whole array are its chunk's. -/
theorem chunkSet_eq (L : grid1.Coords) :
    (((Memref.whole main_v5_scv : Memref sig .scVector .hbm S16384 .f32).slice
      (Rect.unit (s := S16384) (k1_off1 L) S512.size (k1_off1_inb L)) (fun _ => rfl)).view).set = chunkSetW (widL L) := by
  show ((View.whole (main_v5_scv : Ref sig .scVector)).slice
    (Rect.unit (s := S16384) (k1_off1 L) S512.size (k1_off1_inb L))).set = _
  rw [View.set_slice, chunk_eq]
  exact Finset.map_refl

theorem chunks_disjoint : ∀ i ∈ (Finset.univ : Finset (Fin 32)), ∀ j ∈ (Finset.univ : Finset (Fin 32)), i ≠ j →
    Disjoint (chunkSetW i) (chunkSetW j) :=
  fun _ _ _ _ h => Rect.part_disjoint hdiv32 h

theorem chunks_cover : (Finset.univ : Finset (Fin 32)).biUnion chunkSetW = Finset.univ :=
  Rect.biUnion_part hdiv32

theorem mem_chunk (i : S16384.Idx) : ∃ w : Fin 32, i ∈ chunkSetW w :=
  Rect.exists_mem_part hdiv32 i

/-! ## A conjunction over the chunks is one over the cores and their subcores -/

theorem bigSep_workers {M : Type} [URA M] (Φ : Fin 32 → sProp M) :
    bigSep Finset.univ Φ
      = bigSep (Finset.univ : Finset (Fin 2)) fun c => bigSep (Finset.univ : Finset (Fin 16)) fun s => Φ (wCS c s) := by
  have himg : (Finset.univ : Finset (Fin 32))
      = ((Finset.univ : Finset (Fin 2)) ×ˢ (Finset.univ : Finset (Fin 16))).image fun p => wCS p.1 p.2 := by
    ext w
    simp only [Finset.mem_univ, Finset.mem_image, Finset.mem_product, true_and, true_iff]
    have hw := w.isLt
    refine ⟨(⟨w.val % 2, by omega⟩, ⟨w.val / 2, by omega⟩), ?_⟩
    apply Fin.ext
    show 2 * (w.val / 2) + w.val % 2 = w.val
    omega
  have hinj : Set.InjOn (fun p : Fin 2 × Fin 16 => wCS p.1 p.2)
      ↑((Finset.univ : Finset (Fin 2)) ×ˢ (Finset.univ : Finset (Fin 16))) := by
    intro p _ q _ h
    have hv : 2 * p.2.val + p.1.val = 2 * q.2.val + q.1.val := congrArg Fin.val h
    have h1 := p.1.isLt
    have h2 := q.1.isLt
    exact Prod.ext (Fin.ext (by omega)) (Fin.ext (by omega))
  rw [himg, SparseCore.bigSep_image_of_injOn hinj, SparseCore.bigSep_product]

/-! ## The array's points-to along the chunks -/

variable {F : FTy → Type} {Ix : Type} [DecidableEq Ix] {Name : Type} [DecidableEq Name] {U : Type} [URA U] {Lvl : Type}

local notation "𝕄" => MT nD τ sig Ix (Elt F) Name U Lvl

/-- The whole array held is its thirty-two chunks held. -/
theorem oPts_chunks (d : Dev nD) (f : Buf (Elt F) ((SparseCore.T d).loc main_v5)) :
    (((SparseCore.T d).loc main_v5 ↦{fullShare} f : sProp 𝕄))
      = bigSep Finset.univ fun w : Fin 32 => ((SparseCore.T d).loc main_v5 ↦[chunkSetW w]{fullShare} f) := by
  rw [← pointsTo_biUnion Finset.univ (ℓ := (SparseCore.T d).loc main_v5) chunkSetW chunks_disjoint, chunks_cover]; try rfl

/-- The chunks held, each at some contents, are the whole array held at some contents. -/
theorem oChunks_join [FloatOps F] (d : Dev nD) :
    (bigSep Finset.univ fun w : Fin 32 => iprop(∃ f, ((SparseCore.T d).loc main_v5 ↦[chunkSetW w]{fullShare} f)))
      ⊢ (iprop(∃ f, (SparseCore.T d).loc main_v5 ↦{fullShare} f) : sProp 𝕄) := by
  refine (bigSep_exists_pi Finset.univ
    (fun w (f : Buf (Elt F) ((SparseCore.T d).loc main_v5)) => ((SparseCore.T d).loc main_v5 ↦[chunkSetW w]{fullShare} f : sProp 𝕄))).trans ?_
  iintro ⟨%fs, H⟩
  ihave H' := (pointsTo_biUnion_join Finset.univ chunkSetW fs (fs 0) chunks_disjoint) $$ H
  icases H' with ⟨%g, -, Hg⟩
  rw [chunks_cover]
  iexists g; iexact Hg

end Cert.Kernel.Chunks

end
-- ==== Proof.KB.Pay.lean ====
/-
  What the launch handshakes carry, and the launch element of the ghost state.

  The one SparseCore call hands each of the 32 vector subcores a read share of the index array, a read share of the table
  (at contents good for the relation `R`), and its own 512 positions of the result; each hands back its positions at
  contents right for its index words. A SparseCore's operands are its sixteen subcores' together, so the split among
  the subcores is the identity.
-/
import proofs.«217044_g88356067214146_cont_9to1_m_986_23_alg».proof.Proof.KB.Good
import proofs.«217044_g88356067214146_cont_9to1_m_986_23_alg».proof.Proof.KB.Chunks

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Kernel.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

/-- The worker number of subcore `i` of SparseCore `c` of the call's grid. -/
abbrev wOf (c : Fin ((K (F := F)).nCore 0)) (i : Fin ((K (F := F)).nSub 0)) : Fin 32 := wCS (Fin.cast nCore_zero c) (Fin.cast nSub_zero i)

/-- What worker `w` is handed: a read share of the index words, a read share of a good table, its positions of the result. -/
def goRes (d : Dev nD) (w : Fin 32) : sProp 𝕄 :=
  iprop((tLoc d ↦{Transfers.shareTok fullShare 32 w} m (tLoc d))
    ∗ (∃ tab, ⌜Good d (R d) tab⌝ ∗ vLoc d ↦{Transfers.shareTok fullShare 32 w} tab)
    ∗ (∃ fo, oLoc d ↦[chunkSetW w]{fullShare} fo))

/-- What worker `w` hands back: its positions of the result, each entry right for its index word. -/
def tdRes (d : Dev nD) (w : Fin 32) : sProp 𝕄 :=
  iprop(∃ f, ⌜∀ i ∈ chunkSetW w, R d (m (tLoc d) i) (f i)⌝ ∗ oLoc d ↦[chunkSetW w]{fullShare} f)

def P : (K (F := F)).Pay (nD := nD) (Val := Elt F) (Name := ℕ) (U := UU) where
  st := fun q d c => match q with | 0 => bigSep Finset.univ fun i : Fin ((K (F := F)).nSub 0) => goRes m R d (wOf c i)
  dn := fun q d c => match q with | 0 => bigSep Finset.univ fun i : Fin ((K (F := F)).nSub 0) => tdRes m R d (wOf c i)
  go := fun q d c i => match q with | 0 => goRes m R d (wOf c i)
  td := fun q d c i => match q with | 0 => tdRes m R d (wOf c i)
  x := fun _ _ => iprop(emp)

instance P_storable : (P (F := F) m R).IsStorable where
  st q d c := match q with | 0 => by unfold P goRes; infer_instance
  dn q d c := match q with | 0 => by unfold P tdRes; infer_instance
  go q d c i := match q with | 0 => by unfold P goRes; infer_instance
  td q d c i := match q with | 0 => by unfold P tdRes; infer_instance

theorem vecSplit : (K (F := F)).VecSplit' (P m R) 0 := by
  intro d c
  show (bigSep Finset.univ fun i : Fin ((K (F := F)).nSub 0) => goRes m R d (wOf c i)) ⊢ |={Set.univ}=> iprop(
      (bigSep Finset.univ fun i : Fin ((K (F := F)).nSub 0) => goRes m R d (wOf c i))
      ∗ ((bigSep Finset.univ fun i : Fin ((K (F := F)).nSub 0) => tdRes m R d (wOf c i))
          -∗ (bigSep Finset.univ fun i : Fin ((K (F := F)).nSub 0) => tdRes m R d (wOf c i))))
  iintro H; imodintro
  isplitl [H]; · iexact H
  iintro H; iexact H

/-! ## The launch element -/

def u₀ : UU := (initOf (K (F := F)).hsCells (K (F := F)).hsToks, (initOf (Pipeline.cells cfgs cellOf_inj) (Pipeline.launchToks cfgs cellOf_inj), 1))

/-- What the launch deals a device's TensorCore for the first kernel: its staging cells' rounds and duty tokens. -/
def G (d : Dev nD) : sProp 𝕄 := iprop(Pipeline.cellsGhost cfgs (EP (F := F)) 0 d ∗ Pipeline.toksInit cfgs (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m R).x q thr) := by
  unfold u₀
  iintro Hu
  ihave H := (ownU_pair _ _) $$ Hu
  icases H with ⟨HH, HP⟩
  ihave HP' := (show (BI.own ((embR : Emb (UP × Counters) 𝕄) (initOf (Pipeline.cells cfgs cellOf_inj) (Pipeline.launchToks cfgs cellOf_inj), 1)) : sProp 𝕄)
      ⊢ BI.own ((EP (F := F)) (initOf (Pipeline.cells cfgs cellOf_inj) (Pipeline.launchToks cfgs cellOf_inj))) from BI.Entails.refl _) $$ HP
  imod (Pipeline.fund_ghost cfgs (EP (F := F)) cellOf_inj) $$ HP' with ⟨Hc, Ht⟩
  imodintro
  isplitl [HH]; · iexact HH
  isplitl [Hc Ht]
  · unfold G
    rw [bigSep_sep']
    ihave Hc' := (Entails.of_eq (bigSep_congr (s := (Finset.univ : Finset (Dev nD))) fun c _ =>
      bigSep_univ_of_subsingleton (Φ := fun p => (Pipeline.cellsGhost cfgs (EP (F := F)) p c : sProp 𝕄)) (0 : Fin 1))) $$ Hc
    ihave Ht' := (Entails.of_eq (bigSep_congr (s := (Finset.univ : Finset (Dev nD))) fun c _ =>
      bigSep_univ_of_subsingleton (Φ := fun p => (Pipeline.toksInit cfgs (EP (F := F)) p c : sProp 𝕄)) (0 : Fin 1))) $$ Ht
    isplitl [Hc']
    · iexact Hc'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.SC

end
-- ==== Proof.KB.Table.lean ====
/-
  The table the first kernel leaves, as one function of what its body loads.

  The body's one non-trivial value is the row `[1, 1024]` of logistic values; the eight stores write its
  consecutive 128-lane pieces to the eight rows of the `[8, 128]` result, so the result at `(s, l)` is the row's entry
  `128·s + l`. The first operand's block is wider than its array (1024 columns against 1001): what the body loads agrees with
  the array on the array's own columns and is not determined beyond them.
-/
import proofs.«217044_g88356067214146_cont_9to1_m_986_23_alg».proof.Proof.Gen.Kernel.Skeleton
import Idealize.ShloMosaic.Lib.ValueIdx

noncomputable section

namespace Cert.Kernel.Tab

open Idealize.ShloMosaic Idealize.ShloMosaic.ValueIdx Cert.Kernel Cert.Kernel.Gen

variable {F : FTy → Type} [FloatOps F]

/-- Position `128·s + l` of the row, for the result's index `(s, l)`. -/
def col (j : S8x128.Idx) : Fin 1024 :=
  ⟨128 * (j 0).val + (j 1).val, by
    have h0 : (j 0).val < 8 := (j 0).isLt
    have h1 : (j 1).val < 128 := (j 1).isLt
    omega⟩

/-- The `[8, 128]` result as a function of the five loaded blocks. -/
def tabOut (w1t : Vec F S32x64 .f32) (x0 : Vec F S32x1024 .f32) (b1 : Vec F S64 .f32) (w2 : Vec F S1x64 .f32) (b2 : Vec F S1x1 .f32) :
    FVec F S8x128 .f32 :=
  fun j => k0_pay3 w1t x0 b1 w2 b2 (ix2 (0 : Fin 1) (col j))

/-- The loaded `[32, 1024]` block agrees with the `[32, 1001]` array on the array's columns. -/
def Agrees (et : FVec F S32x1001 .f32) (x0 : Vec F S32x1024 .f32) : Prop :=
  ∀ (k : Fin 32) (r : Fin 1001), x0 (ix2 k (⟨r.val, by have := r.isLt; omega⟩ : Fin 1024)) = et (ix2 k r)

end Cert.Kernel.Tab

end
-- ==== Proof.KB.RegionPieces.lean ====
/-
  The eight stores of the table kernel's body as pieces of the result's `[8, 128]` block: store `k` writes row `k`,
  its payload the lanes `128·k … 128·k + 127` of the row of 1024 logistic values. The block after the body is the canon
  of the eight pieces; the eight rows tile the block.
-/
import proofs.«217044_g88356067214146_cont_9to1_m_986_23_alg».proof.Proof.KB.Table
import proofs.«217044_g88356067214146_cont_9to1_m_986_23_alg».proof.Proof.Gen.Kernel.Skeleton
import Idealize.ShloMosaic.Lib.Pipeline.FrameBody
import Idealize.ShloMosaic.Lib.Ring

set_option maxRecDepth 16384

noncomputable section

namespace Cert.Kernel.Region

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The eight rows of the result's block -/

abbrev r0 : Rect S8x128 := Rect.unit (s := S8x128) ![0, 0] S1x128.size inb_S8x128_S1x128_0_0
abbrev r1 : Rect S8x128 := Rect.unit (s := S8x128) ![1, 0] S1x128.size inb_S8x128_S1x128_1_0
abbrev r2 : Rect S8x128 := Rect.unit (s := S8x128) ![2, 0] S1x128.size inb_S8x128_S1x128_2_0
abbrev r3 : Rect S8x128 := Rect.unit (s := S8x128) ![3, 0] S1x128.size inb_S8x128_S1x128_3_0
abbrev r4 : Rect S8x128 := Rect.unit (s := S8x128) ![4, 0] S1x128.size inb_S8x128_S1x128_4_0
abbrev r5 : Rect S8x128 := Rect.unit (s := S8x128) ![5, 0] S1x128.size inb_S8x128_S1x128_5_0
abbrev r6 : Rect S8x128 := Rect.unit (s := S8x128) ![6, 0] S1x128.size inb_S8x128_S1x128_6_0
abbrev r7 : Rect S8x128 := Rect.unit (s := S8x128) ![7, 0] S1x128.size inb_S8x128_S1x128_7_0

/-- The eight stores as pieces, last first, over the five loaded blocks. -/
def pieces (w1t : Vec F S32x64 .f32) (x0 : Vec F S32x1024 .f32) (b1 : Vec F S64 .f32) (w2 : Vec F S1x64 .f32) (b2 : Vec F S1x1 .f32) :
    List (View.Piece (Elt F) S8x128 .f32) :=
  [⟨r7, k0_pay2 (k0_pay3 w1t x0 b1 w2 b2)⟩, ⟨r6, k0_pay1 (k0_pay3 w1t x0 b1 w2 b2)⟩, ⟨r5, k0_pay9 w1t x0 b1 w2 b2⟩,
    ⟨r4, k0_pay8 w1t x0 b1 w2 b2⟩, ⟨r3, k0_pay7 w1t x0 b1 w2 b2⟩, ⟨r2, k0_pay6 w1t x0 b1 w2 b2⟩,
    ⟨r1, k0_pay5 w1t x0 b1 w2 b2⟩, ⟨r0, k0_pay4 w1t x0 b1 w2 b2⟩]

/-- The result's block after the body: the canon of the eight stores. -/
def out5 [∀ e, Nonempty (Elt F e)] (w1t : Vec F S32x64 .f32) (x0 : Vec F S32x1024 .f32) (b1 : Vec F S64 .f32) (w2 : Vec F S1x64 .f32) (b2 : Vec F S1x1 .f32) :
    Vec F S8x128 .f32 :=
  View.canon (pieces w1t x0 b1 w2 b2)

/-- The eight rows tile the block, so the stores cover it. -/
theorem cover5 (w1t : Vec F S32x64 .f32) (x0 : Vec F S32x1024 .f32) (b1 : Vec F S64 .f32) (w2 : Vec F S1x64 .f32) (b2 : Vec F S1x1 .f32)
    (y : S8x128.Idx) : ∃ pc ∈ pieces w1t x0 b1 w2 b2, y ∈ pc.1.set :=
  View.cover_of_tiledL (pieces w1t x0 b1 w2 b2) S1x128.size (by rfl) y

end Cert.Kernel.Region

end
-- ==== Proof.KB.RegionBody.lean ====
/-
  The table kernel's body on whole staging memrefs: it loads its five inputs' blocks, computes the row of 1024 logistic
  values and stores the row's eight 128-lane pieces to the eight rows of the result's block, each store after a load of
  the same row whose value nothing reads. The result's block after the body is the canon of the eight stores.
-/
import proofs.«217044_g88356067214146_cont_9to1_m_986_23_alg».proof.Proof.KB.RegionPieces
import proofs.«217044_g88356067214146_cont_9to1_m_986_23_alg».proof.Proof.Gen.Kernel.Launch
import proofs.«217044_g88356067214146_cont_9to1_m_986_23_alg».proof.Proof.Gen.Kernel.Points
import Idealize.ShloMosaic.Lib.Pipeline.Value
import Idealize.ShloMosaic.Lib.Tactic

set_option maxRecDepth 16384

noncomputable section

namespace Cert.Kernel.Region

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## The body's triple -/

set_option maxHeartbeats 4000000 in
/-- The kernel body on whole staging memrefs, the five inputs' at contents `x0`, `w1t`, `b1`, `w2`, `b2` and the
    result's at anything, runs to the continuation holding the inputs' as they were and the result's at `out5` of the
    inputs': every load reads a whole input block, and the eight stores cover the result's block. -/
theorem sound_kernel [∀ e, Nonempty (Elt F e)] (c : Dev nD) (E : Set Name) (i : grid0.Coords)
    (arg1 : Memref sig .tc .vmem S32x1024 .f32) (harg1 : arg1.IsWhole) (arg2 : Memref sig .tc .vmem S32x64 .f32) (harg2 : arg2.IsWhole)
    (arg3 : Memref sig .tc .vmem S64 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S8x128 .f32) (harg6 : arg6.IsWhole)
    (x0 : Vec F S32x1024 .f32) (w1t : Vec F S32x64 .f32) (b1 : Vec F S64 .f32) (w2 : Vec F S1x64 .f32) (b2 : Vec F S1x1 .f32)
    (K : PUnit → sProp 𝕄) :
    iprop(owns (c : Thread nD τ) arg1 fullShare x0 ∗ owns (c : Thread nD τ) arg2 fullShare w1t ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x0 ∗ owns (c : Thread nD τ) arg2 fullShare w1t ∗ owns (c : Thread nD τ) arg3 fullShare b1
            ∗ owns (c : Thread nD τ) arg4 fullShare w2 ∗ owns (c : Thread nD τ) arg5 fullShare b2
            ∗ owns (c : Thread nD τ) arg6 fullShare (out5 w1t x0 b1 w2 b2)) -∗ K ⟨⟩))
      ⊢ wp frame (wpE (defs₀ (F := F)) Variants.none (c : Thread nD τ) none) E
          (cc0__table_body i arg1 harg1 arg2 harg2 arg3 harg3 arg4 harg4 arg5 harg5 arg6 harg6) K := by
  simp only [cc0__table_body_eq_skeleton]; unfold cc0__table_body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  -- a load through the whole-block rectangle at offsets zero reads the block
  have hz2 : (![0, 0] : Fin 2 → Nat) = fun _ => 0 := funext fun a => by fin_cases a <;> rfl
  have hz1 : (![0] : Fin 1 → Nat) = fun _ => 0 := funext fun a => by fin_cases a; rfl
  have e1 : View.readAt (Elt F) arg1.view (Rect.unit (s := S32x1024) ![0, 0] S32x1024.size inb_S32x1024_S32x1024_0_0).toLoadRect f1
      = View.read (Elt F) arg1.view f1 := View.ld_unit_zero hz2 _ _
  have e2 : View.readAt (Elt F) arg2.view (Rect.unit (s := S32x64) ![0, 0] S32x64.size inb_S32x64_S32x64_0_0).toLoadRect f2
      = View.read (Elt F) arg2.view f2 := View.ld_unit_zero hz2 _ _
  have e3 : View.readAt (Elt F) arg3.view (Rect.unit (s := S64) ![0] S64.size inb_S64_S64_0).toLoadRect f3
      = View.read (Elt F) arg3.view f3 := View.ld_unit_zero hz1 _ _
  have e4 : View.readAt (Elt F) arg4.view (Rect.unit (s := S1x64) ![0, 0] S1x64.size inb_S1x64_S1x64_0_0).toLoadRect f4
      = View.read (Elt F) arg4.view f4 := View.ld_unit_zero hz2 _ _
  have e5 : View.readAt (Elt F) arg5.view (Rect.unit (s := S1x1) ![0, 0] S1x1.size inb_S1x1_S1x1_0_0).toLoadRect f5
      = View.read (Elt F) arg5.view f5 := View.ld_unit_zero hz2 _ _
  rw [e1, e2, e3, e4, e5]
  exact View.read_writes_eq_canon _ _ _ (cover5 (F := F) _ _ _ _ _)

end Cert.Kernel.Region

end
-- ==== Proof.KB.RegionValue.lean ====
/-
  What the eight stores leave is the table: store `k`'s payload at lane `l` is the row of logistic values at
  `128·k + l`, which is the table's entry at the index `(k, l)` under the store's rectangle — for every piece, so the
  canon of the pieces is the table at every index (the pieces cover the block).
-/
import proofs.«217044_g88356067214146_cont_9to1_m_986_23_alg».proof.Proof.KB.RegionPieces
import Idealize.ShloMosaic.Lib.Pipeline.Value

set_option maxRecDepth 16384

noncomputable section

namespace Cert.Kernel.Region

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.ValueIdx

/-- A 128-lane slice of a `[1, 1024]` row at lane offset `o`, read at `x`, is the row at lane `o + x 1`. -/
theorem slice_apply {α : Type} (v : S1x1024.Idx → α) (o : Nat) (h : S1x1024.Slices ![0, o] S1x128) (x : S1x128.Idx)
    (hlt : o + (x 1).val < 1024) :
    extractStridedSlice S1x128 ![0, o] v h x = v (ix2 (0 : Fin 1) (⟨o + (x 1).val, hlt⟩ : Fin 1024)) := by
  refine extractStridedSlice_apply ![0, o] v h x _ fun a => ?_
  have h00 : (x 0).val < 1 := (x 0).isLt
  match a with
  | ⟨0, _⟩ => show 0 = 0 + (x 0).val; omega
  | ⟨1, _⟩ => show o + (x 1).val = o + (x 1).val; rfl

/-- The table at the index `(k, x 1)` under row `k`'s rectangle is the row of logistic values at lane `128·k + x 1`. -/
theorem tabOut_row (w1t : Vec F S32x64 .f32) (x0 : Vec F S32x1024 .f32) (b1 : Vec F S64 .f32) (w2 : Vec F S1x64 .f32) (b2 : Vec F S1x1 .f32)
    (k o : Nat) (ho : 128 * k = o) (inb : ∀ a, (![k, 0] : Fin 2 → Nat) a + S1x128.size a ≤ S8x128.size a) (x : S1x128.Idx)
    (hlt : o + (x 1).val < 1024) :
    Tab.tabOut w1t x0 b1 w2 b2 ((Rect.unit (s := S8x128) ![k, 0] S1x128.size inb).emb x)
      = k0_pay3 w1t x0 b1 w2 b2 (ix2 (0 : Fin 1) (⟨o + (x 1).val, hlt⟩ : Fin 1024)) := by
  unfold Tab.tabOut
  refine congrArg (k0_pay3 w1t x0 b1 w2 b2) (congrArg (ix2 (0 : Fin 1)) (Fin.ext ?_))
  have h00 : (x 0).val < 1 := (x 0).isLt
  show 128 * (k + 1 * (x 0).val) + (0 + 1 * (x 1).val) = o + (x 1).val
  omega

/-- Store `k`'s payload, the row's slice at lane offset `o = 128·k`, is the table under row `k`'s rectangle. -/
theorem piece_ok (w1t : Vec F S32x64 .f32) (x0 : Vec F S32x1024 .f32) (b1 : Vec F S64 .f32) (w2 : Vec F S1x64 .f32) (b2 : Vec F S1x1 .f32)
    (k o : Nat) (ho : 128 * k = o) (hk : o + 128 ≤ 1024) (inb : ∀ a, (![k, 0] : Fin 2 → Nat) a + S1x128.size a ≤ S8x128.size a)
    (h : S1x1024.Slices ![0, o] S1x128) (x : S1x128.Idx) :
    extractStridedSlice S1x128 ![0, o] (k0_pay3 w1t x0 b1 w2 b2) h x
      = Tab.tabOut w1t x0 b1 w2 b2 ((Rect.unit (s := S8x128) ![k, 0] S1x128.size inb).emb x) := by
  have h1 : (x 1).val < 128 := (x 1).isLt
  have hlt : o + (x 1).val < 1024 := by omega
  exact (slice_apply _ o h x hlt).trans (tabOut_row w1t x0 b1 w2 b2 k o ho inb x hlt).symm

/-- The result's block after the body is the table of the five loaded blocks. -/
theorem out5_eq_tabOut [∀ e, Nonempty (Elt F e)] (w1t : Vec F S32x64 .f32) (x0 : Vec F S32x1024 .f32) (b1 : Vec F S64 .f32) (w2 : Vec F S1x64 .f32)
    (b2 : Vec F S1x1 .f32) : out5 w1t x0 b1 w2 b2 = Tab.tabOut w1t x0 b1 w2 b2 := by
  funext y
  refine View.canon_apply_of_pieces (Tab.tabOut w1t x0 b1 w2 b2) (pieces w1t x0 b1 w2 b2) ?_ y (cover5 w1t x0 b1 w2 b2 y)
  intro p hp x
  simp only [pieces, List.mem_cons, List.mem_nil_iff, or_false] at hp
  rcases hp with rfl | rfl | rfl | rfl | rfl | rfl | rfl | rfl
  · exact piece_ok w1t x0 b1 w2 b2 7 896 rfl (by decide) inb_S8x128_S1x128_7_0 slices_S1x1024_o0_896_S1x128 x
  · exact piece_ok w1t x0 b1 w2 b2 6 768 rfl (by decide) inb_S8x128_S1x128_6_0 slices_S1x1024_o0_768_S1x128 x
  · exact piece_ok w1t x0 b1 w2 b2 5 640 rfl (by decide) inb_S8x128_S1x128_5_0 slices_S1x1024_o0_640_S1x128 x
  · exact piece_ok w1t x0 b1 w2 b2 4 512 rfl (by decide) inb_S8x128_S1x128_4_0 slices_S1x1024_o0_512_S1x128 x
  · exact piece_ok w1t x0 b1 w2 b2 3 384 rfl (by decide) inb_S8x128_S1x128_3_0 slices_S1x1024_o0_384_S1x128 x
  · exact piece_ok w1t x0 b1 w2 b2 2 256 rfl (by decide) inb_S8x128_S1x128_2_0 slices_S1x1024_o0_256_S1x128 x
  · exact piece_ok w1t x0 b1 w2 b2 1 128 rfl (by decide) inb_S8x128_S1x128_1_0 slices_S1x1024_o0_128_S1x128 x
  · exact piece_ok w1t x0 b1 w2 b2 0 0 rfl (by decide) inb_S8x128_S1x128_0_0 slices_S1x1024_o0_0_S1x128 x

end Cert.Kernel.Region

end
-- ==== Proof.KB.Region.lean ====
/-
  The TensorCore region of @main (custom_call 0, the table kernel) as one step of the thread's run: from the six
  arrays of the call held whole — the first operand's `[32, 1001]` array, the four other operands, the result — the call runs
  to the same arrays, the operands unchanged and the result holding the table `Tab.tabOut` of the operands' blocks, where
  the first operand's `[32, 1024]` block agrees with its array on the array's 1001 columns and is not determined beyond them
  (the block overhangs the array: its fetch is cut at the array's end).

  The pipeline's proof data is relational: each input's staging buffer is left as found, and the result's is left at the
  table of SOME block agreeing with the first operand's array — what the body computes from the block it finds, whose
  columns past the array's end nothing names. The grid has one point: every input is fetched there and the result written
  back, whole.
-/
import proofs.«217044_g88356067214146_cont_9to1_m_986_23_alg».proof.Proof.KB.RegionBody
import proofs.«217044_g88356067214146_cont_9to1_m_986_23_alg».proof.Proof.KB.RegionValue
import proofs.«217044_g88356067214146_cont_9to1_m_986_23_alg».proof.Proof.Gen.Kernel.Launch
import proofs.«217044_g88356067214146_cont_9to1_m_986_23_alg».proof.Proof.Gen.Kernel.Points
import Idealize.ShloMosaic.Lib.Pipeline.Regions
import Idealize.ShloMosaic.Lib.Pipeline.Kit
import Idealize.ShloMosaic.Lib.Tactic

set_option maxRecDepth 16384

noncomputable section

namespace Cert.Kernel.Region

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
open Idealize.ShloMosaic.ValueIdx
open Idealize.ShloMosaic.Pipeline (cellOf)

variable {Ix : Type} [DecidableEq Ix] {Name : Type} [DecidableEq Name] {U : Type} [URA U] {Lvl : Type} [Preorder Lvl]

local notation "𝕄" => MT nD τ sig Ix (Elt F) Name U Lvl

/-- The pipeline has no prefetched table: its admissible tables are the trivial ones. -/
abbrev adm : (p : Fin 1) → (pcfgs (F := F) p).Adm := fun p => (cfgs p).toPCfg_adm

/-- The kernel's variants: none. -/
abbrev 𝒱₀ : Variants := Variants.none

/-- Buffer `b` of core `c`'s TensorCore held whole at `f`. -/
abbrev pl (c : Dev nD) (b : Ref sig .tc) (f : b.ty.Contents (Elt F)) : sProp 𝕄 := ((c.tc : Thread nD τ).loc b) ↦{fullShare} f

/-! ## The schedule's arithmetic at the one point -/

/-- The first operand's transfer moves 32 rows and the array's 1001 columns of its `[32, 1024]` block. -/
theorem xsize0 : ∀ (t : Fin grid0.N) (a : Fin 2), win0_0.xsize (grid0.coords t) a = (![32, 1001] : Fin 2 → Nat) a := by decide +kernel
/-- Every window's block starts at the array's origin. -/
theorem off0 : ∀ (t : Fin grid0.N) (a : Fin 2), win0_0.index t a * win0_0.size a = 0 := by decide +kernel
theorem off1 : ∀ (t : Fin grid0.N) (a : Fin 2), win0_1.index t a * win0_1.size a = 0 := by decide +kernel
theorem off2 : ∀ (t : Fin grid0.N) (a : Fin 1), win0_2.index t a * win0_2.size a = 0 := by decide +kernel
theorem off3 : ∀ (t : Fin grid0.N) (a : Fin 2), win0_3.index t a * win0_3.size a = 0 := by decide +kernel
theorem off4 : ∀ (t : Fin grid0.N) (a : Fin 2), win0_4.index t a * win0_4.size a = 0 := by decide +kernel
theorem off5 : ∀ (t : Fin grid0.N) (a : Fin 2), win0_5.index t a * win0_5.size a = 0 := by decide +kernel

/-! ## What the fetches stage -/

/-- The first operand's staging buffer after its cut fetch agrees with the array on the array's columns. -/
theorem agrees_fill (et : FVec F S32x1001 .f32) (t : Fin grid0.N) (d : S32x1024.Idx → Elt F .f32) :
    Tab.Agrees et (win0_0.fill (grid0.coords t) d ((win0_0.blk t).view.read (Elt F) et)) := by
  intro k r
  have hm : win0_0.moved (grid0.coords t) (ix2 k (⟨r.val, by have := r.isLt; omega⟩ : Fin 1024)) = true :=
    (win0_0.moved_iff _ _).mpr fun a => by
      rw [xsize0 t a]
      match a with
      | ⟨0, _⟩ => exact k.isLt
      | ⟨1, _⟩ => exact r.isLt
  unfold Pipeline.Window.fill; rw [dif_pos hm]
  show et ((win0_0.rect t).emb _) = et (ix2 k r)
  refine congrArg et (funext fun a => Fin.ext ?_)
  rw [Rect.emb_apply]
  show win0_0.index t a * win0_0.size a + 1 * _ = _
  rw [off0 t a]
  match a with
  | ⟨0, _⟩ => show 0 + 1 * k.val = k.val; omega
  | ⟨1, _⟩ => show 0 + 1 * r.val = r.val; omega

/-- An uncut whole-array fetch stages the array. -/
theorem fill_1 (A : FVec F S32x64 .f32) (t : Fin grid0.N) (d : S32x64.Idx → Elt F .f32) :
    win0_1.fill (grid0.coords t) d ((win0_1.blk t).view.read (Elt F) A) = A := by
  funext j
  have hm : win0_1.moved (grid0.coords t) j = true := (win0_1.moved_iff _ j).mpr fun a => (j a).isLt
  unfold Pipeline.Window.fill; rw [dif_pos hm]
  show A ((win0_1.rect t).emb _) = A j
  refine congrArg A (funext fun a => Fin.ext ?_)
  rw [Rect.emb_apply]
  show win0_1.index t a * win0_1.size a + 1 * (j a).val = (j a).val
  rw [off1 t a]; omega
theorem fill_2 (A : FVec F S64 .f32) (t : Fin grid0.N) (d : S64.Idx → Elt F .f32) :
    win0_2.fill (grid0.coords t) d ((win0_2.blk t).view.read (Elt F) A) = A := by
  funext j
  have hm : win0_2.moved (grid0.coords t) j = true := (win0_2.moved_iff _ j).mpr fun a => (j a).isLt
  unfold Pipeline.Window.fill; rw [dif_pos hm]
  show A ((win0_2.rect t).emb _) = A j
  refine congrArg A (funext fun a => Fin.ext ?_)
  rw [Rect.emb_apply]
  show win0_2.index t a * win0_2.size a + 1 * (j a).val = (j a).val
  rw [off2 t a]; omega
theorem fill_3 (A : FVec F S1x64 .f32) (t : Fin grid0.N) (d : S1x64.Idx → Elt F .f32) :
    win0_3.fill (grid0.coords t) d ((win0_3.blk t).view.read (Elt F) A) = A := by
  funext j
  have hm : win0_3.moved (grid0.coords t) j = true := (win0_3.moved_iff _ j).mpr fun a => (j a).isLt
  unfold Pipeline.Window.fill; rw [dif_pos hm]
  show A ((win0_3.rect t).emb _) = A j
  refine congrArg A (funext fun a => Fin.ext ?_)
  rw [Rect.emb_apply]
  show win0_3.index t a * win0_3.size a + 1 * (j a).val = (j a).val
  rw [off3 t a]; omega
theorem fill_4 (A : FVec F S1x1 .f32) (t : Fin grid0.N) (d : S1x1.Idx → Elt F .f32) :
    win0_4.fill (grid0.coords t) d ((win0_4.blk t).view.read (Elt F) A) = A := by
  funext j
  have hm : win0_4.moved (grid0.coords t) j = true := (win0_4.moved_iff _ j).mpr fun a => (j a).isLt
  unfold Pipeline.Window.fill; rw [dif_pos hm]
  show A ((win0_4.rect t).emb _) = A j
  refine congrArg A (funext fun a => Fin.ext ?_)
  rw [Rect.emb_apply]
  show win0_4.index t a * win0_4.size a + 1 * (j a).val = (j a).val
  rw [off4 t a]; omega

/-- The result's whole-block write-back overwrites the array with the staging buffer's contents. -/
theorem write_5 (G₀ X : FVec F S8x128 .f32) (t : Fin grid0.N) :
    (win0_5.blk t).view.write (Elt F) G₀ (win0_5.cut (grid0.coords t) X) Finset.univ = X :=
  Memref.write_access_unit_zero_univ (Elt F) main_v3 (funext (off5 t)) _ G₀ X

/-! ## The pipeline's proof data -/

section Data

variable (et : FVec F S32x1001 .f32) (w1t : FVec F S32x64 .f32) (b1 : FVec F S64 .f32) (w2 : FVec F S1x64 .f32) (b2 : FVec F S1x1 .f32)
  (o : FVec F S8x128 .f32)

/-- The proof data of the one pipeline on core `c`: the six arrays at the contents the region is entered with; each
    input's staging buffer left as found, the result's left at the table of some block agreeing with the first operand's
    array; no invariant; the core owing `O` throughout, its recorded pairs within `B`; full shares. -/
def rdat (O : CellTallies nD τ sig Ix) (B : Set (SemLoc sig × Ix)) (c : Dev nD) : Pipeline.RDat τ (Elt F) Ix Name U Lvl cfg0 c where
  A w := match w with
    | ⟨0, _⟩ => et
    | ⟨1, _⟩ => w1t
    | ⟨2, _⟩ => b1
    | ⟨3, _⟩ => w2
    | ⟨4, _⟩ => b2
    | ⟨5, _⟩ => o
  after w _ := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun _ X => ∃ x0 : Vec F S32x1024 .f32, Tab.Agrees et x0 ∧ X = Tab.tabOut w1t x0 b1 w2 b2
  Φ _ := iprop(emp)
  q _ := fullShare
  owed _ := O
  recorded _ := B

variable {et w1t b1 w2 b2 o}
variable {O : CellTallies nD τ sig Ix} {B : Set (SemLoc sig × Ix)} {c : Dev nD}

local notation "𝕕" => (rdat (Ix := Ix) (Name := Name) (U := U) (Lvl := Lvl) et w1t b1 w2 b2 o O B c)

/-- What the body finds in the first operand's staging buffer agrees with the array on the array's columns; -/
theorem finds0 {t : Fin cfg0.N} {Y} (h : (𝕕).Finds 0 t Y) : Tab.Agrees et Y := by
  obtain ⟨d, rfl⟩ := ((𝕕).finds_of_fetch (fetch0_0 t) Y).mp h
  unfold Pipeline.RDat.fetched Pipeline.RDat.blockOf
  dsimp only [rdat]
  exact agrees_fill et t d
/-- in the four other operands' buffers it finds their arrays. -/
theorem finds1 {t : Fin cfg0.N} {Y} (h : (𝕕).Finds 1 t Y) : Y = w1t := by
  obtain ⟨d, rfl⟩ := ((𝕕).finds_of_fetch (fetch0_1 t) Y).mp h
  unfold Pipeline.RDat.fetched Pipeline.RDat.blockOf
  dsimp only [rdat]
  exact fill_1 w1t t d
theorem finds2 {t : Fin cfg0.N} {Y} (h : (𝕕).Finds 2 t Y) : Y = b1 := by
  obtain ⟨d, rfl⟩ := ((𝕕).finds_of_fetch (fetch0_2 t) Y).mp h
  unfold Pipeline.RDat.fetched Pipeline.RDat.blockOf
  dsimp only [rdat]
  exact fill_2 b1 t d
theorem finds3 {t : Fin cfg0.N} {Y} (h : (𝕕).Finds 3 t Y) : Y = w2 := by
  obtain ⟨d, rfl⟩ := ((𝕕).finds_of_fetch (fetch0_3 t) Y).mp h
  unfold Pipeline.RDat.fetched Pipeline.RDat.blockOf
  dsimp only [rdat]
  exact fill_3 w2 t d
theorem finds4 {t : Fin cfg0.N} {Y} (h : (𝕕).Finds 4 t Y) : Y = b2 := by
  obtain ⟨d, rfl⟩ := ((𝕕).finds_of_fetch (fetch0_4 t) Y).mp h
  unfold Pipeline.RDat.fetched Pipeline.RDat.blockOf
  dsimp only [rdat]
  exact fill_4 b2 t d

/-- After the one write-back the result's array holds the table of some block agreeing with the first operand's array. -/
theorem arrAt5 {G} (h : (𝕕).ArrAt 5 cfg0.N G) : ∃ x0 : Vec F S32x1024 .f32, Tab.Agrees et x0 ∧ G = Tab.tabOut w1t x0 b1 w2 b2 := by
  rw [show cfg0.N = t0_0.val + 1 from rfl, (𝕕).ArrAt_succ 5 t0_0, if_pos (flush0_5 t0_0)] at h
  obtain ⟨G₀, X, -, ⟨Y, -, hX⟩, rfl⟩ := h
  dsimp only [rdat] at hX
  obtain ⟨x0, hx, rfl⟩ := hX
  exact ⟨x0, hx, write_5 G₀ _ t0_0⟩

end Data

/-! ## The body obligation -/

section Body

variable [∀ e, Nonempty (Elt F e)]
variable (et : FVec F S32x1001 .f32) (w1t : FVec F S32x64 .f32) (b1 : FVec F S64 .f32) (w2 : FVec F S1x64 .f32) (b2 : FVec F S1x1 .f32)
  (o : FVec F S8x128 .f32) (O : CellTallies nD τ sig Ix) (B : Set (SemLoc sig × Ix)) (c : Dev nD) (ι : Ix)

local notation "𝕕" => (rdat (Ix := Ix) (Name := Name) (U := U) (Lvl := Lvl) et w1t b1 w2 b2 o O B c)

/-- The body at the point, handed the six staging buffers at contents they may hold: the five inputs' pass through as
    found, the result's is left at the table of the first operand's block as found, which agrees with its array. -/
theorem sound_body (t : Fin cfg0.N) (Y : (w : Fin cfg0.W) → (cfg0.win w).block.Idx → Elt F (cfg0.win w).elt)
    (hY : ∀ w, (𝕕).Finds w t (Y w)) :
    iprop((𝕕).Φ t.castSucc ∗ (𝕕).owesAt ι t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5))
      ⊢ wp frame (wpE (defs₀ (F := F)) 𝒱₀ (c : Thread nD τ) none) Set.univ (bodyAt0 t) fun _ =>
          iprop((𝕕).Φ t.succ ∗ (𝕕).owesAt ι t.succ
            ∗ (∃ X, ⌜(𝕕).after 0 t (Y 0) X⌝ ∗ owns (c : Thread nD τ) (st0_0 t) fullShare X)
            ∗ (∃ X, ⌜(𝕕).after 1 t (Y 1) X⌝ ∗ owns (c : Thread nD τ) (st0_1 t) fullShare X)
            ∗ (∃ X, ⌜(𝕕).after 2 t (Y 2) X⌝ ∗ owns (c : Thread nD τ) (st0_2 t) fullShare X)
            ∗ (∃ X, ⌜(𝕕).after 3 t (Y 3) X⌝ ∗ owns (c : Thread nD τ) (st0_3 t) fullShare X)
            ∗ (∃ X, ⌜(𝕕).after 4 t (Y 4) X⌝ ∗ owns (c : Thread nD τ) (st0_4 t) fullShare X)
            ∗ (∃ X, ⌜(𝕕).after 5 t (Y 5) X⌝ ∗ owns (c : Thread nD τ) (st0_5 t) fullShare X)) := by
  have h0 : Tab.Agrees et (Y 0) := finds0 (hY 0)
  have h1 : Y 1 = w1t := finds1 (hY 1)
  have h2 : Y 2 = b1 := finds2 (hY 2)
  have h3 : Y 3 = w2 := finds3 (hY 3)
  have h4 : Y 4 = b2 := finds4 (hY 4)
  unfold bodyAt0
  rw [show (𝕕).Φ t.succ = (𝕕).Φ t.castSucc from rfl, show (𝕕).owesAt ι t.succ = (𝕕).owesAt ι t.castSucc from rfl]
  iintro ⟨HΦ, Ho, H0, H1, H2, H3, H4, H5⟩
  iapply (sound_kernel (F := F) c Set.univ (grid0.coords t) _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists (Y 0); isplitr; · ipureintro; dsimp only [rdat]
    iexact H0
  isplitl [H1]
  · iexists (Y 1); isplitr; · ipureintro; dsimp only [rdat]
    iexact H1
  isplitl [H2]
  · iexists (Y 2); isplitr; · ipureintro; dsimp only [rdat]
    iexact H2
  isplitl [H3]
  · iexists (Y 3); isplitr; · ipureintro; dsimp only [rdat]
    iexact H3
  isplitl [H4]
  · iexists (Y 4); isplitr; · ipureintro; dsimp only [rdat]
    iexact H4
  · iexists _; isplitr
    swap; · iexact H5
    ipureintro; dsimp only [rdat]
    exact ⟨Y 0, h0, by rw [out5_eq_tabOut, h1, h2, h3, h4]⟩

/-- The library's body obligation, at the one point. -/
theorem body_obligation : (𝕕).BodyObligation (defs₀ (F := F)) 𝒱₀ ι Set.univ := fun t Y hY => by
  rw [bigSep_W0, bigSep_W0]
  exact sound_body et w1t b1 w2 b2 o O B c ι t Y hY

end Body

/-! ## The region -/

section Region

variable [∀ e, Nonempty (Elt F e)]
variable (ι : Ix) (EP : Emb (URounds (GSem nD τ sig) Unit) (MT nD τ sig Ix (Elt F) Name U Lvl))
  (L : GSem nD τ sig → Finset Ix) (lv : GSem nD τ sig → Ix → Lvl)
variable (et : FVec F S32x1001 .f32) (w1t : FVec F S32x64 .f32) (b1 : FVec F S64 .f32) (w2 : FVec F S1x64 .f32) (b2 : FVec F S1x1 .f32)
  (o : FVec F S8x128 .f32) (O : Dev nD → CellTallies nD τ sig Ix) (B : Set (SemLoc sig × Ix))

/-- The proof data, per pipeline (there is one) and core. -/
abbrev rdats : (p : Fin 1) → (c : Dev nD) → Pipeline.RDat τ (Elt F) Ix Name U Lvl (Pipeline.pin (pcfgs (F := F)) adm p) c :=
  fun _ c => rdat et w1t b1 w2 b2 o (O c) B c

/-- The thread state the region is entered from: the call's six arrays held whole at the given contents, and the
    core owing `O c` with its recorded pairs within `B`. -/
def pre (c : Dev nD) : sProp 𝕄 :=
  iprop(pl c main_v0 et ∗ pl c main_v1 w1t ∗ pl c main_arg3 b1 ∗ pl c main_arg4 w2 ∗ pl c main_v2 b2 ∗ pl c main_v3 o
    ∗ Pipeline.owesWithin c (O c) B)

/-- The thread state it leaves: the five operands as they were, the result at the table of a block agreeing with the
    first operand's array, the core owing `O c` still, its recorded pairs within `B` and the staging waits' pairs. -/
def post (c : Dev nD) : sProp 𝕄 :=
  iprop(pl c main_v0 et ∗ pl c main_v1 w1t ∗ pl c main_arg3 b1 ∗ pl c main_arg4 w2 ∗ pl c main_v2 b2
    ∗ (∃ x0 : Vec F S32x1024 .f32, ⌜Tab.Agrees et x0⌝ ∗ pl c main_v3 (Tab.tabOut w1t x0 b1 w2 b2))
    ∗ Pipeline.owesWithin c (O c) (B ∪ cfg0.waitPairs ι))

omit [∀ e, Nonempty (Elt F e)] in
/-- Every array is held at the full share. -/
theorem share_full (O' : CellTallies nD τ sig Ix) (c : Dev nD) (w : Fin cfg0.W) :
    (rdat (Name := Name) (U := U) (Lvl := Lvl) et w1t b1 w2 b2 o O' B c).share w = fullShare := by
  unfold Pipeline.RDat.share; split <;> rfl

omit [∀ e, Nonempty (Elt F e)] in
/-- The pipeline's arrays at contents `Fa` are the call's six arrays held whole. -/
theorem arrays_eq (O' : CellTallies nD τ sig Ix) (c : Dev nD) (Fa) :
    ((rdat (Name := Name) (U := U) (Lvl := Lvl) et w1t b1 w2 b2 o O' B c).arrays Fa : sProp 𝕄)
      = iprop(pl c main_v0 (Fa 0) ∗ pl c main_v1 (Fa 1) ∗ pl c main_arg3 (Fa 2) ∗ pl c main_arg4 (Fa 3) ∗ pl c main_v2 (Fa 4) ∗ pl c main_v3 (Fa 5)) := by
  have h : ((rdat (Name := Name) (U := U) (Lvl := Lvl) et w1t b1 w2 b2 o O' B c).arrays Fa : sProp 𝕄)
      = bigSep Finset.univ fun w : Fin cfg0.W => (((c.tc : Thread nD τ).loc (Pipeline.arrRef spec0 w)) ↦{fullShare} Fa w : sProp 𝕄) := by
    unfold Pipeline.RDat.arrays
    exact bigSep_congr fun w _ => by rw [(arr_whole0 w).set_eq_univ, share_full]
  exact h.trans (bigSep_W0 _)

omit [∀ e, Nonempty (Elt F e)] in
/-- The same after the write-backs below `n`: each array at some contents it may then hold. -/
theorem arraysAt_eq (O' : CellTallies nD τ sig Ix) (c : Dev nD) (n : Nat) :
    ((rdat (Name := Name) (U := U) (Lvl := Lvl) et w1t b1 w2 b2 o O' B c).arraysAt n : sProp 𝕄)
      = iprop((∃ G, ⌜(rdat (Name := Name) (U := U) (Lvl := Lvl) et w1t b1 w2 b2 o O' B c).ArrAt 0 n G⌝ ∗ pl c main_v0 G)
        ∗ (∃ G, ⌜(rdat (Name := Name) (U := U) (Lvl := Lvl) et w1t b1 w2 b2 o O' B c).ArrAt 1 n G⌝ ∗ pl c main_v1 G)
        ∗ (∃ G, ⌜(rdat (Name := Name) (U := U) (Lvl := Lvl) et w1t b1 w2 b2 o O' B c).ArrAt 2 n G⌝ ∗ pl c main_arg3 G)
        ∗ (∃ G, ⌜(rdat (Name := Name) (U := U) (Lvl := Lvl) et w1t b1 w2 b2 o O' B c).ArrAt 3 n G⌝ ∗ pl c main_arg4 G)
        ∗ (∃ G, ⌜(rdat (Name := Name) (U := U) (Lvl := Lvl) et w1t b1 w2 b2 o O' B c).ArrAt 4 n G⌝ ∗ pl c main_v2 G)
        ∗ (∃ G, ⌜(rdat (Name := Name) (U := U) (Lvl := Lvl) et w1t b1 w2 b2 o O' B c).ArrAt 5 n G⌝ ∗ pl c main_v3 G)) := by
  have h : ((rdat (Name := Name) (U := U) (Lvl := Lvl) et w1t b1 w2 b2 o O' B c).arraysAt n : sProp 𝕄)
      = bigSep Finset.univ fun w : Fin cfg0.W =>
          iprop(∃ G, ⌜(rdat (Name := Name) (U := U) (Lvl := Lvl) et w1t b1 w2 b2 o O' B c).ArrAt w n G⌝
            ∗ (((c.tc : Thread nD τ).loc (Pipeline.arrRef spec0 w)) ↦{fullShare} G : sProp 𝕄)) := by
    unfold Pipeline.RDat.arraysAt
    exact bigSep_congr fun w _ => by rw [(arr_whole0 w).set_eq_univ, share_full]
  exact h.trans (bigSep_W0 _)

variable {ι L lv O}

/-- The region as the library's record: no semaphore of the kernel's own, no invariant, nothing bypassing. The staging
    waits' level evidence is the hypothesis `hO`: the six staging cells sit below what the core owes. -/
def reg (hO : ∀ (c : Dev nD) (w : Fin 6) (s : Fin (cfg0.win w).nbuf),
      (levAts L lv : sProp 𝕄) ⊢ MayWait (c.tc : Thread nD τ) (.dma ((cfg0.win w).sem s)) ι (O c)) :
    Pipeline.RDat.RegionSeg (pcfgs (F := F)) adm (rdats (Name := Name) (U := U) (Lvl := Lvl) et w1t b1 w2 b2 o O B) ι (defs₀ (F := F)) 𝒱₀ L lv 0 where
  win := launch0.win.to₀
  block_pos := launch0.block_pos
  stage_whole := launch0.stage_whole
  K := PEmpty
  osem k := k.elim
  ho := Pipeline.OwnSemFacts.none _
  hbody c := body_obligation et w1t b1 w2 b2 o (O c) B c ι
  hwaits c := Pipeline.RDat.cellsWaits_intro (Pipeline.pin (pcfgs (F := F)) adm) (rdats (Name := Name) (U := U) (Lvl := Lvl) et w1t b1 w2 b2 o O B) ι 0 c fun w s t => hO c w s
  pre := pre et w1t b1 w2 b2 o O B
  post := post ι et w1t b1 w2 b2 O B
  X _ := iprop(emp)
  Y _ := iprop(emp)
  Z _ := iprop(emp)
  hentry c := by
    rw [Pipeline.ownSems0_none, arrays_eq]
    unfold pre
    iintro ⟨⟨H0, H1, H2, H3, H4, H5, HO⟩, -, -⟩
    imodintro
    isplitl [H0 H1 H2 H3 H4 H5]
    · isplitl [H0]; · iexact H0
      isplitl [H1]; · iexact H1
      isplitl [H2]; · iexact H2
      isplitl [H3]; · iexact H3
      isplitl [H4]; · iexact H4
      iexact H5
    isplitr
    · unfold Pipeline.prefHeld; rw [show (Finset.univ : Finset (Fin 0)) = ∅ from rfl, BI.bigSep_empty]; iempintro
    isplitl [HO]
    · iapply (Pipeline.owesWithin_mono c (O c) (Set.subset_union_left (s := B) (t := cfg0.waitPairs ι)))
      iexact HO
    isplitr <;> iempintro
  hin c := by iintro -; iempintro
  hout c := by
    rw [Pipeline.ownSems0_none, scopedRest0_eq]
    iintro -; isplitr; · iempintro
    isplitr <;> iempintro
  hexit c := by
    rw [arraysAt_eq]
    unfold post
    iintro ⟨⟨⟨%G0, %h0, H0⟩, ⟨%G1, %h1, H1⟩, ⟨%G2, %h2, H2⟩, ⟨%G3, %h3, H3⟩, ⟨%G4, %h4, H4⟩, ⟨%G5, %h5, H5⟩⟩, HO, -, -⟩
    have e0 : G0 = et := by rw [Pipeline.RDat.ArrAt_in _ 0 rfl] at h0; exact h0
    have e1 : G1 = w1t := by rw [Pipeline.RDat.ArrAt_in _ 1 rfl] at h1; exact h1
    have e2 : G2 = b1 := by rw [Pipeline.RDat.ArrAt_in _ 2 rfl] at h2; exact h2
    have e3 : G3 = w2 := by rw [Pipeline.RDat.ArrAt_in _ 3 rfl] at h3; exact h3
    have e4 : G4 = b2 := by rw [Pipeline.RDat.ArrAt_in _ 4 rfl] at h4; exact h4
    obtain ⟨x0, hx, e5⟩ := arrAt5 h5
    subst e0 e1 e2 e3 e4 e5
    imodintro
    isplitl [H0]; · iexact H0
    isplitl [H1]; · iexact H1
    isplitl [H2]; · iexact H2
    isplitl [H3]; · iexact H3
    isplitl [H4]; · iexact H4
    isplitl [H5]
    · iexists x0; isplitr; · ipureintro; exact hx
      iexact H5
    iexact HO

/-- THE REGION'S STEP on core `c`: from the boundary, the six arrays held whole at the given contents with the core owing
    `O c` (recorded pairs within `B`), the level facts and the pipeline's ghost state, the call runs to the boundary and
    `post` for the continuation: the operands unchanged, the result the table of a block agreeing with the first operand's
    array. -/
theorem wp_region [Infinite Name] [EP.LandsIn (upEmb : UEmb _ 𝕄)]
    (hO : ∀ (c : Dev nD) (w : Fin 6) (s : Fin (cfg0.win w).nbuf),
      (levAts L lv : sProp 𝕄) ⊢ MayWait (c.tc : Thread nD τ) (.dma ((cfg0.win w).sem s)) ι (O c))
    (c : Dev nD) (bd : Option (Variants.lift 𝒱₀).V)
    (hv : ∀ u ∈ bd, (Variants.lift 𝒱₀).lt (.inr ((Pipeline.pin (pcfgs (F := F)) adm 0).tripCount + 1)) u)
    {α : Type} (k : PUnit → Prog (TpuEff nD τ sig (Elt F) (Pipeline.Sig Λ₀ (Fin 1) fun p => (pcfgs (F := F) p).Adm) .tc) α)
    (Q : α → sProp 𝕄) :
    iprop((iprop(boundary (c.tc : Thread nD τ) ∗ post ι et w1t b1 w2 b2 O B c)
            -∗ wp frame (wpE (Pipeline.defs (pcfgs (F := F)) defs₀) (Variants.lift 𝒱₀) (c.tc : Thread nD τ) bd) Set.univ (k ⟨⟩) Q)
        ∗ boundary (c.tc : Thread nD τ) ∗ pre et w1t b1 w2 b2 o O B c ∗ levAts L lv
        ∗ Pipeline.cellsGhost (Pipeline.pin (pcfgs (F := F)) adm) EP 0 c ∗ Pipeline.toksInit (Pipeline.pin (pcfgs (F := F)) adm) EP 0 c)
      ⊢ wp frame (wpE (Pipeline.defs (pcfgs (F := F)) defs₀) (Variants.lift 𝒱₀) (c.tc : Thread nD τ) bd) Set.univ
          (.op (.customCall (Pipeline.entry 0) ()) k) Q :=
  Pipeline.RDat.RegionSeg.wp (pcfgs (F := F)) adm (rdats (Name := Name) (U := U) (Lvl := Lvl) et w1t b1 w2 b2 o O B) ι cellOf_inj EP defs₀ 𝒱₀ L lv
    (reg (Name := Name) (U := U) et w1t b1 w2 b2 o B hO) c bd hv k Q

end Region

end Cert.Kernel.Region

end
-- ==== Proof.KB.Fin.lean ====
/-
  What the TensorCore's thread holds when the program ends, and how the final memory reads the claim off it.

  At the end the thread holds the index array (at the share left after the 32 read shares were dealt), the five other
  arguments whole at their launch contents, and, for each of the 32 workers, its 512 positions of the result at
  contents right for their index words. Held against the state interpretation, each points-to pins the memory on its
  elements: the six arguments are unchanged, and, every position lying in some worker's chunk, each result entry is
  right for its index word.
-/
import proofs.«217044_g88356067214146_cont_9to1_m_986_23_alg».proof.Proof.KB.Pay

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Kernel.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

/-- An array of the TensorCore's, whole, at contents `f`. -/
abbrev plT (d : Dev nD) (b : Ref sig .tc) (f : Buf (Elt F) ((SparseCore.T d : Thread nD τ).loc b)) : sProp 𝕄 :=
  (SparseCore.T d : Thread nD τ).loc b ↦{fullShare} f

/-- What device `d`'s TensorCore holds when the program ends. -/
def FIN (d : Dev nD) : sProp 𝕄 :=
  iprop((tLoc d ↦{Transfers.shareDrop fullShare 32} m (tLoc d))
    ∗ plT d main_arg1 (m ((SparseCore.T d).loc main_arg1))
    ∗ plT d main_arg2 (m ((SparseCore.T d).loc main_arg2))
    ∗ plT d main_arg3 (m ((SparseCore.T d).loc main_arg3))
    ∗ plT d main_arg4 (m ((SparseCore.T d).loc main_arg4))
    ∗ plT d main_arg5 (m ((SparseCore.T d).loc main_arg5))
    ∗ bigSep Finset.univ fun w : Fin 32 => tdRes m R d w)

/-- What the claim says of device `d` in a final state: each result entry right for its index word, the six arguments
    unchanged. -/
def fq (d : Dev nD) (s' : Phys nD τ sig (Elt F)) : Prop :=
  (∀ i, R d (m (tLoc d) i) (s'.mem.mem (oLoc d) i))
  ∧ s'.mem.mem ((SparseCore.T d).loc main_arg0) = m ((SparseCore.T d).loc main_arg0)
  ∧ s'.mem.mem ((SparseCore.T d).loc main_arg1) = m ((SparseCore.T d).loc main_arg1)
  ∧ s'.mem.mem ((SparseCore.T d).loc main_arg2) = m ((SparseCore.T d).loc main_arg2)
  ∧ s'.mem.mem ((SparseCore.T d).loc main_arg3) = m ((SparseCore.T d).loc main_arg3)
  ∧ s'.mem.mem ((SparseCore.T d).loc main_arg4) = m ((SparseCore.T d).loc main_arg4)
  ∧ s'.mem.mem ((SparseCore.T d).loc main_arg5) = m ((SparseCore.T d).loc main_arg5)

/-- One worker's positions handed back, against the memory: the memory's entries there are right for their index words. -/
theorem td_agree (d : Dev nD) (w : Fin 32) (s' : Phys nD τ sig (Elt F)) :
    iprop(SI s' ∗ tdRes m R d w)
      ⊢ (⌜∀ i ∈ chunkSetW w, R d (m (tLoc d) i) (s'.mem.mem (oLoc d) i)⌝ : sProp 𝕄) := by
  unfold tdRes
  iintro ⟨HSI, ⟨%f, %hf, Hpt⟩⟩
  ihave H := (SI_pointsTo_agree (st := s') (ℓ := oLoc d) (I := chunkSetW w) (q := fullShare) (f := f)) $$ [HSI Hpt]
  · isplitl [HSI] <;> iassumption
  icases H with %h
  ipureintro
  intro i hi
  rw [h i hi]
  exact hf i hi

/-- All the workers' positions handed back, against the memory, at one position: it lies in some worker's chunk, whose
    points-to pins the memory there at an entry right for the position's index word. -/
theorem res_agree_at (d : Dev nD) (s' : Phys nD τ sig (Elt F)) (i : S16384.Idx) :
    iprop(SI s' ∗ bigSep Finset.univ fun w : Fin 32 => tdRes m R d w)
      ⊢ (⌜R d (m (tLoc d) i) (s'.mem.mem (oLoc d) i)⌝ : sProp 𝕄) := by
  obtain ⟨w, hw⟩ := mem_chunk i
  iintro ⟨HSI, Hres⟩
  ihave Hw := (show (bigSep Finset.univ fun w : Fin 32 => tdRes m R d w) ⊢ (tdRes m R d w : sProp 𝕄) from
    bigSep_elim (Finset.mem_univ w)) $$ Hres
  ihave H := (td_agree m R d w s') $$ [HSI Hw]
  · isplitl [HSI] <;> iassumption
  icases H with %h
  ipureintro
  exact h i hw

/-- The same at every position. -/
theorem res_agree (d : Dev nD) (s' : Phys nD τ sig (Elt F)) :
    iprop(SI s' ∗ bigSep Finset.univ fun w : Fin 32 => tdRes m R d w)
      ⊢ (⌜∀ i, R d (m (tLoc d) i) (s'.mem.mem (oLoc d) i)⌝ : sProp 𝕄) :=
  (BI.BIClass.forall_intro fun i => res_agree_at m R d s' i).trans pure_forall.2

theorem hfin (d : Dev nD) (s' : Phys nD τ sig (Elt F)) : iprop(FIN m R d ∗ SI s') ⊢ (⌜fq m R d s'⌝ : sProp 𝕄) := by
  unfold FIN
  iintro ⟨⟨Ht, H1, H2, H3, H4, H5, Hres⟩, HSI⟩
  ihave H := (persistent_entails_right (SI_pointsTo_agree (st := s') (ℓ := tLoc d) (I := Finset.univ)
    (q := Transfers.shareDrop fullShare 32) (f := m (tLoc d)))) $$ [HSI Ht]
  · isplitl [HSI] <;> iassumption
  icases H with ⟨%h0, HSI, -⟩
  ihave H := (persistent_entails_right (SI_pointsTo_agree (st := s') (ℓ := (SparseCore.T d).loc main_arg1) (I := Finset.univ)
    (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ)
    (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ)
    (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ)
    (q := fullShare) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_arg5) (I := Finset.univ)
    (q := fullShare) (f := m ((SparseCore.T d).loc main_arg5)))) $$ [HSI H5]
  · isplitl [HSI] <;> iassumption
  icases H with ⟨%h5, HSI, -⟩
  ihave H := (res_agree m R d s') $$ [HSI Hres]
  · isplitl [HSI] <;> iassumption
  icases H with %hres
  ipureintro
  exact ⟨hres, funext fun i => h0 i (Finset.mem_univ i), funext fun i => h1 i (Finset.mem_univ i),
    funext fun i => h2 i (Finset.mem_univ i), funext fun i => h3 i (Finset.mem_univ i),
    funext fun i => h4 i (Finset.mem_univ i), funext fun i => h5 i (Finset.mem_univ i)⟩

/-- The claim's post at a final state is `fq` on every device. -/
theorem hQ (s' : Phys nD τ sig (Elt F)) (h : ∀ d, fq m R d s') :
    ∀ c : Dev nD, (∀ i, R c (m (tLoc c) i) (s'.mem.mem (oLoc c) i))
      ∧ s'.mem.mem ((SparseCore.T c).loc main_arg0) = m ((SparseCore.T c).loc main_arg0)
      ∧ s'.mem.mem ((SparseCore.T c).loc main_arg1) = m ((SparseCore.T c).loc main_arg1)
      ∧ s'.mem.mem ((SparseCore.T c).loc main_arg2) = m ((SparseCore.T c).loc main_arg2)
      ∧ s'.mem.mem ((SparseCore.T c).loc main_arg3) = m ((SparseCore.T c).loc main_arg3)
      ∧ s'.mem.mem ((SparseCore.T c).loc main_arg4) = m ((SparseCore.T c).loc main_arg4)
      ∧ s'.mem.mem ((SparseCore.T c).loc main_arg5) = m ((SparseCore.T c).loc main_arg5) := h

end Cert.Kernel.SC

end
-- ==== Proof.KB.Deal.lean ====
/-
  Dealing the SparseCore call its operands, and gathering what it hands back.

  The call's 32 workers are the sixteen subcores of each of the two SparseCores: a separating conjunction over the
  cores and, inside, their subcores is one over the 32 workers. Before the call the index array and the table are held
  whole: each splits into a remainder and 32 read shares, one per worker; the result array, held whole, splits into its
  32 chunks. A worker's three pieces are what it is handed, the table's under the fact that the table is good. After the
  call the cores' conjunction of what the workers hand back is the workers'.
-/
import proofs.«217044_g88356067214146_cont_9to1_m_986_23_alg».proof.Proof.KB.Pay

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Kernel.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

/-! ## The cores' subcores are the workers -/

omit [FloatOps F] in
/-- A conjunction over the call's cores is one over `Fin 2`, -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- one over a core's subcores is one over `Fin 16`, -/
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- and the two nested are one over the 32 workers. -/
theorem bigSep_cores_subs (Φ : Fin 32 → sProp 𝕄) :
    (bigSep Finset.univ fun c : Fin ((K (F := F)).nCore 0) => bigSep Finset.univ fun i : Fin ((K (F := F)).nSub 0) => Φ (wOf c i))
      = bigSep Finset.univ Φ := by
  rw [bigSep_workers Φ, ← bigSep_cores (F := F) (fun c => bigSep (Finset.univ : Finset (Fin 16)) fun s => Φ (wCS c s))]
  exact bigSep_congr fun c _ => bigSep_subs (F := F) (fun s => Φ (wCS (Fin.cast nCore_zero c) s))

/-! ## Before the call -/

/-- The index array, a good table and the result array, each held whole, are the index array's remainder and every
    core's start payload: per worker a read share of the index array, a read share of the table with the fact that it is
    good, and the worker's chunk of the result. The table's remainder is dropped. -/
theorem deal (d : Dev nD) (tab : Buf (Elt F) (vLoc d)) (hG : Good d (R d) tab) (fo : Buf (Elt F) (oLoc d)) :
    (iprop((tLoc d ↦{fullShare} m (tLoc d)) ∗ (vLoc d ↦{fullShare} tab) ∗ (oLoc d ↦{fullShare} fo)) : sProp 𝕄)
      ⊢ iprop((tLoc d ↦{Transfers.shareDrop fullShare 32} m (tLoc d))
          ∗ bigSep Finset.univ fun c : Fin ((K (F := F)).nCore 0) => (P m R).st 0 d c) := by
  have hst : (bigSep Finset.univ fun c : Fin ((K (F := F)).nCore 0) => (P m R).st 0 d c)
      = (bigSep Finset.univ fun w : Fin 32 => goRes m R d w : sProp 𝕄) := bigSep_cores_subs (F := F) (goRes m R d)
  have hv : (bigSep Finset.univ fun w : Fin 32 => (vLoc d ↦{Transfers.shareTok fullShare 32 w} tab : sProp 𝕄))
      ⊢ bigSep Finset.univ fun w : Fin 32 => iprop(∃ tab, ⌜Good d (R d) tab⌝ ∗ vLoc d ↦{Transfers.shareTok fullShare 32 w} tab) :=
    bigSep_mono fun w _ => by
      show (vLoc d ↦{Transfers.shareTok fullShare 32 w} tab : sProp 𝕄)
        ⊢ iprop(∃ tab, ⌜Good d (R d) tab⌝ ∗ vLoc d ↦{Transfers.shareTok fullShare 32 w} tab)
      iintro H; iexists tab; isplitr; · ipureintro; exact hG
      iexact H
  have ho : (bigSep Finset.univ fun w : Fin 32 => (oLoc d ↦[chunkSetW w]{fullShare} fo : sProp 𝕄))
      ⊢ bigSep Finset.univ fun w : Fin 32 => iprop(∃ fo, oLoc d ↦[chunkSetW w]{fullShare} fo) :=
    bigSep_mono fun w _ => by
      show (oLoc d ↦[chunkSetW w]{fullShare} fo : sProp 𝕄) ⊢ iprop(∃ fo, oLoc d ↦[chunkSetW w]{fullShare} fo)
      iintro H; iexists fo; iexact H
  rw [hst, oPts_chunks d fo]
  unfold goRes
  rw [bigSep_sep', bigSep_sep']
  iintro ⟨Ht, Hv, Ho⟩
  ihave Ht' := (Transfers.pointsTo_toks_split fullShare 32) $$ Ht
  icases Ht' with ⟨Htd, Hts⟩
  ihave Hv' := (Transfers.pointsTo_toks_split fullShare 32) $$ Hv
  icases Hv' with ⟨-, Hvs⟩
  isplitl [Htd]; · iexact Htd
  isplitl [Hts]; · iexact Hts
  isplitl [Hvs]
  · iapply hv; iexact Hvs
  · iapply ho; iexact Ho

/-! ## After the call -/

/-- What the cores hand back, core by core, is what the 32 workers hand back. -/
theorem gather (d : Dev nD) :
    (bigSep Finset.univ fun c : Fin ((K (F := F)).nCore 0) => (P m R).dn 0 d c)
      ⊢ (bigSep Finset.univ fun w : Fin 32 => tdRes m R d w : sProp 𝕄) :=
  Entails.of_eq (bigSep_cores_subs (F := F) (tdRes m R d))

end Cert.Kernel.SC

end
-- ==== Proof.KB.RunDefs.lean ====
/-
  What the run of the whole program establishes, and two names for terms of @main.
-/
import proofs.«217044_g88356067214146_cont_9to1_m_986_23_alg».proof.Proof.KB.Base
import proofs.«217044_g88356067214146_cont_9to1_m_986_23_alg».proof.Proof.KB.Table

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

variable (m : (ℓ : Loc nD τ sig) → Buf (Elt F) ℓ)
variable [FloatOps F]

/-- What the run establishes of the final memory: each result entry is a right value for its index word, and the six
    arguments are unchanged. -/
def QC (R : Dev nD → BitVec 32 → F .f32 → Prop) : PUnit × MemSt nD τ sig (Elt F) → Prop := fun r => ∀ c : Dev nD,
  (∀ i, R c (m (tLoc c) i) (r.2.mem (oLoc c) i))
  ∧ r.2.mem ((SparseCore.T c).loc main_arg0) = m ((SparseCore.T c).loc main_arg0)
  ∧ r.2.mem ((SparseCore.T c).loc main_arg1) = m ((SparseCore.T c).loc main_arg1)
  ∧ r.2.mem ((SparseCore.T c).loc main_arg2) = m ((SparseCore.T c).loc main_arg2)
  ∧ r.2.mem ((SparseCore.T c).loc main_arg3) = m ((SparseCore.T c).loc main_arg3)
  ∧ r.2.mem ((SparseCore.T c).loc main_arg4) = m ((SparseCore.T c).loc main_arg4)
  ∧ r.2.mem ((SparseCore.T c).loc main_arg5) = m ((SparseCore.T c).loc main_arg5)

/-- The table the first kernel leaves, flattened, from the launch memory and the block its first operand staged. -/
abbrev flatTab (d : Dev nD) (x0 : Vec F S32x1024 .f32) : FVec F S1024 .f32 :=
  shapeCast S1024 (Tab.tabOut (transpose S32x64 [1, 0] (m ((SparseCore.T d).loc main_arg2)) transposes_S64x32_S32x64_1_0) x0
    (m ((SparseCore.T d).loc main_arg3)) (m ((SparseCore.T d).loc main_arg4))
    (broadcastInDim S1x1 ![1] bcast_S1_S1x1_1 (m ((SparseCore.T d).loc main_arg5)))) shapeCasts_S8x128_S1024

/-- The first operand as @main makes it: the embedding table transposed. -/
abbrev etOf (d : Dev nD) : FVec F S32x1001 .f32 :=
  transpose S32x1001 [1, 0] (m ((SparseCore.T d).loc main_arg1)) transposes_S1001x32_S32x1001_1_0

end Cert.Kernel.SC

end
-- ==== Proof.KB.Main.lean ====
/-
  @main on the TensorCore.
-/
import proofs.«217044_g88356067214146_cont_9to1_m_986_23_alg».proof.Proof.KB.Pay
import proofs.«217044_g88356067214146_cont_9to1_m_986_23_alg».proof.Proof.KB.Table
import proofs.«217044_g88356067214146_cont_9to1_m_986_23_alg».proof.Proof.KB.Region
import proofs.«217044_g88356067214146_cont_9to1_m_986_23_alg».proof.Proof.KB.Fin
import proofs.«217044_g88356067214146_cont_9to1_m_986_23_alg».proof.Proof.KB.Deal
import proofs.«217044_g88356067214146_cont_9to1_m_986_23_alg».proof.Proof.KB.RunDefs
import Idealize.ShloMosaic.Lib.Pipeline.Frame

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Kernel.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

abbrev rT (b : Ref sig .tc) : DevRef τ sig := Proc.devRef .tc b

theorem two_sub (x y : Ref sig .tc) : ({rT x, rT y} : Finset (DevRef τ sig)) ⊆ StableHlo.tcRefs τ sig := by
  intro b hb
  rcases Finset.mem_insert.mp hb with rfl | hb
  · exact StableHlo.devRef_mem_tcRefs _
  · rw [Finset.mem_singleton] at hb; subst hb; exact StableHlo.devRef_mem_tcRefs _

theorem ucRefs_eq : Pipeline.ucRefs τ sig = {rT main_arg0, rT main_arg1, rT main_arg2, rT main_arg3, rT main_arg4, rT main_arg5,
    rT main_v0, rT main_v1, rT main_v2, rT main_v3, rT main_v4, rT main_v5} := by decide

omit [FloatOps F] in
/-- The TensorCore's twelve arrays, one by one. -/
theorem held12 (d : Dev nD) (W : Valuation τ sig (Elt F)) :
    (held (SparseCore.T d) (Pipeline.ucRefs τ sig) W : sProp 𝕄)
      = iprop(plT d main_arg0 (W (rT main_arg0)) ∗ plT d main_arg1 (W (rT main_arg1)) ∗ plT d main_arg2 (W (rT main_arg2))
          ∗ plT d main_arg3 (W (rT main_arg3)) ∗ plT d main_arg4 (W (rT main_arg4)) ∗ plT d main_arg5 (W (rT main_arg5))
          ∗ plT d main_v0 (W (rT main_v0)) ∗ plT d main_v1 (W (rT main_v1)) ∗ plT d main_v2 (W (rT main_v2))
          ∗ plT d main_v3 (W (rT main_v3)) ∗ plT d main_v4 (W (rT main_v4)) ∗ plT d main_v5 (W (rT main_v5))) := by
  unfold held
  rw [ucRefs_eq, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The three host operations before the first kernel. -/
abbrev op0 : HloOp τ sig (Elt F) := StableHlo.unary main_arg1 main_v0 ((transpose S32x1001 [1, 0] · transposes_S1001x32_S32x1001_1_0) : (⟨S1001x32, .f32⟩ : BufTy).Contents (Elt F) → (⟨S32x1001, .f32⟩ : BufTy).Contents (Elt F))
abbrev op1 : HloOp τ sig (Elt F) := StableHlo.unary main_arg2 main_v1 ((transpose S32x64 [1, 0] · transposes_S64x32_S32x64_1_0) : (⟨S64x32, .f32⟩ : BufTy).Contents (Elt F) → (⟨S32x64, .f32⟩ : BufTy).Contents (Elt F))
abbrev op2 : HloOp τ sig (Elt F) := StableHlo.unary main_arg5 main_v2 (broadcastInDim S1x1 ![1] bcast_S1_S1x1_1 : (⟨S1, .f32⟩ : BufTy).Contents (Elt F) → (⟨S1x1, .f32⟩ : BufTy).Contents (Elt F))
/-- The memory as the first kernel finds it. -/
abbrev V3 (d : Dev nD) : Valuation τ sig (Elt F) := StableHlo.after [op0 (F := F), op1, op2] (StableHlo.launchContents m d)

theorem V3_arg0 (d : Dev nD) : V3 m d (rT main_arg0) = m ((SparseCore.T d).loc main_arg0) := by unfold V3; after_results; try rfl
theorem V3_arg1 (d : Dev nD) : V3 m d (rT main_arg1) = m ((SparseCore.T d).loc main_arg1) := by unfold V3; after_results; try rfl
theorem V3_arg2 (d : Dev nD) : V3 m d (rT main_arg2) = m ((SparseCore.T d).loc main_arg2) := by unfold V3; after_results; try rfl
theorem V3_arg3 (d : Dev nD) : V3 m d (rT main_arg3) = m ((SparseCore.T d).loc main_arg3) := by unfold V3; after_results; try rfl
theorem V3_arg4 (d : Dev nD) : V3 m d (rT main_arg4) = m ((SparseCore.T d).loc main_arg4) := by unfold V3; after_results; try rfl
theorem V3_arg5 (d : Dev nD) : V3 m d (rT main_arg5) = m ((SparseCore.T d).loc main_arg5) := by unfold V3; after_results; try rfl
theorem V3_v0 (d : Dev nD) : V3 m d (rT main_v0) = transpose S32x1001 [1, 0] (m ((SparseCore.T d).loc main_arg1)) transposes_S1001x32_S32x1001_1_0 := by
  unfold V3; after_results; try rfl
theorem V3_v1 (d : Dev nD) : V3 m d (rT main_v1) = transpose S32x64 [1, 0] (m ((SparseCore.T d).loc main_arg2)) transposes_S64x32_S32x64_1_0 := by
  unfold V3; after_results; try rfl
theorem V3_v2 (d : Dev nD) : V3 m d (rT main_v2) = broadcastInDim S1x1 ![1] bcast_S1_S1x1_1 (m ((SparseCore.T d).loc main_arg5)) := by
  unfold V3; after_results; try rfl
theorem V3_v3 (d : Dev nD) : V3 m d (rT main_v3) = m ((SparseCore.T d).loc main_v3) := by unfold V3; after_results; try rfl
theorem V3_v4 (d : Dev nD) : V3 m d (rT main_v4) = m ((SparseCore.T d).loc main_v4) := by unfold V3; after_results; try rfl
theorem V3_v5 (d : Dev nD) : V3 m d (rT main_v5) = m ((SparseCore.T d).loc main_v5) := by unfold V3; after_results; try rfl

/-- The TensorCore's launch state at call `n` is what it owes, with the bound on its recorded waits, and the rest. -/
def restSt (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
theorem tcSt_eq (d : Dev nD) (n : ℕ) :
    ((K (F := F)).tcSt EH d n : sProp 𝕄)
      = iprop((∃ W, ⌜(K (F := F)).WBelow (SparseCore.T d) W (8 * n)⌝ ∗ owes (SparseCore.T d) ((K (F := F)).Otc d n) W) ∗ restSt (F := F) d n) := rfl

omit [FloatOps F] in
/-- At the kernels' own index the TensorCore owes nothing. -/
theorem Otc_none (c : Dev nD) (g : GSem nD τ sig) : (K (F := F)).Otc c 0 g none = 0 := by
  by_contra h
  have := (K (F := F)).lev_of_Otc_pos (Nat.pos_of_ne_zero h)
  simp at this

/-- The reshape after the first kernel. -/
abbrev opR : HloOp τ sig (Elt F) := StableHlo.reshape main_v3 main_v4 rfl shapeCasts_S8x128_S1024
abbrev S34 : Finset (DevRef τ sig) := {rT main_v3, rT main_v4}
/-- The launch memory with the first kernel's result in place. -/
def VR (d : Dev nD) (t8 : FVec F S8x128 .f32) : Valuation τ sig (Elt F) := Function.update (StableHlo.launchContents m d) (rT main_v3) t8

omit [FloatOps F] in
theorem held34 (d : Dev nD) (W : Valuation τ sig (Elt F)) :
    (held (SparseCore.T d) S34 W : sProp 𝕄) = iprop(plT d main_v3 (W (rT main_v3)) ∗ plT d main_v4 (W (rT main_v4))) := by
  unfold held S34
  rw [SparseCore.bigSep_insert' (by decide), bigSep_singleton]

theorem VR_v3 (d : Dev nD) (t8 : FVec F S8x128 .f32) : VR m d t8 (rT main_v3) = t8 := Function.update_self ..
theorem VR_v4 (d : Dev nD) (t8 : FVec F S8x128 .f32) : VR m d t8 (rT main_v4) = m ((SparseCore.T d).loc main_v4) :=
  Function.update_of_ne (show rT main_v4 ≠ rT main_v3 by decide) ..
theorem R_v3 (d : Dev nD) (t8 : FVec F S8x128 .f32) : (opR (F := F)).result (VR m d t8) (rT main_v3) = t8 := by
  rw [(opR (F := F)).result_of_not_mem (VR m d t8) (b := rT main_v3) (show rT main_v3 ∉ ({rT main_v4} : Finset (DevRef τ sig)) by decide), VR_v3]
theorem R_v4 (d : Dev nD) (t8 : FVec F S8x128 .f32) :
    (opR (F := F)).result (VR m d t8) (rT main_v4) = shapeCast S1024 t8 shapeCasts_S8x128_S1024 := by
  have h : StableHlo.after [opR (F := F)] (VR m d t8) (rT main_v4) = shapeCast S1024 (VR m d t8 (rT main_v3)) shapeCasts_S8x128_S1024 := by
    after_results; try rfl
  rw [VR_v3] at h; exact h

/-- The first kernel's call, in the certificate's own signature. -/
abbrev entryCall : Prog (TpuEff nD τ sig (Elt F) (ΛP (F := F)) .tc) PUnit := .op (.customCall (Pipeline.entry 0) ()) fun _ => .ret ⟨⟩

omit [FloatOps F] in
theorem lift_entry :
    (SparseCore.liftProg (Q := 1) (entryCall (F := F)) : Prog (TpuEff nD τ sig (Elt F) (SparseCore.Sig (ΛP (F := F)) 1) .tc) PUnit)
      = Prog.lift (.customCall (SparseCore.inner (Pipeline.entry 0)) ()) := rfl

theorem hmain [∀ e, Nonempty (Elt F e)]
    (hR : ∀ (d : Dev nD) (x0 : Vec F S32x1024 .f32), Tab.Agrees (etOf m d) x0 →
      ∀ (j : S1024.Idx) (w : BitVec 32), (j 0).val = w.toNat → w.toNat ≤ 1000 → R d w (flatTab m d x0 j))
    (κ : GSem nD τ sig → ℕ) (d : Dev nD) :
    iprop((K (F := F)).ctx EH (P m R) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m R d) := by
  unfold SparseCore.Cfg.tcRes G
  rw [show (unscopedBufs d (fun b => m ((SparseCore.T d).loc b)) : sProp 𝕄) = held (SparseCore.T d) (Pipeline.ucRefs τ sig) (StableHlo.launchContents m d)
    from Pipeline.unscopedBufs_held d (StableHlo.launchContents m d)]
  simp only [main, wp_bind, wp_pure]
  iintro ⟨#Hctx, Hst, ⟨Hb, Hheld, -, -⟩, ⟨Hcg, Htk⟩⟩
  iapply (wp_hlo_within 𝒱 (SparseCore.T d) none Set.univ (S := Pipeline.ucRefs τ sig) (op := op0 (F := F)) (Pipeline.sub_ucRefs _ (two_sub _ _)) (V := StableHlo.launchContents m d)) $$ [Hb Hheld]
  · isplitl [Hb]; · iexact Hb
    iexact Hheld
  iintro ⟨Hb, Hheld⟩
  rw [wp_ret]; imodintro
  iapply (wp_hlo_within 𝒱 (SparseCore.T d) none Set.univ (S := Pipeline.ucRefs τ sig) (op := op1 (F := F)) (Pipeline.sub_ucRefs _ (two_sub _ _))) $$ [Hb Hheld]
  · isplitl [Hb]; · iexact Hb
    iexact Hheld
  iintro ⟨Hb, Hheld⟩
  rw [wp_ret]; imodintro
  iapply (wp_hlo_within 𝒱 (SparseCore.T d) none Set.univ (S := Pipeline.ucRefs τ sig) (op := op2 (F := F)) (Pipeline.sub_ucRefs _ (two_sub _ _))) $$ [Hb Hheld]
  · isplitl [Hb]; · iexact Hb
    iexact Hheld
  iintro ⟨Hb, Hheld⟩
  rw [wp_ret]; imodintro
  ihave Hh := (Entails.of_eq ((show (held (SparseCore.T d) (Pipeline.ucRefs τ sig) ((op2 (F := F)).result ((op1 (F := F)).result ((op0 (F := F)).result (StableHlo.launchContents m d)))) : sProp 𝕄)
      = held (SparseCore.T d) (Pipeline.ucRefs τ sig) (V3 m d) from rfl).trans (held12 (F := F) d (V3 m d)))) $$ Hheld
  rw [V3_arg0, V3_arg1, V3_arg2, V3_arg3, V3_arg4, V3_arg5, V3_v0, V3_v1, V3_v2, V3_v3, V3_v4, V3_v5]
  icases Hh with ⟨Ha0, Ha1, Ha2, Ha3, Ha4, Ha5, Hv0, Hv1, Hv2, Hv3, Hv4, Hv5⟩
  ihave Hst' := (Entails.of_eq (tcSt_eq (F := F) d 0)) $$ Hst
  icases Hst' with ⟨⟨%W0, %hW0, HO⟩, Hrest⟩
  ihave Hlev := ((K (F := F)).ctx_levAts (EH := EH) (P := P m R) κ) $$ Hctx
  -- the first kernel, in the certificate's own signature
  rw [← lift_entry (F := F)]
  iapply ((K (F := F)).wp_liftProg (D (F := F)) 𝒱 (SparseCore.T d) Set.univ none (entryCall (F := F)) _)
  iapply (Region.wp_region (F := F) (ι := (none : HIx 1)) (EP (F := F)) (L := (K (F := F)).L) (lv := (K (F := F)).lev)
      _ _ _ _ _ _ (O := fun c => (K (F := F)).Otc c 0) (↑W0 : Set (SemLoc sig × HIx 1))
      (fun c w s => (K (F := F)).mayWait_none _ (Otc_none (F := F) c)) d none (fun u hu => by cases hu) (fun _ => .ret ⟨⟩) _)
  isplitr [Hb Hv0 Hv1 Ha3 Ha4 Hv2 Hv3 HO Hcg Htk]
  rotate_left
  · isplitl [Hb]; · iexact Hb
    isplitl [Hv0 Hv1 Ha3 Ha4 Hv2 Hv3 HO]
    · unfold Region.pre
      isplitl [Hv0]; · iexact Hv0
      isplitl [Hv1]; · iexact Hv1
      isplitl [Ha3]; · iexact Ha3
      isplitl [Ha4]; · iexact Ha4
      isplitl [Hv2]; · iexact Hv2
      isplitl [Hv3]; · iexact Hv3
      iexists W0; isplitr
      · ipureintro; exact subset_rfl
      · iexact HO
    isplitr; · iexact Hlev
    isplitl [Hcg]; · iexact Hcg
    iexact Htk
  iintro ⟨Hb, Hpost⟩
  rw [wp_ret]; imodintro
  unfold Region.post
  icases Hpost with ⟨Hv0, Hv1, Ha3, Ha4, Hv2, ⟨%x0, %hx0, Hv3⟩, ⟨%W1, %hW1, HO⟩⟩
  -- the reshape of the table
  iapply (wp_hlo_within 𝒱 (SparseCore.T d) none Set.univ (S := S34) (op := opR (F := F)) (by rw [StableHlo.reshape_bufs])
      (V := VR m d (Tab.tabOut _ x0 _ _ _))) $$ [Hb Hv3 Hv4]
  · isplitl [Hb]; · iexact Hb
    rw [held34, VR_v3, VR_v4]
    isplitl [Hv3]; · iexact Hv3
    iexact Hv4
  iintro ⟨Hb, Hheld⟩
  rw [wp_ret]; imodintro
  ihave Hh := (Entails.of_eq (held34 (F := F) d _)) $$ Hheld
  rw [R_v3, R_v4]
  icases Hh with ⟨Hv3, Hv4⟩
  -- the SparseCore call
  ihave Hd := (deal m R d (flatTab m d x0) (hR d x0 hx0) _) $$ [Ha0 Hv4 Hv5]
  · isplitl [Ha0]; · iexact Ha0
    isplitl [Hv4]; · iexact Hv4
    iexact Hv5
  icases Hd with ⟨Ht, Hstc⟩
  ihave Hst := (Entails.of_eq (tcSt_eq (F := F) d 0).symm) $$ [HO Hrest]
  · isplitl [HO]
    · iexists W1; isplitr
      · ipureintro
        intro p hp
        rcases hW1 (Finset.mem_coe.mpr hp) with h | ⟨w, s, rfl⟩
        · exact hW0 p (Finset.mem_coe.mp h)
        · exact le_of_eq rfl
      · iexact HO
    · iexact Hrest
  iapply ((K (F := F)).wp_run (D (F := F)) 𝒱 (EH := EH) (P := P m R) κ d 0) $$ [Hst Hstc Ht Ha1 Ha2 Ha3 Ha4 Ha5]
  isplitr; · iexact Hctx
  isplitl [Hst]; · iexact Hst
  isplitl [Hstc]; · iexact Hstc
  iintro ⟨Hst, Hdn⟩
  ihave Htd := (gather m R d) $$ Hdn
  imodintro
  isplitl [Hst]; · iexact Hst
  unfold FIN
  isplitl [Ht]; · iexact Ht
  isplitl [Ha1]; · iexact Ha1
  isplitl [Ha2]; · iexact Ha2
  isplitl [Ha3]; · iexact Ha3
  isplitl [Ha4]; · iexact Ha4
  isplitl [Ha5]; · iexact Ha5
  iexact Htd

end Cert.Kernel.SC

end
-- ==== Proof.KB.TileVal.lean ====
/-
  One vector subcore's task: the arrays it works on, what its scratch buffers hold, and the value facts of its
  loop — pure statements, apart from the run that uses them.
-/
import proofs.«217044_g88356067214146_cont_9to1_m_986_23_alg».proof.Proof.KB.Good

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)

variable {F : FTy → Type}

variable (m : (ℓ : Loc nD τ sig) → Buf (Elt F) ℓ)
variable [FloatOps F]

local notation "tW" => (Memref.whole Cert.Kernel.main_arg0_scv : Memref Cert.Kernel.sig Kind.scVector Space.hbm Cert.Kernel.S16384 EltTy.i32)
local notation "vW" => (Memref.whole Cert.Kernel.main_v4_scv : Memref Cert.Kernel.sig Kind.scVector Space.hbm Cert.Kernel.S1024 EltTy.f32)
local notation "oW" => (Memref.whole Cert.Kernel.main_v5_scv : Memref Cert.Kernel.sig Kind.scVector Space.hbm Cert.Kernel.S16384 EltTy.f32)
local notation "sI" => (Memref.whole Cert.Kernel.cc1_scratch0 : Memref Cert.Kernel.sig Kind.scVector Space.vmem Cert.Kernel.S512 EltTy.i32)
local notation "sT" => (Memref.whole Cert.Kernel.cc1_scratch1 : Memref Cert.Kernel.sig Kind.scVector Space.vmem Cert.Kernel.S1024 EltTy.f32)
local notation "sO" => (Memref.whole Cert.Kernel.cc1_scratch2 : Memref Cert.Kernel.sig Kind.scVector Space.vmem Cert.Kernel.S512 EltTy.f32)

section Tile

variable (d : Dev nD) (L : grid1.Coords)

abbrev cV (L : grid1.Coords) : Fin τ.nSC := (L 0).castLE hcore1
abbrev jV (L : grid1.Coords) : Fin τ.nSub := (L 1).castLE hsub1

/-- The subcore's 512 positions, as the program slices them out of a length-16384 array. -/
abbrev chunk (L : grid1.Coords) : Rect S16384 := Rect.unit (s := S16384) (k1_off1 L) S512.size (k1_off1_inb L)
abbrev tSl (L : grid1.Coords) : Memref sig .scVector .hbm S512 .i32 := (tW).slice (chunk L) (fun _ => rfl)
abbrev oSl (L : grid1.Coords) : Memref sig .scVector .hbm S512 .f32 := (oW).slice (chunk L) (fun _ => rfl)

/-- The subcore's positions as a set of indices of a length-16384 array. -/
abbrev chunkSetL (L : grid1.Coords) : Finset S16384.Idx := ((oSl L).view).set

/-- What the index scratch holds after its fetch: the subcore's 512 index words. -/
abbrev ciOf : Buf (Elt F) ((V d (cV L) (jV L)).loc cc1_scratch0) :=
  (sI).view.writes (Elt F) (sI).view.junk [⟨Rect.whole cc1_scratch0.ty.shape, ReadAs.same.apply ((tSl L).view.read (Elt F) (m (tLoc d)))⟩]
/-- What the table scratch holds after its fetch: the table. -/
abbrev ctOf (tab : Buf (Elt F) (vLoc d)) : Buf (Elt F) ((V d (cV L) (jV L)).loc cc1_scratch1) :=
  (sT).view.writes (Elt F) (sT).view.junk [⟨Rect.whole cc1_scratch1.ty.shape, ReadAs.same.apply ((vW).view.read (Elt F) tab)⟩]

/-- The sixteen index words trip `k` loads. -/
abbrev v10Of (k : Fin k1_t1_loop.trips) : IVec S16 32 :=
  (sI).view.readAt (Elt F) (Rect.unit (s := S512) (k1_off2 k) S16.size (k1_off2_inb k)).toLoadRect (ciOf m d L)

/-- The index word of the subcore's position `y`. -/
abbrev wordAt (y : S512.Idx) : BitVec 32 := (tSl L).view.read (Elt F) (m (tLoc d)) y

/-- The index scratch, once fetched, reads the subcore's index words. -/
theorem ciOf_read (y : S512.Idx) : (sI).view.read (Elt F) (ciOf m d L) y = wordAt m d L y := by
  have h := View.read_writes_cons_emb (sI).view (Val := Elt F) (sI).view.junk (Rect.whole cc1_scratch0.ty.shape)
    (ReadAs.same.apply ((tSl L).view.read (Elt F) (m (tLoc d)))) [] y
  rw [Rect.emb_whole_apply] at h
  exact h

/-- A position's index word is one of the index array's words. -/
theorem wordAt_eq (y : S512.Idx) : wordAt m d L y = m (tLoc d) ((tSl L).view.emb y) :=
  (View.read_apply _ _).trans (cast_eq _ _)

/-- Every word a trip loads is below the table's 1024 entries. -/
theorem chk_of (ht : ∀ i, (m (tLoc d) i).toNat ≤ 1000) (k : Fin k1_t1_loop.trips) : k1_chk1 (v10Of m d L k) := by
  intro a x
  obtain rfl : a = 0 := Subsingleton.elim _ _
  show ((sI).view.read (Elt F) (ciOf m d L) _).toNat < 1024
  rw [ciOf_read, wordAt_eq]
  have := ht ((tSl L).view.emb ((Rect.unit (s := S512) (k1_off2 k) S16.size (k1_off2_inb k)).toLoadRect.idx x))
  omega

/-! ## The value carried through the loop -/

variable (R : BitVec 32 → F .f32 → Prop)

/-- The loop's value property after `k` trips: the first `16·k` positions of the out scratch hold right values for
    their index words. -/
def Pk (k : Nat) (fs : Buf (Elt F) ((V d (cV L) (jV L)).loc cc1_scratch2)) : Prop :=
  ∀ y : S512.Idx, (y 0).val < 16 * k → R (wordAt m d L y) ((sO).view.read (Elt F) fs y)

theorem Pk_zero (fs : Buf (Elt F) ((V d (cV L) (jV L)).loc cc1_scratch2)) : Pk m d L R 0 fs :=
  fun y h => absurd h (by omega)

set_option maxHeartbeats 1600000 in
/-- The table scratch, once fetched, reads the table. -/
theorem ctOf_read (tab : Buf (Elt F) (vLoc d)) (j : S1024.Idx) :
    View.read (Elt F) ((sT).access (Rect.whole cc1_scratch1.ty.shape)) (ctOf d L tab) j = tab j := by
  rw [Memref.read_access_whole]
  have h := View.read_writes_cons_emb (sT).view (Val := Elt F) (sT).view.junk (Rect.whole cc1_scratch1.ty.shape)
    (ReadAs.same.apply ((vW).view.read (Elt F) tab)) [] j
  rw [Rect.emb_whole_apply] at h
  exact h

/-- Trip `k` loads its sixteen words from the positions it stores its sixteen values to. -/
theorem off2_off3 (k : Fin k1_t1_loop.trips) (x : S16.Idx) :
    (Rect.unit (s := S512) (k1_off2 k) S16.size (k1_off2_inb k)).toLoadRect.idx x
      = (Rect.unit (s := S512) (k1_off3 k) S16.size (k1_off3_inb k)).emb x := by
  funext a
  refine Fin.ext ?_
  show k1_off2 k a + 1 * (x a).val = k1_off3 k a + 1 * (x a).val
  rw [k1_off2_eq, k1_off3_eq]

/-- The out scratch after trip `k` has stored, over contents `fs'`, the sixteen table entries its index words name. -/
abbrev stepFs (tab : Buf (Elt F) (vLoc d)) (fs' : Buf (Elt F) ((V d (cV L) (jV L)).loc cc1_scratch2)) (k : Fin k1_t1_loop.trips)
    (h : ∀ a x, ((![v10Of m d L k] : Fin 1 → IVec S16 32) a x).toNat < S1024.size a) :
    Buf (Elt F) ((V d (cV L) (jV L)).loc cc1_scratch2) :=
  (sO).view.writes (Elt F) fs'
    [⟨Rect.unit (s := S512) (k1_off3 k) S16.size (k1_off3_inb k),
      loadIdx (View.read (Elt F) ((sT).access (Rect.whole cc1_scratch1.ty.shape)) (ctOf d L tab)) ![v10Of m d L k] h⟩]

set_option maxHeartbeats 1600000 in
/-- ONE TRIP: the sixteen values gathered for the trip's sixteen index words are right values for them (the table is
    good and the words are at most 1000), and the earlier positions keep theirs. -/
theorem Pk_step (tab : Buf (Elt F) (vLoc d)) (hG : Good d R tab) (ht : ∀ i, (m (tLoc d) i).toNat ≤ 1000)
    (k : Fin k1_t1_loop.trips) (fs' : Buf (Elt F) ((V d (cV L) (jV L)).loc cc1_scratch2))
    (h : ∀ a x, ((![v10Of m d L k] : Fin 1 → IVec S16 32) a x).toNat < S1024.size a)
    (hP : Pk m d L R k.val fs') :
    Pk m d L R (k.val + 1) (stepFs m d L tab fs' k h) := by
  intro y hy
  by_cases hm : y ∈ (Rect.unit (s := S512) (k1_off3 k) S16.size (k1_off3_inb k)).set
  · obtain ⟨x, rfl⟩ := (Rect.unit (s := S512) (k1_off3 k) S16.size (k1_off3_inb k)).toLoadRect.exists_idx_of_mem hm
    have e1 := View.read_writes_cons_emb (sO).view (Val := Elt F) fs' (Rect.unit (s := S512) (k1_off3 k) S16.size (k1_off3_inb k))
      (loadIdx (View.read (Elt F) ((sT).access (Rect.whole cc1_scratch1.ty.shape)) (ctOf d L tab)) ![v10Of m d L k] h) [] x
    refine e1 ▸ ?_
    show R _ (View.read (Elt F) ((sT).access (Rect.whole cc1_scratch1.ty.shape)) (ctOf d L tab) (idxAt ![v10Of m d L k] h x))
    rw [ctOf_read]
    have hw : v10Of m d L k x = wordAt m d L ((Rect.unit (s := S512) (k1_off3 k) S16.size (k1_off3_inb k)).emb x) := by
      show (sI).view.read (Elt F) (ciOf m d L) _ = _
      rw [ciOf_read, off2_off3]
    refine hG _ _ ?_ ?_
    · show (v10Of m d L k x).toNat = _
      rw [hw]; rfl
    · show (wordAt m d L _).toNat ≤ 1000
      rw [wordAt_eq]; exact ht _
  · have hlt : (y 0).val < 16 * k.val := by
      by_contra hge
      refine hm (Rect.mem_set_unit.mpr fun a => ?_)
      obtain rfl : a = 0 := Subsingleton.elim _ _
      rw [k1_off3_eq]
      show 16 * k.val ≤ (y 0).val ∧ (y 0).val < 16 * k.val + 16
      omega
    rw [View.read_writes_apply_of_forall_not_mem _ _ y _ (fun p hp => by
      rw [List.mem_singleton.mp hp]; exact hm)]
    exact hP y hlt

/-- AFTER THE LAST TRIP the out scratch holds a right value at every position; copied to the subcore's positions of
    the result array, every one of those holds a right value for the index array's word there. -/
theorem out_right (fsN : Buf (Elt F) ((V d (cV L) (jV L)).loc cc1_scratch2)) (hP : Pk m d L R 32 fsN)
    (fo : Buf (Elt F) (oLoc d)) :
    ∀ i ∈ chunkSetL L, R (m (tLoc d) i)
      (((oSl L).view.writes (Elt F) fo [⟨Rect.whole S512, ReadAs.same.apply ((sO).view.read (Elt F) fsN)⟩]) i) := by
  intro i hi
  obtain ⟨y, -, rfl⟩ := Finset.mem_map.mp hi
  have h1 := View.read_writes_cons_emb (oSl L).view (Val := Elt F) fo (Rect.whole S512)
    (ReadAs.same.apply ((sO).view.read (Elt F) fsN)) [] y
  rw [Rect.emb_whole_apply, View.read_apply] at h1
  have h2 := (cast_eq _ _).symm.trans h1
  have hy : (y 0).val < 16 * 32 := (y 0).isLt
  have h3 := hP y hy
  rw [wordAt_eq] at h3
  exact h2 ▸ h3

end Tile

end Cert.Kernel.SC

end
-- ==== Proof.KB.Tile.lean ====
/-
  One vector subcore's task, run: the subcore's scoped storage named, the loop's invariant, and the task's run with
  the value carried through it.
-/
import proofs.«217044_g88356067214146_cont_9to1_m_986_23_alg».proof.Proof.KB.TileVal

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "tW" => (Memref.whole Cert.Kernel.main_arg0_scv : Memref Cert.Kernel.sig Kind.scVector Space.hbm Cert.Kernel.S16384 EltTy.i32)
local notation "vW" => (Memref.whole Cert.Kernel.main_v4_scv : Memref Cert.Kernel.sig Kind.scVector Space.hbm Cert.Kernel.S1024 EltTy.f32)
local notation "oW" => (Memref.whole Cert.Kernel.main_v5_scv : Memref Cert.Kernel.sig Kind.scVector Space.hbm Cert.Kernel.S16384 EltTy.f32)
local notation "sI" => (Memref.whole Cert.Kernel.cc1_scratch0 : Memref Cert.Kernel.sig Kind.scVector Space.vmem Cert.Kernel.S512 EltTy.i32)
local notation "sT" => (Memref.whole Cert.Kernel.cc1_scratch1 : Memref Cert.Kernel.sig Kind.scVector Space.vmem Cert.Kernel.S1024 EltTy.f32)
local notation "sO" => (Memref.whole Cert.Kernel.cc1_scratch2 : Memref Cert.Kernel.sig Kind.scVector Space.vmem Cert.Kernel.S512 EltTy.f32)

section Tile

variable (d : Dev nD) (L : grid1.Coords)

abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scratch4.sem)
abbrev cCcell (d : Dev nD) (c : Fin τ.nSC) (i : Fin τ.nSub) : GSem nD τ sig := (V d c i, .dma cc1_scoped0.sem)

omit [FloatOps F] in
/-- The subcore's three DMA semaphores are among its own cells: they, at zero, and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch4.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped0.sem : SemLoc sig).isScoped .scVector = true; decide⟩⟩⟩)]

omit [FloatOps F] in
/-- The three scratch buffers are among the subcore's own: they, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

variable (qT qV : PosShare TreeShare)

omit [FloatOps F] in
theorem pts_t (q : PosShare TreeShare) (f : Buf (Elt F) (tLoc d)) :
    ((tW).view.loc (V d (cV L) (jV L)) ↦{q} f : sProp 𝕄) = tLoc d ↦{q} f := by
  simp only [Memref.view_whole, View.set_whole]
omit [FloatOps F] in
theorem pts_v (q : PosShare TreeShare) (f : Buf (Elt F) (vLoc d)) :
    ((vW).view.loc (V d (cV L) (jV L)) ↦{q} f : sProp 𝕄) = vLoc d ↦{q} f := by
  simp only [Memref.view_whole, View.set_whole]
omit [FloatOps F] in
theorem pts_o (f : Buf (Elt F) (oLoc d)) :
    ((oSl L).view.loc (V d (cV L) (jV L)) ↦[(oSl L).view.set]{fullShare} f : sProp 𝕄) = oLoc d ↦[chunkSetL L]{fullShare} f := rfl
omit [FloatOps F] in
theorem pts_sI (f : Buf (Elt F) ((V d (cV L) (jV L)).loc cc1_scratch0)) :
    ((sI).view.loc (V d (cV L) (jV L)) ↦[(sI).view.set]{fullShare} f : sProp 𝕄) = (V d (cV L) (jV L)).loc cc1_scratch0 ↦{fullShare} f := by
  simp only [Memref.view_whole, View.set_whole]
omit [FloatOps F] in
theorem pts_sT (f : Buf (Elt F) ((V d (cV L) (jV L)).loc cc1_scratch1)) :
    ((sT).view.loc (V d (cV L) (jV L)) ↦[(sT).view.set]{fullShare} f : sProp 𝕄) = (V d (cV L) (jV L)).loc cc1_scratch1 ↦{fullShare} f := by
  simp only [Memref.view_whole, View.set_whole]
omit [FloatOps F] in
theorem pts_sT_access (f : Buf (Elt F) ((V d (cV L) (jV L)).loc cc1_scratch1)) :
    ((((sT).access (.whole S1024)).loc (V d (cV L) (jV L))) ↦{fullShare} f : sProp 𝕄) = (V d (cV L) (jV L)).loc cc1_scratch1 ↦{fullShare} f := rfl
omit [FloatOps F] in
theorem pts_sO (f : Buf (Elt F) ((V d (cV L) (jV L)).loc cc1_scratch2)) :
    ((sO).view.loc (V d (cV L) (jV L)) ↦[(sO).view.set]{fullShare} f : sProp 𝕄) = (V d (cV L) (jV L)).loc cc1_scratch2 ↦{fullShare} f := by
  simp only [Memref.view_whole, View.set_whole]

/-- The loop's invariant: the index scratch and the table scratch at fixed contents, the out scratch at contents the
    first `k` trips have determined (`Pk k`). -/
def inv (ci : Buf (Elt F) ((V d (cV L) (jV L)).loc cc1_scratch0)) (ct : Buf (Elt F) ((V d (cV L) (jV L)).loc cc1_scratch1))
    (Pk : Nat → Buf (Elt F) ((V d (cV L) (jV L)).loc cc1_scratch2) → Prop) (k : Nat) (_ : PUnit) : sProp 𝕄 :=
  iprop(((sI).view.loc (V d (cV L) (jV L)) ↦[(sI).view.set]{fullShare} ci)
    ∗ ((sT).view.loc (V d (cV L) (jV L)) ↦[(sT).view.set]{fullShare} ct)
    ∗ ∃ fs, ⌜Pk k fs⌝ ∗ ((sO).view.loc (V d (cV L) (jV L)) ↦[(sO).view.set]{fullShare} fs))

variable (R : BitVec 32 → F .f32 → Prop)

/-- ONE SUBCORE'S TASK. The subcore fetches the table and its 512 index words, gathers trip by trip the table's
    entries at the words into its out scratch, and copies the scratch to its 512 positions of the result. Given a
    good table and index words at most 1000, every one of those positions ends holding a right value for the index
    array's word there; the scoped storage is handed back, and the waits recorded are the given ones and three at the
    index `none`. -/
theorem tile_body (ht : ∀ i, (m (tLoc d) i).toNat ≤ 1000) (hF : (K (F := F)).Facts) (O : CellTallies nD τ sig (HIx 1)) (W : Waits sig (HIx 1)) (hO : ∀ g, O g none = 0) :
    (iprop(levAts (K (F := F)).L (K (F := F)).lev ∗ emp
        ∗ ((tLoc d ↦{qT} m (tLoc d)) ∗ (∃ tab, ⌜Good d R tab⌝ ∗ vLoc d ↦{qV} tab) ∗ (∃ fo, oLoc d ↦[chunkSetL L]{fullShare} fo))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc1_gather_kernel L tW (Memref.isWhole_whole _) vW (Memref.isWhole_whole _) oW (Memref.isWhole_whole _)
            sI (Memref.isWhole_whole _) sT (Memref.isWhole_whole _) sO (Memref.isWhole_whole _) cc1_scratch3 cc1_scratch4 cc1_scoped0)
          fun _ => iprop((∃ f, ⌜∀ i ∈ chunkSetL L, R (m (tLoc d) i) (f i)⌝ ∗ oLoc d ↦[chunkSetL L]{fullShare} f)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have h32 : Scf.trips k1_t1_loop.lb k1_t1_loop.ub k1_t1_loop.st = 32 := by decide
  simp only [cc1_gather_kernel_eq_skeleton]; unfold cc1_gather_kernel_skel
  rw [(K (F := F)).scopedBufs_V hF d (cV L) (jV L), SparseCore.Cfg.scopedSems0_V (Val := Elt F) d (cV L) (jV L), ownSems0_V, ownBufs_V]
  iintro ⟨#Hlv, -, ⟨Ht, ⟨%tab, %hG, Hv⟩, ⟨%fo, Ho⟩⟩, ⟨⟨%fi, Hi⟩, ⟨%ft, Hst⟩, ⟨%fs, Hso⟩, Hbufs⟩, ⟨HsemA, HsemB, HsemC, Hsems⟩, HO⟩
  ihave Hmw := ((K (F := F)).mayWaits_none (thr := V d (cV L) (jV L)) hO) $$ Hlv
  ihave Ht' := (Entails.of_eq (pts_t (F := F) d L _ _).symm) $$ Ht
  ihave Hv' := (Entails.of_eq (pts_v (F := F) d L _ _).symm) $$ Hv
  ihave Ho' := (Entails.of_eq (pts_o (F := F) d L _).symm) $$ Ho
  ihave Hi' := (Entails.of_eq (pts_sI (F := F) d L _).symm) $$ Hi
  ihave Hst' := (Entails.of_eq (pts_sT (F := F) d L _).symm) $$ Hst
  ihave Hso' := (Entails.of_eq (pts_sO (F := F) d L _).symm) $$ Hso
  sl_exec
  sl_unfold_run_names
  sl_for (inv (F := F) d L (ciOf m d L) (ctOf d L tab) (Pk m d L R)) $$ [Hi' Hst' Hso']
  case region =>
    intro k _
    unfold inv
    iintro ⟨Hi, Hst, ⟨%fs', %hP, Hso⟩⟩
    sl_exec
    sl_unfold_run_names
    rw [wp_assume_of _ _ _ _ (chk_of m d L ht k)]
    ihave Hst2 := (Entails.of_eq ((pts_sT (F := F) d L _).trans (pts_sT_access (F := F) d L _).symm)) $$ Hst
    iapply (SparseCore.wp_vectorLoadIdx 𝒱₀ (V d (cV L) (jV L)) none Set.univ (base := sT) (S := Finset.univ) (q := fullShare) (Finset.subset_univ _)) $$ Hst2; iintro Hst2
    ihave Hst := (Entails.of_eq ((pts_sT_access (F := F) d L _).trans (pts_sT (F := F) d L _).symm)) $$ Hst2
    sl_exec
    sl_step
    isplitl [Hi]; · iexact Hi
    isplitl [Hst]; · iexact Hst
    iexists (stepFs m d L tab fs' k (k1_idx1_inb _ (chk_of m d L ht k))); isplitr
    · ipureintro; exact Pk_step m d L R tab hG ht k fs' _ hP
    · iexact Hso
  · unfold inv
    isplitl [Hi']; · iexact Hi'
    isplitl [Hst']; · iexact Hst'
    iexists fs; isplitr
    · ipureintro; exact Pk_zero m d L R fs
    · iexact Hso'
  iintro %_ HI
  unfold inv
  icases HI with ⟨Hi, Hst, ⟨%fsN, %hPN, Hso⟩⟩
  rw [h32] at hPN
  sl_exec
  sl_unfold_run_names
  sl_step
  isplitl [Ho']
  · iexists ((oSl L).view.writes (Elt F) fo [⟨Rect.whole S512, ReadAs.same.apply ((sO).view.read (Elt F) fsN)⟩]); isplitr
    · ipureintro; exact out_right m d L R fsN hPN fo
    · iapply (Entails.of_eq (pts_o (F := F) d L _)); iexact Ho'
  isplitl [Hi Hst Hso Hbufs]
  · isplitl [Hi]; · iexists (ciOf m d L); iapply (Entails.of_eq (pts_sI (F := F) d L _)); iexact Hi
    isplitl [Hst]; · iexists (ctOf d L tab); iapply (Entails.of_eq (pts_sT (F := F) d L _)); iexact Hst
    isplitl [Hso]; · iexists fsN; iapply (Entails.of_eq (pts_sO (F := F) d L _)); iexact Hso
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc1_scoped0.sem, (default : HIx 1)) (insert (SemLoc.dma cc1_scratch4.sem, (default : HIx 1))
    (insert (SemLoc.dma cc1_scratch3.sem, (default : HIx 1)) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Tile

end Cert.Kernel.SC

end
-- ==== Proof.KB.Obl.lean ====
/-
  The launch theorem's obligation for the vector-subcore kernel: one subcore's task, from what the worker is handed to
  what it hands back.

  The label table's row for the kernel on subcore `s` of SparseCore `c` is the kernel's function at the grid coordinates
  `(c, s)`; that subcore is worker `2·s + c`, whose chunk of the result is the rectangle the kernel slices at those
  coordinates. The task's run on that chunk is the obligation.
-/
import proofs.«217044_g88356067214146_cont_9to1_m_986_23_alg».proof.Proof.KB.Pay
import proofs.«217044_g88356067214146_cont_9to1_m_986_23_alg».proof.Proof.KB.Tile

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Kernel.Chunks

variable {F : FTy → Type}

local notation "𝕄" => MT nD τ sig (HIx 1) (Elt F) ℕ UU ℕ

variable (m : (ℓ : Loc nD τ sig) → Buf (Elt F) ℓ) (ρ : Dev nD → PrngReg)
variable [FloatOps F]
variable (R : Dev nD → BitVec 32 → F .f32 → Prop)

local notation "tW" => (Memref.whole Cert.Kernel.main_arg0_scv : Memref Cert.Kernel.sig Kind.scVector Space.hbm Cert.Kernel.S16384 EltTy.i32)
local notation "vW" => (Memref.whole Cert.Kernel.main_v4_scv : Memref Cert.Kernel.sig Kind.scVector Space.hbm Cert.Kernel.S1024 EltTy.f32)
local notation "oW" => (Memref.whole Cert.Kernel.main_v5_scv : Memref Cert.Kernel.sig Kind.scVector Space.hbm Cert.Kernel.S16384 EltTy.f32)
local notation "sI" => (Memref.whole Cert.Kernel.cc1_scratch0 : Memref Cert.Kernel.sig Kind.scVector Space.vmem Cert.Kernel.S512 EltTy.i32)
local notation "sT" => (Memref.whole Cert.Kernel.cc1_scratch1 : Memref Cert.Kernel.sig Kind.scVector Space.vmem Cert.Kernel.S1024 EltTy.f32)
local notation "sO" => (Memref.whole Cert.Kernel.cc1_scratch2 : Memref Cert.Kernel.sig Kind.scVector Space.vmem Cert.Kernel.S512 EltTy.f32)

/-- The grid coordinates of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- The label table's row for the kernel on a vector subcore: the kernel's function at the subcore's coordinates. -/
theorem defs₀_vector (c : Fin τ.nSC) (s : Fin τ.nSub) :
    defs₀ (F := F) (.scVector c s) 1 ()
      = SparseCore.onTile hcore1 hsub1 (fun c s => cc1_gather_kernel (coordsV c s)
          tW (Memref.isWhole_whole _) vW (Memref.isWhole_whole _) oW (Memref.isWhole_whole _)
          sI (Memref.isWhole_whole _) sT (Memref.isWhole_whole _) sO (Memref.isWhole_whole _) cc1_scratch3 cc1_scratch4 cc1_scoped0) ⟨⟩ c s := rfl

omit [FloatOps F] in
/-- Waits recorded at the index `none` are among those the obligation allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The vector-subcore kernel's obligation: subcore `i` of SparseCore `c`, handed worker `wOf c i`'s shares and chunk,
    hands the chunk back right for its index words, the index words being at most 1000. -/
theorem tileObl (ht : ∀ (d : Dev nD) i, (m (tLoc d) i).toNat ≤ 1000) : (K (F := F)).TileObl (D (F := F)) 𝒱 (P m R) v₀ 0 := by
  intro d c i O W hO _ _
  -- the kernel owes nothing for a protocol of its own
  simp only [show (P m R).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  -- the subcore's chunk is its worker's
  have hset : chunkSetL (coordsV ⟨_, hc.1⟩ ⟨_, hc.2⟩) = chunkSetW (wOf c i) :=
    (chunkSet_eq _).trans (congrArg chunkSetW (Fin.ext rfl))
  have hb := tile_body m d (coordsV ⟨_, hc.1⟩ ⟨_, hc.2⟩) (Transfers.shareTok fullShare 32 (wOf c i)) (Transfers.shareTok fullShare 32 (wOf c i))
    (R d) (ht d) facts O W hO
  rw [hset] at hb
  exact hb.trans (wp_mono frame _ _ fun _ => obl_post)

end Cert.Kernel.SC

end
-- ==== Proof.KB.Launch.lean ====
/-
  The run of the whole program.

  Every weakly fair execution of the TensorCore's @main and the thirty-two vector subcores' tasks ends; the result holds,
  at each batch position, a right value for that position's index word, and the six arguments are unchanged. The launch
  theorem for SparseCore programs takes the subcores' task, the split of a SparseCore's operands among its subcores
  (the identity), @main's proof, the launch element of the ghost state, and how the final memory reads the claim.
-/
import proofs.«217044_g88356067214146_cont_9to1_m_986_23_alg».proof.Proof.KB.Main
import proofs.«217044_g88356067214146_cont_9to1_m_986_23_alg».proof.Proof.KB.Obl

noncomputable section

namespace Cert.Kernel.SC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

theorem run_main [∀ e, Nonempty (Elt F e)] (R : Dev nD → BitVec 32 → F .f32 → Prop)
    (hR : ∀ (d : Dev nD) (x0 : Vec F S32x1024 .f32), Tab.Agrees (etOf m d) x0 →
      ∀ (j : S1024.Idx) (w : BitVec 32), (j 0).val = w.toNat → w.toNat ≤ 1000 → R d w (flatTab m d x0 j))
    (ht : ∀ (d : Dev nD) i, (m (tLoc d) i).toNat ≤ 1000) :
    θ_run (Cert.Kernel.defs (F := F)) (Cert.Kernel.threads (F := F)) ⟨m, fun _ => 0, ρ⟩ (QC m R) :=
  SparseCore.Cfg.θ_run_sc (K := K (F := F)) (D := D (F := F)) (𝒱 := 𝒱) (EH := EH) (P := P m R) facts v₀
    (fun q hq => match q with | 0 => nomatch hq)
    (fun q _ => match q with | 0 => tileObl m R ht)
    (fun q _ => match q with | 0 => SparseCore.Cfg.VecSplit.of_plain (vecSplit m R))
    m ρ main (G (F := F)) (FIN m R) (u₀ (F := F)) (sep_elim_left.trans (hu₀ m R)) (hmain m ρ R hR) (fq m R) (hfin m R) (QC m R)
    (fun s' h => hQ m R s' h)

end Cert.Kernel.SC

end
-- ==== Proof.ClaimsK.lean ====
/-
  The claim about the kernel as printed: it runs and leaves its arguments unchanged — its run at the trivial relation.
-/
import proofs.«217044_g88356067214146_cont_9to1_m_986_23_alg».proof.Defs
import proofs.«217044_g88356067214146_cont_9to1_m_986_23_alg».proof.Proof.KB.Launch
import proofs.«217044_g88356067214146_cont_9to1_m_986_23_alg».proof.Proof.PreIdx

noncomputable section

namespace Cert.Proof.ClaimsK

open Idealize.ShloMosaic Idealize.SL.Sem

theorem frame_k : Cert.frame_Kernel := fun m g hpre =>
  (θ_run Cert.Kernel.defs _ _).mono (fun _ h c => (h c).2)
    (Cert.Kernel.SC.run_main (F := Bits) m g (fun _ _ _ => True) (fun _ _ _ _ _ _ _ => trivial)
      (fun d => Cert.PreIdx.idx_le (F := Bits) _ _ _ _ _ _ (hpre d)))

end Cert.Proof.ClaimsK

end
-- ==== Proof.lean ====
/-
  The certificate's five claims, assembled.

  Both programs compute, at each of 16384 batch positions, the logistic output of a two-layer perceptron (32 inputs,
  64 rectified hidden units, one output) on the row of a 1001-row table that the position's index word names. The
  reference gathers the 16384 rows and pushes them through the perceptron. The kernel tabulates the perceptron once on
  the TensorCore over the 1001 rows — as 1024 columns, the last 23 of which are never read — and each of the 32 vector
  subcores of the two SparseCores then gathers the tabulated entries at its 512 positions' index words. The
  precondition bounds every index word by 1000 (read signed), so the reference's wrap-around and out-of-range fill are
  never taken and the kernel reads only tabulated columns. At the extended reals the two results are equal entry by
  entry by commutativity of the products alone; each program runs to its end with its arguments unchanged.
-/
import proofs.«217044_g88356067214146_cont_9to1_m_986_23_alg».proof.Defs
import proofs.«217044_g88356067214146_cont_9to1_m_986_23_alg».proof.Proof.Gen.Kernel
import proofs.«217044_g88356067214146_cont_9to1_m_986_23_alg».proof.Proof.Gen.Kernel.Skeleton
import proofs.«217044_g88356067214146_cont_9to1_m_986_23_alg».proof.Proof.Gen.Kernel.Launch
import proofs.«217044_g88356067214146_cont_9to1_m_986_23_alg».proof.Proof.Gen.Kernel.Points
import proofs.«217044_g88356067214146_cont_9to1_m_986_23_alg».proof.Proof.Gen.KernelIdeal
import proofs.«217044_g88356067214146_cont_9to1_m_986_23_alg».proof.Proof.Gen.KernelIdeal.Skeleton
import proofs.«217044_g88356067214146_cont_9to1_m_986_23_alg».proof.Proof.Gen.KernelIdeal.Launch
import proofs.«217044_g88356067214146_cont_9to1_m_986_23_alg».proof.Proof.Gen.KernelIdeal.Points
import proofs.«217044_g88356067214146_cont_9to1_m_986_23_alg».proof.Proof.Gen.ReferenceIdeal
import proofs.«217044_g88356067214146_cont_9to1_m_986_23_alg».proof.Proof.Gen.Pre_input_domain
import proofs.«217044_g88356067214146_cont_9to1_m_986_23_alg».proof.Proof.Claims
import proofs.«217044_g88356067214146_cont_9to1_m_986_23_alg».proof.Proof.ClaimsK
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_input_domain.Gen.facts,
  ClaimsK.frame_k, Claims.frame_ki, Claims.frame_ri, Claims.preserves, Claims.algebraic⟩

end Cert.Proof

end
